-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S16x128 : Shape := ⟨2, ![16, 128]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S16x128 .f32) (main_arg3 : FVec F S16 .f32) (main_arg4 : FVec F S16 .f32) (main_arg5 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S16x128 : Shape := ⟨2, ![16, 128]⟩
abbrev S16 : Shape := ⟨1, ![16]⟩
abbrev S1x16 : Shape := ⟨2, ![1, 16]⟩
abbrev S16x1 : Shape := ⟨2, ![16, 1]⟩
abbrev S1x16384 : Shape := ⟨2, ![1, 16384]⟩
abbrev S256x4096 : Shape := ⟨2, ![256, 4096]⟩
abbrev S16384x16 : Shape := ⟨2, ![16384, 16]⟩
abbrev S16x16384 : Shape := ⟨2, ![16, 16384]⟩
abbrev S256x16 : Shape := ⟨2, ![256, 16]⟩
abbrev S128x16 : Shape := ⟨2, ![128, 16]⟩
abbrev S4096x16 : Shape := ⟨2, ![4096, 16]⟩
abbrev S16x256 : Shape := ⟨2, ![16, 256]⟩
abbrev S16384 : Shape := ⟨1, ![16384]⟩
abbrev S16384x1 : Shape := ⟨2, ![16384, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16x128, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1x16, .f32⟩
  | .hbm, ⟨7, _⟩ => ⟨S16x1, .f32⟩
  | .hbm, ⟨8, _⟩ => ⟨S16x1, .f32⟩
  | .hbm, ⟨9, _⟩ => ⟨S1x16384, .f32⟩
  | .hbm, ⟨10, _⟩ => ⟨S16384x1, .f32⟩
  | .local _ .vmem, ⟨0, _⟩ => ⟨S16384x128, .f32⟩
  | .local _ .vmem, ⟨1, _⟩ => ⟨S256x4096, .f32⟩
  | .local _ .vmem, ⟨2, _⟩ => ⟨S256x4096, .f32⟩
  | .local _ .vmem, ⟨3, _⟩ => ⟨S16x128, .f32⟩
  | .local _ .vmem, ⟨4, _⟩ => ⟨S1x16, .f32⟩
  | .local _ .vmem, ⟨5, _⟩ => ⟨S16x1, .f32⟩
  | .local _ .vmem, ⟨6, _⟩ => ⟨S16x1, .f32⟩
  | .local _ .vmem, ⟨7, _⟩ => ⟨S1x16384, .f32⟩
  | .local _ .vmem, ⟨8, _⟩ => ⟨S16384x16, .f32⟩
  | .local _ .vmem, ⟨9, _⟩ => ⟨S16x16384, .f32⟩
  | .local _ .vmem, ⟨10, _⟩ => ⟨S256x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨2, ![64, 4], ![false, false]⟩

def k0_off1 (i : grid0.Coords) : Fin 2 → Nat :=
  let arg1 : BitVec 32 := BitVec.ofNat 32 (i 1).val
  let c4096_i32 : BitVec 32 := 4096#32
  let v6 : BitVec 32 := Scalar.muli arg1 c4096_i32
  let v7 : Index := Scalar.indexCast v6
  let c0_3 : Index := 0#32
  ![v7.toNat, 0]
def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def k0_off2 (i : grid0.Coords) : Fin 2 → Nat :=
  let c0_13 : Index := 0#32
  let arg0 : BitVec 32 := BitVec.ofNat 32 (i 0).val
  let c256_i32 : BitVec 32 := 256#32
  let v26 : BitVec 32 := Scalar.muli arg0 c256_i32
  let v27 : Index := Scalar.indexCast v26
  ![0, v27.toNat]
def k0_cond5 (i : grid0.Coords) : BitVec 1 :=
  let arg0 : BitVec 32 := BitVec.ofNat 32 (i 0).val
  let c63_i32 : BitVec 32 := 63#32
  let v19 : BitVec 1 := Scalar.cmpi .eq arg0 c63_i32
  let arg1 : BitVec 32 := BitVec.ofNat 32 (i 1).val
  let c3_i32_9 : BitVec 32 := 3#32
  let v20 : BitVec 1 := Scalar.cmpi .eq arg1 c3_i32_9
  let v21 : BitVec 1 := Scalar.andi v19 v20
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S16_S1x16 : S16.ShapeCasts S1x16
  shapeCasts_S16_S16x1 : S16.ShapeCasts S16x1
  inb_S16384x128_S16384x128_0_0 : ∀ a, (![0, 0] : Fin 2 → Nat) a + S16384x128.size a ≤ S16384x128.size a
  h_S16384x128 : 0 < S16384x128.numel
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16384x16 : S1x16.Broadcasts S16384x16
  inb_S16384x16_S16384x16_0_0 : ∀ a, (![0, 0] : Fin 2 → Nat) a + S16384x16.size a ≤ S16384x16.size a
  h_S16384x16 : 0 < S16384x16.numel
  shapeCasts_S16384x16_S16384x16 : S16384x16.ShapeCasts S16384x16
  inb_S256x4096_S256x4096_0_0 : ∀ a, (![0, 0] : Fin 2 → Nat) a + S256x4096.size a ≤ S256x4096.size a
  h_S256x4096 : 0 < S256x4096.numel
  h_S4096x16 : 0 < S4096x16.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x16_p1_0_S16x256 : S256x16.Transposes [1, 0] S16x256
  h_S16x256 : 0 < S16x256.numel
  shapeCasts_S16x256_S16x256 : S16x256.ShapeCasts S16x256
  inb_S16x16384_S16x16384_0_0 : ∀ a, (![0, 0] : Fin 2 → Nat) a + S16x16384.size a ≤ S16x16384.size a
  h_S16x16384 : 0 < S16x16384.numel
  reduces_S16x16384_S16 : S16x16384.Reduces [1] S16
  broadcasts_S16x1_S16x16384 : S16x1.Broadcasts S16x16384
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x16384_S16384 : S16x16384.Reduces [0] S16384
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x16384_S16384x1 : S1x16384.ShapeCasts S16384x1
  dot_S16384x128_S128x16_S16384x16_1_0_0_1_n_n_wf : DotDims.WF S16384x128 S128x16 S16384x16 [1] [0] [0] [1] [] []
  dot_S256x4096_S4096x16_S256x16_1_0_0_1_n_n_wf : DotDims.WF S256x4096 S4096x16 S256x16 [1] [0] [0] [1] [] []
  hrank0 : 0 < grid0.rank
  k0_off1_inb : ∀ i : grid0.Coords, ∀ a, (k0_off1 i) a + S4096x16.size a ≤ S16384x16.size a
  k0_off2_inb : ∀ i : grid0.Coords, ∀ (k0_h4 : k0_cond4 i = 1#1), ∀ a, (k0_off2 i) a + S16x256.size a ≤ S16x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S16384x128.size a
  hwx0_0 : ∀ i : grid0.Coords, EltTy.bits .f32 = 32 ∨ (Rect.block (s := S16384x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x16384.size a
  hwx0_1 : ∀ i : grid0.Coords, EltTy.bits .f32 = 32 ∨ (Rect.block (s := S16384x16384) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16384.size a ≤ S1x16384.size a
  hwx0_6 : ∀ i : grid0.Coords, EltTy.bits .f32 = 32 ∨ (Rect.block (s := S1x16384) S1x16384.size (cc0_transform_6 i) (hinb0_6 i)).WholeWords (EltTy.packing .f32)

variable [Facts₀]

def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf

abbrev win0_0 : Pipeline.Window sig grid0 :=
  Pipeline.Window.ofSpec (Memref.whole main_arg0) S16384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x16384.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond5 i == 1#1) | ⟨_ + 7, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S16x128 : Shape := ⟨2, ![16, 128]⟩
abbrev S16 : Shape := ⟨1, ![16]⟩
abbrev S128x16 : Shape := ⟨2, ![128, 16]⟩
abbrev S16384x16 : Shape := ⟨2, ![16384, 16]⟩
abbrev S1x16 : Shape := ⟨2, ![1, 16]⟩
abbrev S_ : Shape := ⟨0, ![]⟩
abbrev S16384 : Shape := ⟨1, ![16384]⟩
abbrev S16384x1 : Shape := ⟨2, ![16384, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16x128, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S128x16, .f32⟩
  | .hbm, ⟨7, _⟩ => ⟨S16384x16, .f32⟩
  | .hbm, ⟨8, _⟩ => ⟨S1x16, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S16, .f32⟩
  | .hbm, ⟨20, _⟩ => ⟨S1x16, .f32⟩
  | .hbm, ⟨21, _⟩ => ⟨S_, .f32⟩
  | .hbm, ⟨22, _⟩ => ⟨S1x16, .f32⟩
  | .hbm, ⟨23, _⟩ => ⟨S1x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S1x16, .f32⟩
  | .hbm, ⟨41, _⟩ => ⟨S16384x16, .f32⟩
  | .hbm, ⟨42, _⟩ => ⟨S16384x16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S1x16, .f32⟩
  | .hbm, ⟨48, _⟩ => ⟨S16384x16, .f32⟩
  | .hbm, ⟨49, _⟩ => ⟨S16384x16, .f32⟩
  | .hbm, ⟨50, _⟩ => ⟨S1x16, .f32⟩
  | .hbm, ⟨51, _⟩ => ⟨S16384x16, .f32⟩
  | .hbm, ⟨52, _⟩ => ⟨S16384x16, .f32⟩
  | .hbm, ⟨53, _⟩ => ⟨S1x16, .f32⟩
  | .hbm, ⟨54, _⟩ => ⟨S16384x16, .f32⟩
  | .hbm, ⟨55, _⟩ => ⟨S16384x16, .f32⟩
  | .hbm, ⟨56, _⟩ => ⟨S_, .f32⟩
  | .hbm, ⟨57, _⟩ => ⟨S16384x16, .f32⟩
  | .hbm, ⟨58, _⟩ => ⟨S16384x16, .f32⟩
  | .hbm, ⟨59, _⟩ => ⟨S_, .f32⟩
  | .hbm, ⟨60, _⟩ => ⟨S16384, .f32⟩
  | .hbm, ⟨61, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call1_cst : Ref sig .tc := ⟨.hbm, 56, rfl⟩
abbrev main_call1_v0 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]

class Facts₀ : Prop where
  transposes_S16x128_S128x16_1_0 : S16x128.Transposes [1, 0] S128x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16_d0 : S16384x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S16384x16 : S_.BroadcastsInDim S16384x16 (![] : Fin 0 → Fin S16384x16.rank)
  reducesTo_S16384x16_S16384_d1 : S16384x16.ReducesTo [1] S16384
  bcast_S16384_S16384x1_0 : S16384.BroadcastsInDim S16384x1 (![0] : Fin 1 → Fin S16384x1.rank)
  dot_S16384x128_S128x16_S16384x16_1_0_0_1_n_n_wf : DotDims.WF S16384x128 S128x16 S16384x16 [1] [0] [0] [1] [] []
  dot_S16384x16384_S16384x16_S16384x16_1_0_0_1_n_n_wf : DotDims.WF S16384x16384 S16384x16 S16384x16 [1] [0] [0] [1] [] []

variable [Facts₀]

def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.K.Shared.lean ====
/-
  What the runs of the kernel body share. The grid has 64 × 4 = 256 points; point t is row block t / 4 and
  panel t % 4. The body's five branches depend on the point only: the projection is computed at t = 0; the block
  accumulator is overwritten at panel 0 and added to at panels 1–3; at panel 3 the accumulated block is stored
  transposed into its 256 columns of the 16 × 16384 scratch; at t = 255 the normalisation, the clamp and the maximum
  over features are written to the one output block. Each condition is decided over the 256 points in closed form.
-/
import proofs.«148315_g64123861729553_cont_9to1_m_268_14_alg».proof.Proof.Gen.Kernel.Launch
import proofs.«148315_g64123861729553_cont_9to1_m_268_14_alg».proof.Proof.Gen.Kernel.Skeleton
import proofs.«148315_g64123861729553_cont_9to1_m_268_14_alg».proof.Proof.Gen.Kernel.Points
import proofs.«148315_g64123861729553_cont_9to1_m_268_14_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, from the grid coordinates -/

/-- "first row block and first panel": the projection is computed here. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "first panel": the accumulator is overwritten. -/
abbrev cond2 (i : grid0.Coords) : Prop :=
  (Scalar.cmpi .ne (Scalar.extui (Scalar.cmpi .eq (BitVec.ofNat 32 (i 1).val) 0#32)) 0#32) = 1#1
/-- "a later panel": the accumulator is added to. -/
abbrev cond3 (i : grid0.Coords) : Prop :=
  (Scalar.cmpi .ne (Scalar.extui (Scalar.cmpi .sgt (BitVec.ofNat 32 (i 1).val) 0#32)) 0#32) = 1#1
/-- "last panel": the block is stored transposed. -/
abbrev cond4 (i : grid0.Coords) : Prop := k0_cond4 i = 1#1
/-- "last row block and last panel": the epilogue. -/
abbrev cond5 (i : grid0.Coords) : Prop := k0_cond5 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ ¬ t.val % 4 = 0 :=
  (by decide +kernel : ∀ t : Fin grid0.N, cond3 (grid0.coords t) ↔ ¬ t.val % 4 = 0)
theorem hcond4 : ∀ t : Fin cfg0.N, cond4 (grid0.coords t) ↔ t.val % 4 = 3 :=
  (by decide +kernel : ∀ t : Fin grid0.N, cond4 (grid0.coords t) ↔ t.val % 4 = 3)
theorem hcond5 : ∀ t : Fin cfg0.N, cond5 (grid0.coords t) ↔ t.val = 255 :=
  (by decide +kernel : ∀ t : Fin grid0.N, cond5 (grid0.coords t) ↔ t.val = 255)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Away from the last point nothing is stored into the output block, and it is not written back. -/
theorem idleAt6 : ∀ t : Fin cfg0.N, ¬ cond5 (grid0.coords t) → cfg0.idle 6 (grid0.coords t) = true := by decide +kernel
theorem noFlush6 : ∀ t : Fin cfg0.N, ¬ cond5 (grid0.coords t) → (cfg0.win 6).flush t = false := by decide +kernel
theorem liveAt6 : ∀ t : Fin cfg0.N, cond5 (grid0.coords t) → cfg0.idle 6 (grid0.coords t) = false := by decide +kernel

/-! ## The memrefs the body is called with -/

abbrev ms0 (t : Fin cfg0.N) : Memref sig .tc .vmem S16384x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x16384 .f32 := win0_6.stage (cfg0.slots t 6)
abbrev hs6 (t : Fin cfg0.N) : (ms6 t).IsWhole := hstage0_6 ((cfg0.slots t 6).cast nbuf0_6)
/-- The three scratch operands: the projection, the transposed product, the block accumulator. -/
abbrev scTh : Memref sig .tc .vmem S16384x16 .f32 := Memref.whole cc0_scratch0
abbrev scZT : Memref sig .tc .vmem S16x16384 .f32 := Memref.whole cc0_scratch1
abbrev scAcc : Memref sig .tc .vmem S256x16 .f32 := Memref.whole cc0_scratch2

/-- The region's invariant with the three scratch operands as memrefs owned at some contents. -/
theorem PhiA_eq (c : Dev nD) :
    (Pipeline.ΦA spec0 c : sProp 𝕄)
      = iprop(iprop((∃ d, owns (c : Thread nD τ) scTh fullShare d) ∗ (∃ d, owns (c : Thread nD τ) scZT fullShare d) ∗ (∃ d, owns (c : Thread nD τ) scAcc fullShare d)) ∗ (∃ r, prngReg c r)) := by
  unfold Pipeline.ΦA; rw [scopedRest0_eq]; simp only [scTh, scZT, scAcc, owns_whole]; try rfl

end Cert.Kernel.Body

end
-- ==== Proof.K.State.lean ====
/-
  What the kernel's scratch buffers hold from point to point, as functions of the argument arrays' blocks.

  * the projection `thAt`: computed at point 0 from the blocks of Z_H, W and the bias row, and never changed;
  * the block accumulator `accAt n` after point n = 4·I + j: the product of panel j of row block I of L with rows
    4096·j … of the projection, overwriting the accumulator at j = 0 and added to it at j = 1, 2, 3;
  * the transposed product `ztAt`: column r holds, for each feature, the finished accumulator of row block r / 256
    at row r % 256. The scratch that carries it starts at arbitrary contents and gets 256 more columns at each
    fourth point: after point n it AGREES with `ztAt` on the columns below 256·((n + 1) / 4), and says nothing
    of the others;
  * the output block `outAt`: the epilogue of the full transposed product, written at the last point only.
-/
import proofs.«148315_g64123861729553_cont_9to1_m_268_14_alg».proof.Proof.K.Shared
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The 4096 rows of the projection a point multiplies by. -/
abbrev RPan (i : grid0.Coords) : Rect S16384x16 := Rect.unit (s := S16384x16) (k0_off1 i) S4096x16.size (k0_off1_inb i)
/-- The 256 columns of the transposed product a fourth point stores. -/
abbrev RCol (i : grid0.Coords) (h : cond4 i) : Rect S16x16384 := Rect.unit (s := S16x16384) (k0_off2 i) S16x256.size (k0_off2_inb i h)

theorem N_eq : cfg0.N = 256 := N_0

/-- Point n as a point of the grid. -/
abbrev pt (n : ℕ) (h : n < 256) : Fin cfg0.N := ⟨n, lt_of_lt_of_eq h N_eq.symm⟩

/-- The projection: the linear layer of the whole Z_H block, as point 0 computes it. -/
def thAt (c : Dev nD) : Vec F S16384x16 .f32 :=
  k0_pay1 (iblk m c 0 (pt 0 (by decide))) (iblk m c 2 (pt 0 (by decide))) (iblk m c 3 (pt 0 (by decide)))

/-- The panel product a point contributes. -/
def partAt (c : Dev nD) (n : ℕ) (h : n < 256) : Vec F S256x16 .f32 :=
  k0_pay3 (iblk m c 1 (pt n h)) (View.ld (thAt m c) (RPan (grid0.coords (pt n h))))

/-- The block accumulator after point `n`. -/
def accAt (c : Dev nD) : (n : ℕ) → n < 256 → Vec F S256x16 .f32
  | 0, h => partAt m c 0 h
  | n + 1, h =>
    if (n + 1) % 4 = 0 then partAt m c (n + 1) h
    else k0_pay4 (iblk m c 1 (pt (n + 1) h)) (View.ld (thAt m c) (RPan (grid0.coords (pt (n + 1) h)))) (accAt c n (Nat.lt_of_succ_lt h))

theorem accAt_new (c : Dev nD) (n : ℕ) (h : n < 256) (h0 : n % 4 = 0) : accAt m c n h = partAt m c n h := by
  cases n with
  | zero => rfl
  | succ n => exact if_pos h0

theorem accAt_add (c : Dev nD) (n : ℕ) (h : n < 256) (h0 : ¬ n % 4 = 0) :
    accAt m c n h = k0_pay4 (iblk m c 1 (pt n h)) (View.ld (thAt m c) (RPan (grid0.coords (pt n h)))) (accAt m c (n - 1) (by omega)) := by
  cases n with
  | zero => exact absurd (Nat.zero_mod _) h0
  | succ n => exact if_neg h0

/-- The transposed product: column `r` is the finished accumulator of row block `r / 256`, transposed. -/
def ztAt (c : Dev nD) : Vec F S16x16384 .f32 := fun idx =>
  k0_pay5 (accAt m c (4 * ((idx 1).val / 256) + 3) (by have := ValueIdx.idx2_lt1 idx; omega))
    (ValueIdx.ix2 (⟨(idx 0).val, ValueIdx.idx2_lt0 idx⟩ : Fin 16) (⟨(idx 1).val % 256, Nat.mod_lt _ (by decide)⟩ : Fin 256))

/-- The output block, as the last point writes it. -/
def outAt (c : Dev nD) (t : Fin cfg0.N) : Vec F S1x16384 .f32 :=
  k0_pay6 (ztAt m c) (iblk m c 4 t) (iblk m c 5 t)

/-- The scratch carrying the transposed product agrees with it on the columns already stored. -/
def AgreeZT (c : Dev nD) (k : ℕ) (d : Vec F S16x16384 .f32) : Prop :=
  ∀ idx : S16x16384.Idx, (idx 1).val < 256 * k → d idx = ztAt m c idx

/-- The region's invariant before position `n`: before the first point every scratch holds anything; afterwards the
    projection and the accumulator are at their definite contents and the transposed product's scratch at some
    contents agreeing with it on the stored columns. -/
def PhiS (c : Dev nD) : (n : ℕ) → n ≤ 256 → sProp 𝕄
  | 0, _ => Pipeline.ΦA spec0 c
  | n + 1, hn => iprop(iprop(owns (c : Thread nD τ) scTh fullShare (thAt m c)
      ∗ (∃ d, iprop(⌜AgreeZT m c ((n + 1) / 4) d⌝ ∗ owns (c : Thread nD τ) scZT fullShare d))
      ∗ owns (c : Thread nD τ) scAcc fullShare (accAt m c n hn)) ∗ (∃ r, prngReg c r))

end Cert.Kernel.Body

end
-- ==== Proof.K.Data.lean ====
/-
  The proof data of the one pipeline: the arrays as the region finds them; after the body at each point every input
  block still in its buffer and the output block at the epilogue's value; between points the scratch buffers as
  the state says. And what the body is handed and hands back at a point, window by window.
-/
import proofs.«148315_g64123861729553_cont_9to1_m_268_14_alg».proof.Proof.K.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiS_zero (c : Dev nD) (n : ℕ) (h : n ≤ 256) (hz : n = 0) : PhiS m c n h = Pipeline.ΦA spec0 c := by
  subst hz; rfl

theorem PhiS_succ (c : Dev nD) (n : ℕ) (hn : n < 256) :
    PhiS m c (n + 1) hn = iprop(iprop(owns (c : Thread nD τ) scTh fullShare (thAt m c)
      ∗ (∃ d, iprop(⌜AgreeZT m c ((n + 1) / 4) d⌝ ∗ owns (c : Thread nD τ) scZT fullShare d))
      ∗ owns (c : Thread nD τ) scAcc fullShare (accAt m c n hn)) ∗ (∃ r, prngReg c r)) := rfl

theorem PhiS_pos (c : Dev nD) (n : ℕ) (h : n ≤ 256) (hz : n ≠ 0) :
    PhiS m c n h = iprop(iprop(owns (c : Thread nD τ) scTh fullShare (thAt m c)
      ∗ (∃ d, iprop(⌜AgreeZT m c (n / 4) d⌝ ∗ owns (c : Thread nD τ) scZT fullShare d))
      ∗ owns (c : Thread nD τ) scAcc fullShare (accAt m c (n - 1) (by omega))) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val ((Nat.le_of_lt_succ t.isLt).trans_eq N_eq)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (le_of_lt (lt_of_lt_of_eq t.isLt N_eq)) := by
  dsimp only [dats]; simp only [Fin.coe_castSucc]

theorem Phi_succ (c : Dev nD) (t : Fin cfg0.N) :
    (dats m 0 c).Φ t.succ = PhiS m c (t.val + 1) (lt_of_lt_of_eq t.isLt N_eq) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- An input's buffer is handed back holding its block. -/
theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4 (c : Dev nD) (t : Fin cfg0.N) : (dats m 0 c).leavesExact 4 t = owns (c : Thread nD τ) (ms4 t) fullShare (iblk m c 4 t) := by
  unfold Dat.leavesExact; rw [liveAt4 t, after4]
theorem leaves5 (c : Dev nD) (t : Fin cfg0.N) : (dats m 0 c).leavesExact 5 t = owns (c : Thread nD τ) (ms5 t) fullShare (iblk m c 5 t) := by
  unfold Dat.leavesExact; rw [liveAt5 t, after5]
/-- At the last point the output's buffer is handed back holding the epilogue's value. -/
theorem leaves6 (c : Dev nD) (t : Fin cfg0.N) (h5 : cond5 (grid0.coords t)) :
    (dats m 0 c).leavesExact 6 t = owns (c : Thread nD τ) (ms6 t) fullShare (outAt m c t) := by
  unfold Dat.leavesExact; rw [liveAt6 t h5, after6]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val ((Nat.le_of_lt_succ (Fin.last cfg0.N).isLt).trans_eq N_eq) from rfl,
    PhiS_pos m c _ _ (by rw [Fin.val_last, N_eq]; decide), PhiA_eq]
  iintro ⟨⟨HTh, ⟨%d1, %hd1, HZT⟩, HAcc⟩, Hg⟩
  isplitl [HTh HZT HAcc]
  · isplitl [HTh]
    · iexists _; iexact HTh
    isplitl [HZT]
    · iexists _; iexact HZT
    iexists _; iexact HAcc
  iexact Hg

end Cert.Kernel.Body

end
-- ==== Proof.K.RunA.lean ====
/-
  The kernel body run at the first point: the projection is computed and stored whole; the accumulator is overwritten with panel 0's product.
-/
import proofs.«148315_g64123861729553_cont_9to1_m_268_14_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at the first point: the projection is computed and stored whole; the accumulator is overwritten with panel 0's product. On whole memrefs — the six input blocks at their contents, the scratch
    buffers and the output block as the point finds them — the body runs to its end and hands every buffer back: what
    it only reads as it was, what it stores into with its stores written (the piece lists are the witness the run finds). -/
noncomputable def runA (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : cond1 i) (hc2 : cond2 i) (hc3 : ¬cond3 i) (hc4 : ¬cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) :
    Σ' (LS0 : List (View.Piece (Elt F) S16384x16 .f32)), { LS2 : List (View.Piece (Elt F) S256x16 .f32) //
      ∀ (xi6 : Vec F S1x16384 .f32) (xs1 : Vec F S16x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, ?_, fun xi6 xs1 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%dHS0, %fHS0, -, HS0⟩, ⟨%fHS1, %hfHS1, HS1⟩, ⟨%dHS2, %fHS2, -, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg10.eq_unread hfHS1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    isplitl [HS1]
    · iexists _; isplitr; · ipureintro; exact harg10.read_unread _
      iexact HS1
    iexists _; iexact HS2

end Cert.Kernel.Body

end
-- ==== Proof.K.RunB.lean ====
/-
  The kernel body run at panel 0 of a later row block: the accumulator is overwritten with the panel's product.
-/
import proofs.«148315_g64123861729553_cont_9to1_m_268_14_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at panel 0 of a later row block: the accumulator is overwritten with the panel's product. On whole memrefs — the six input blocks at their contents, the scratch
    buffers and the output block as the point finds them — the body runs to its end and hands every buffer back: what
    it only reads as it was, what it stores into with its stores written (the piece lists are the witness the run finds). -/
noncomputable def runB (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : cond2 i) (hc3 : ¬cond3 i) (hc4 : ¬cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) :
    { LS2 : List (View.Piece (Elt F) S256x16 .f32) //
      ∀ (xi6 : Vec F S1x16384 .f32) (xs1 : Vec F S16x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, fun xi6 xs1 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%fHS0, %hfHS0, HS0⟩, ⟨%fHS1, %hfHS1, HS1⟩, ⟨%dHS2, %fHS2, -, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg9.eq_unread hfHS0; obtain rfl := harg10.eq_unread hfHS1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; iexact HS2

end Cert.Kernel.Body

end
-- ==== Proof.K.RunC.lean ====
/-
  The kernel body run at panels 1 and 2: the panel's product is added to the accumulator.
-/
import proofs.«148315_g64123861729553_cont_9to1_m_268_14_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at panels 1 and 2: the panel's product is added to the accumulator. On whole memrefs — the six input blocks at their contents, the scratch
    buffers and the output block as the point finds them — the body runs to its end and hands every buffer back: what
    it only reads as it was, what it stores into with its stores written (the piece lists are the witness the run finds). -/
noncomputable def runC (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : ¬cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs2 : Vec F S256x16 .f32) :
    { LS2 : List (View.Piece (Elt F) S256x16 .f32) //
      ∀ (xi6 : Vec F S1x16384 .f32) (xs1 : Vec F S16x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, fun xi6 xs1 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg9.eq_unread hfHS0; obtain rfl := harg10.eq_unread hfHS1; obtain rfl := harg11.eq_unread hfHS2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; iexact HS2

end Cert.Kernel.Body

end
-- ==== Proof.K.RunD.lean ====
/-
  The kernel body run at panel 3 of a row block but the last: the product is added and the finished block stored transposed into its 256 columns.
-/
import proofs.«148315_g64123861729553_cont_9to1_m_268_14_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at panel 3 of a row block but the last: the product is added and the finished block stored transposed into its 256 columns. On whole memrefs — the six input blocks at their contents, the scratch
    buffers and the output block as the point finds them — the body runs to its end and hands every buffer back: what
    it only reads as it was, what it stores into with its stores written (the piece lists are the witness the run finds). -/
noncomputable def runD (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    Σ' (LS1 : List (View.Piece (Elt F) S16x16384 .f32)), { LS2 : List (View.Piece (Elt F) S256x16 .f32) //
      ∀ (xi6 : Vec F S1x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, ?_, fun xi6 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg9.eq_unread hfHS0; obtain rfl := harg10.eq_unread hfHS1; obtain rfl := harg11.eq_unread hfHS2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexact HS1
    iexists _; iexact HS2

end Cert.Kernel.Body

end
-- ==== Proof.K.RunE.lean ====
/-
  The kernel body run at the last point: as at every panel 3, and then the normalisation, the clamp and the maximum over features are stored into the output block.
-/
import proofs.«148315_g64123861729553_cont_9to1_m_268_14_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at the last point: as at every panel 3, and then the normalisation, the clamp and the maximum over features are stored into the output block. On whole memrefs — the six input blocks at their contents, the scratch
    buffers and the output block as the point finds them — the body runs to its end and hands every buffer back: what
    it only reads as it was, what it stores into with its stores written (the piece lists are the witness the run finds). -/
noncomputable def runE (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    Σ' (L6 : List (View.Piece (Elt F) S1x16384 .f32)) (LS1 : List (View.Piece (Elt F) S16x16384 .f32)), { LS2 : List (View.Piece (Elt F) S256x16 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%dH6, %fH6, -, H6⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg9.eq_unread hfHS0; obtain rfl := harg10.eq_unread hfHS1; obtain rfl := harg11.eq_unread hfHS2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    isplitl [HS1]
    · iexact HS1
    iexists _; iexact HS2

end Cert.Kernel.Body

end
-- ==== Proof.K.Pieces.lean ====
/-
  What each run's stores leave, read back as plain functions of what the point found: a whole-block store leaves its
  payload; the 256-column store leaves the old contents with those columns replaced.
-/
import proofs.«148315_g64123861729553_cont_9to1_m_268_14_alg».proof.Proof.K.RunA
import proofs.«148315_g64123861729553_cont_9to1_m_268_14_alg».proof.Proof.K.RunB
import proofs.«148315_g64123861729553_cont_9to1_m_268_14_alg».proof.Proof.K.RunC
import proofs.«148315_g64123861729553_cont_9to1_m_268_14_alg».proof.Proof.K.RunD
import proofs.«148315_g64123861729553_cont_9to1_m_268_14_alg».proof.Proof.K.RunE
import proofs.«148315_g64123861729553_cont_9to1_m_268_14_alg».proof.Proof.K.State
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- One store through a rectangle reads back as the old contents overlaid with the payload there. -/
theorem read_writes_one {sg : RefSig} {κ : Kind} {sp : Space} {S : Shape} {e : EltTy} {Val : EltTy → Type}
    (v : View sg κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y [⟨r, w⟩] (by intro p hp; rw [List.mem_singleton.mp hp]; exact hy), Rect.overlay_of_not_mem _ _ _ hy]

/-- One store through the whole shape reads back as its payload. -/
theorem read_writes_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0) (inb : ∀ a, off a + S.size a ≤ S.size a)
    (w : S.Idx → Val e) : v.read Val (v.writes Val f [(⟨Rect.unit off S.size inb, w⟩ : View.Piece Val S e)]) = w := by
  rw [View.read_writes_eq_canon v f _ (fun y => ⟨_, List.mem_singleton_self _, View.mem_set_unit_zero h inb y⟩), View.canon_unit_zero h inb w]

/-- Overlaying the whole shape leaves just the payload. -/
theorem overlay_whole {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rw [Rect.emb_whole_apply] at e
  exact e

theorem pieceC2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs2 : Vec F S256x16 .f32) :
    v.read (Elt F) (v.writes (Elt F) f (runC c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs2).1)
      = k0_pay4 x1 (View.ld xs0 (RPan i)) xs2 := by
  unfold runC; dsimp only

  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceB2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : cond2 i) (hc3 : ¬cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) :
    v.read (Elt F) (v.writes (Elt F) f (runB c i arg2 harg2 arg3 harg3 arg4 harg4 arg5 harg5 arg6 harg6 arg7 harg7 arg8 harg8 arg9 harg9 arg10 harg10 arg11 harg11 hc1 hc2 hc3 hc4 hc5 x0 x1 x2 x3 x4 x5 xs0).1)
      = k0_pay3 x1 (View.ld xs0 (RPan i)) := by
  unfold runB; dsimp only

  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceD2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runD c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).2.1)
      = k0_pay4 x1 (View.ld xs0 (RPan i)) xs2 := by
  unfold runD; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceD1 {sg : RefSig} {κ : Kind} {sp : Space} (v : View sg κ sp S16x16384 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runD c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).1)
      = (RCol i hc4).overlay (v.read (Elt F) f) (k0_pay5 (k0_pay4 x1 (View.ld xs0 (RPan i)) xs2)) := by
  unfold runD; dsimp only
  sl_unfold_words
  rw [read_writes_one]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceE2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runE c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).2.2.1)
      = k0_pay4 x1 (View.ld xs0 (RPan i)) xs2 := by
  unfold runE; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceE1 {sg : RefSig} {κ : Kind} {sp : Space} (v : View sg κ sp S16x16384 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runE c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).2.1)
      = (RCol i hc4).overlay (v.read (Elt F) f) (k0_pay5 (k0_pay4 x1 (View.ld xs0 (RPan i)) xs2)) := by
  unfold runE; dsimp only
  sl_unfold_words
  rw [read_writes_one]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceE6 {sg : RefSig} {κ : Kind} {sp : Space} (v : View sg κ sp S1x16384 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runE c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).1)
      = k0_pay6 ((RCol i hc4).overlay xs1 (k0_pay5 (k0_pay4 x1 (View.ld xs0 (RPan i)) xs2))) x4 x5 := by
  unfold runE; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceA0 {sg : RefSig} {κ : Kind} {sp : Space} (v : View sg κ sp S16384x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : cond1 i) (hc2 : cond2 i) (hc3 : ¬cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) :
    v.read (Elt F) (v.writes (Elt F) f (runA c i arg2 harg2 arg3 harg3 arg4 harg4 arg5 harg5 arg6 harg6 arg7 harg7 arg8 harg8 arg9 harg9 arg10 harg10 arg11 harg11 hc1 hc2 hc3 hc4 hc5 x0 x1 x2 x3 x4 x5).1)
      = k0_pay1 x0 x2 x3 := by
  unfold runA; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceA2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : cond1 i) (hc2 : cond2 i) (hc3 : ¬cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) :
    v.read (Elt F) (v.writes (Elt F) f (runA c i arg2 harg2 arg3 harg3 arg4 harg4 arg5 harg5 arg6 harg6 arg7 harg7 arg8 harg8 arg9 harg9 arg10 harg10 arg11 harg11 hc1 hc2 hc3 hc4 hc5 x0 x1 x2 x3 x4 x5).2.1)
      = k0_pay3 x1 (View.ld (k0_pay1 x0 x2 x3) (RPan i)) := by
  unfold runA; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

end Cert.Kernel.Body

end
-- ==== Proof.K.BlockRead.lean ====
/-
  The blocks the kernel body reads, as entries of the argument arrays, and the two rectangles it cuts out of its
  scratch buffers, by coordinates.

  The grid has 64 × 4 points; point n is row block n / 4 and panel n % 4.  The operator's window moves with the
  point: its block at point n is rows 256·(n / 4) … and columns 4096·(n % 4) … of the operator.  Every other window
  is its whole array at every point; the bias, the scale and the shift arrive as a row [1, 16] or a column [16, 1]
  cast from a vector [16].  The panel of the projection a point multiplies by is rows 4096·(n % 4) …; the columns
  of the transposed product a fourth point stores are 256·(n / 4) ….
-/
import proofs.«148315_g64123861729553_cont_9to1_m_268_14_alg».proof.Proof.K.State
import Idealize.ShloMosaic.Lib.ValueIdx
import Idealize.ShloMosaic.Lib.ValueLayout
import Idealize.ShloMosaic.Lib.Pipeline.Value

set_option maxRecDepth 16384

noncomputable section

namespace Cert.Kernel.Body

open Cert.Kernel Cert.Kernel.Gen Idealize.ShloMosaic ValueIdx
open Idealize.ShloMosaic.TcCoe

variable {F : FTy → Type} [FloatOps F]

/-! ## The two offset chains in closed form -/

/-- The panel's first row: 4096 times the panel number. -/
theorem off1_eq : ∀ t : Fin cfg0.N, k0_off1 (grid0.coords t) = ![4096 * (t.val % 4), 0] :=
  (by decide +kernel : ∀ t : Fin grid0.N, k0_off1 (grid0.coords t) = ![4096 * (t.val % 4), 0])

/-- The stored columns' first column: 256 times the row block number. -/
theorem off2_eq : ∀ t : Fin cfg0.N, k0_off2 (grid0.coords t) = ![0, 256 * (t.val / 4)] :=
  (by decide +kernel : ∀ t : Fin grid0.N, k0_off2 (grid0.coords t) = ![0, 256 * (t.val / 4)])

/-! ## The stored columns of the transposed product -/

/-- Column q of the 256 stored at point n is column 256·(n / 4) + q of the scratch. -/
theorem col_emb (n : ℕ) (h : n < 256) (h4 : cond4 (grid0.coords (pt n h))) (o : Fin 16) (q : Fin 256) :
    (RCol (grid0.coords (pt n h)) h4).emb (ix2 o q)
      = ix2 o (⟨256 * (n / 4) + q.val, by have := q.isLt; omega⟩ : Fin 16384) := by
  have e := off2_eq (pt n h)
  funext a
  refine Fin.ext ?_
  match a with
  | ⟨0, _⟩ =>
    show k0_off2 (grid0.coords (pt n h)) 0 + 1 * o.val = o.val
    rw [e]
    show 0 + 1 * o.val = o.val
    omega
  | ⟨1, _⟩ =>
    show k0_off2 (grid0.coords (pt n h)) 1 + 1 * q.val = 256 * (n / 4) + q.val
    rw [e]
    show 256 * (n / 4) + 1 * q.val = 256 * (n / 4) + q.val
    omega

/-- An index of the scratch is among the columns stored at point n iff its column is. -/
theorem col_mem (n : ℕ) (h : n < 256) (h4 : cond4 (grid0.coords (pt n h))) (idx : S16x16384.Idx) :
    idx ∈ (RCol (grid0.coords (pt n h)) h4).set
      ↔ 256 * (n / 4) ≤ (idx 1).val ∧ (idx 1).val < 256 * (n / 4) + 256 := by
  show idx ∈ (Rect.unit (s := S16x16384) (k0_off2 (grid0.coords (pt n h))) S16x256.size _).set ↔ _
  rw [Rect.mem_set_unit, off2_eq (pt n h)]
  constructor
  · intro hm
    exact hm 1
  · intro hm a
    match a with
    | ⟨0, _⟩ =>
      refine ⟨Nat.zero_le _, ?_⟩
      show (idx 0).val < 0 + 16
      have := idx2_lt0 idx
      omega
    | ⟨1, _⟩ => exact hm

/-! ## The panel of the projection a point multiplies by -/

/-- Row k of the panel read at point n is row 4096·(n % 4) + k of the projection. -/
theorem pan_apply (n : ℕ) (h : n < 256) (X : Vec F S16384x16 .f32) (k : Fin 4096) (o : Fin 16) :
    View.ld X (RPan (grid0.coords (pt n h))) (ix2 k o)
      = X (ix2 (⟨4096 * (n % 4) + k.val, by have := k.isLt; omega⟩ : Fin 16384) o) := by
  have e := off1_eq (pt n h)
  show X ((RPan (grid0.coords (pt n h))).idx (ix2 k o)) = _
  refine congrArg X ?_
  funext a
  refine Fin.ext ?_
  match a with
  | ⟨0, _⟩ =>
    show k0_off1 (grid0.coords (pt n h)) 0 + 1 * k.val = 4096 * (n % 4) + k.val
    rw [e]
    show 4096 * (n % 4) + 1 * k.val = 4096 * (n % 4) + k.val
    omega
  | ⟨1, _⟩ =>
    show k0_off1 (grid0.coords (pt n h)) 1 + 1 * o.val = o.val
    rw [e]
    show 0 + 1 * o.val = o.val
    omega

/-! ## The windows' index maps over the grid -/

/-- The operator's window is at block (n / 4, n % 4) at point n. -/
theorem idx1_eq : ∀ t : Fin cfg0.N, win0_1.index t (0 : Fin 2) = t.val / 4 ∧ win0_1.index t (1 : Fin 2) = t.val % 4 :=
  (by decide +kernel : ∀ t : Fin grid0.N, _)
/-- Every other input window is at block (0, 0) at every point. -/
theorem idx0_eq : ∀ t : Fin cfg0.N, win0_0.index t (0 : Fin 2) = 0 ∧ win0_0.index t (1 : Fin 2) = 0 :=
  (by decide +kernel : ∀ t : Fin grid0.N, _)
theorem idx2_eq : ∀ t : Fin cfg0.N, win0_2.index t (0 : Fin 2) = 0 ∧ win0_2.index t (1 : Fin 2) = 0 :=
  (by decide +kernel : ∀ t : Fin grid0.N, _)
theorem idx3_eq : ∀ t : Fin cfg0.N, win0_3.index t (0 : Fin 2) = 0 ∧ win0_3.index t (1 : Fin 2) = 0 :=
  (by decide +kernel : ∀ t : Fin grid0.N, _)
theorem idx4_eq : ∀ t : Fin cfg0.N, win0_4.index t (0 : Fin 2) = 0 ∧ win0_4.index t (1 : Fin 2) = 0 :=
  (by decide +kernel : ∀ t : Fin grid0.N, _)
theorem idx5_eq : ∀ t : Fin cfg0.N, win0_5.index t (0 : Fin 2) = 0 ∧ win0_5.index t (1 : Fin 2) = 0 :=
  (by decide +kernel : ∀ t : Fin grid0.N, _)

/-! ## The blocks as entries of the argument arrays -/

variable (m : (ℓ : Loc nD τ sig) → Buf (Elt F) ℓ)

/-- The operator's block at point n: rows 256·(n / 4) …, columns 4096·(n % 4) …. -/
theorem blk1 (c : Dev nD) (n : ℕ) (h : n < 256) (p : Fin 256) (k : Fin 4096) :
    iblk m c 1 (pt n h) (ix2 p k)
      = m ((c : Thread nD τ).loc main_arg1)
          (ix2 (⟨256 * (n / 4) + p.val, by have := p.isLt; omega⟩ : Fin 16384)
            (⟨4096 * (n % 4) + k.val, by have := k.isLt; omega⟩ : Fin 16384)) := by
  obtain ⟨e0, e1⟩ := idx1_eq (pt n h)
  show V m c main_arg1 (((cfg0.win 1).blk (pt n h)).view.emb (ix2 p k)) = _
  rw [V_main_arg1]
  refine congrArg (m ((c : Thread nD τ).loc main_arg1)) ?_
  funext a
  refine Fin.ext ?_
  match a with
  | ⟨0, _⟩ =>
    show win0_1.index (pt n h) (0 : Fin 2) * 256 + 1 * p.val = 256 * (n / 4) + p.val
    rw [e0]
    show n / 4 * 256 + 1 * p.val = 256 * (n / 4) + p.val
    omega
  | ⟨1, _⟩ =>
    show win0_1.index (pt n h) (1 : Fin 2) * 4096 + 1 * k.val = 4096 * (n % 4) + k.val
    rw [e1]
    show n % 4 * 4096 + 1 * k.val = 4096 * (n % 4) + k.val
    omega

/-- The features' block is the whole array at every point. -/
theorem blk0 (c : Dev nD) (t : Fin cfg0.N) (n : Fin 16384) (k : Fin 128) :
    iblk m c 0 t (ix2 n k) = m ((c : Thread nD τ).loc main_arg0) (ix2 n k) := by
  obtain ⟨e0, e1⟩ := idx0_eq t
  show V m c main_arg0 (((cfg0.win 0).blk t).view.emb (ix2 n k)) = _
  rw [V_main_arg0]
  refine congrArg (m ((c : Thread nD τ).loc main_arg0)) ?_
  funext a
  refine Fin.ext ?_
  match a with
  | ⟨0, _⟩ =>
    show win0_0.index t (0 : Fin 2) * 16384 + 1 * n.val = n.val
    omega
  | ⟨1, _⟩ =>
    show win0_0.index t (1 : Fin 2) * 128 + 1 * k.val = k.val
    omega

/-- The weight's block is the whole array at every point. -/
theorem blk2 (c : Dev nD) (t : Fin cfg0.N) (o : Fin 16) (k : Fin 128) :
    iblk m c 2 t (ix2 o k) = m ((c : Thread nD τ).loc main_arg2) (ix2 o k) := by
  obtain ⟨e0, e1⟩ := idx2_eq t
  show V m c main_arg2 (((cfg0.win 2).blk t).view.emb (ix2 o k)) = _
  rw [V_main_arg2]
  refine congrArg (m ((c : Thread nD τ).loc main_arg2)) ?_
  funext a
  refine Fin.ext ?_
  match a with
  | ⟨0, _⟩ =>
    show win0_2.index t (0 : Fin 2) * 16 + 1 * o.val = o.val
    omega
  | ⟨1, _⟩ =>
    show win0_2.index t (1 : Fin 2) * 128 + 1 * k.val = k.val
    omega

/-! ## The bias row and the scale and shift columns: casts of vectors, made before the region -/

/-- The bias row the region finds is the bias vector cast to [1, 16]. -/
theorem V_bias (c : Dev nD) :
    (V m c main_v0 : S1x16.Idx → Elt F .f32)
      = shapeCast S1x16 (m ((c : Thread nD τ).loc main_arg3)) shapeCasts_S16_S1x16 := by
  show StableHlo.after hostOps0 (fun b => m (c, b)) (Proc.devRef .tc main_v0) = _
  after_results
  rfl

/-- The scale column the region finds is the scale vector cast to [16, 1]. -/
theorem V_scale (c : Dev nD) :
    (V m c main_v1 : S16x1.Idx → Elt F .f32)
      = shapeCast S16x1 (m ((c : Thread nD τ).loc main_arg4)) shapeCasts_S16_S16x1 := by
  show StableHlo.after hostOps0 (fun b => m (c, b)) (Proc.devRef .tc main_v1) = _
  after_results
  rfl

/-- The shift column the region finds is the shift vector cast to [16, 1]. -/
theorem V_shift (c : Dev nD) :
    (V m c main_v2 : S16x1.Idx → Elt F .f32)
      = shapeCast S16x1 (m ((c : Thread nD τ).loc main_arg5)) shapeCasts_S16_S16x1 := by
  show StableHlo.after hostOps0 (fun b => m (c, b)) (Proc.devRef .tc main_v2) = _
  after_results
  rfl

/-- A vector [16] cast to a column [16, 1] reads, at (o, 0), the vector at o. -/
theorem castCol16_apply {α : Type} (v : S16.Idx → α) (o : Fin 16) :
    shapeCast S16x1 v shapeCasts_S16_S16x1 (ix2 o (0 : Fin 1)) = v (ix1 o) :=
  shapeCast_apply v shapeCasts_S16_S16x1 _ _ (by
    rw [Shape.rowMajor_val_two, Shape.rowMajor_val_one]
    show o.val = o.val * 1 + 0
    omega)

/-- The bias row's block, at every point, reads the bias vector. -/
theorem blk3 (c : Dev nD) (t : Fin cfg0.N) (o : Fin 16) :
    iblk m c 3 t (ix2 (0 : Fin 1) o) = m ((c : Thread nD τ).loc main_arg3) (ix1 o) := by
  obtain ⟨e0, e1⟩ := idx3_eq t
  have hemb : ((cfg0.win 3).blk t).view.emb (ix2 (0 : Fin 1) o) = ix2 (0 : Fin 1) o := by
    funext a
    refine Fin.ext ?_
    match a with
    | ⟨0, _⟩ =>
      show win0_3.index t (0 : Fin 2) * 1 + 1 * 0 = 0
      omega
    | ⟨1, _⟩ =>
      show win0_3.index t (1 : Fin 2) * 16 + 1 * o.val = o.val
      omega
  show V m c main_v0 (((cfg0.win 3).blk t).view.emb (ix2 (0 : Fin 1) o)) = _
  refine (congrArg (V m c main_v0) hemb).trans ?_
  refine (congrFun (V_bias m c) (ix2 (0 : Fin 1) o)).trans ?_
  exact shapeCast_a_1a_apply _ shapeCasts_S16_S1x16 (0 : Fin 1) o

/-- The scale column's block, at every point, reads the scale vector. -/
theorem blk4 (c : Dev nD) (t : Fin cfg0.N) (o : Fin 16) :
    iblk m c 4 t (ix2 o (0 : Fin 1)) = m ((c : Thread nD τ).loc main_arg4) (ix1 o) := by
  obtain ⟨e0, e1⟩ := idx4_eq t
  have hemb : ((cfg0.win 4).blk t).view.emb (ix2 o (0 : Fin 1)) = ix2 o (0 : Fin 1) := by
    funext a
    refine Fin.ext ?_
    match a with
    | ⟨0, _⟩ =>
      show win0_4.index t (0 : Fin 2) * 16 + 1 * o.val = o.val
      omega
    | ⟨1, _⟩ =>
      show win0_4.index t (1 : Fin 2) * 1 + 1 * 0 = 0
      omega
  show V m c main_v1 (((cfg0.win 4).blk t).view.emb (ix2 o (0 : Fin 1))) = _
  refine (congrArg (V m c main_v1) hemb).trans ?_
  refine (congrFun (V_scale m c) (ix2 o (0 : Fin 1))).trans ?_
  exact castCol16_apply _ o

/-- The shift column's block, at every point, reads the shift vector. -/
theorem blk5 (c : Dev nD) (t : Fin cfg0.N) (o : Fin 16) :
    iblk m c 5 t (ix2 o (0 : Fin 1)) = m ((c : Thread nD τ).loc main_arg5) (ix1 o) := by
  obtain ⟨e0, e1⟩ := idx5_eq t
  have hemb : ((cfg0.win 5).blk t).view.emb (ix2 o (0 : Fin 1)) = ix2 o (0 : Fin 1) := by
    funext a
    refine Fin.ext ?_
    match a with
    | ⟨0, _⟩ =>
      show win0_5.index t (0 : Fin 2) * 16 + 1 * o.val = o.val
      omega
    | ⟨1, _⟩ =>
      show win0_5.index t (1 : Fin 2) * 1 + 1 * 0 = 0
      omega
  show V m c main_v2 (((cfg0.win 5).blk t).view.emb (ix2 o (0 : Fin 1))) = _
  refine (congrArg (V m c main_v2) hemb).trans ?_
  refine (congrFun (V_shift m c) (ix2 o (0 : Fin 1))).trans ?_
  exact castCol16_apply _ o

end Cert.Kernel.Body

end
-- ==== Proof.K.Agree.lean ====
/-
  How the stored columns of the transposed product grow. A fourth point n = 4·I + 3 stores the transpose of the finished
  accumulator of row block I into columns 256·I … 256·I + 255; the columns below 256·I were stored by earlier points
  and are left alone. So agreement on the columns below 256·I becomes agreement below 256·(I + 1); after the last
  point every column is stored and the scratch IS the transposed product.
-/
import proofs.«148315_g64123861729553_cont_9to1_m_268_14_alg».proof.Proof.K.State
import proofs.«148315_g64123861729553_cont_9to1_m_268_14_alg».proof.Proof.K.BlockRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open ValueIdx

variable (m : (ℓ : Loc nD τ sig) → Buf (Elt F) ℓ)

theorem accAt_congr (c : Dev nD) {n n' : ℕ} (e : n = n') (h : n < 256) (h' : n' < 256) : accAt m c n h = accAt m c n' h' := by
  subst e; rfl

theorem pay5_congr {a a' : Vec F S256x16 .f32} (ha : a = a') {y y' : S16x256.Idx} (hy : y = y') : k0_pay5 a y = k0_pay5 a' y' := by
  subst ha; subst hy; rfl

/-- Storing the finished block's transpose into its 256 columns extends the agreement by those columns. -/
theorem agree_step (c : Dev nD) (n : ℕ) (h : n < 256) (h3 : n % 4 = 3) (h4 : cond4 (grid0.coords (pt n h)))
    (w : Vec F S256x16 .f32) (hw : w = accAt m c n h) (d : Vec F S16x16384 .f32) (hd : AgreeZT m c (n / 4) d) :
    AgreeZT m c ((n + 1) / 4) ((RCol (grid0.coords (pt n h)) h4).overlay d (k0_pay5 w)) := by
  subst hw
  intro idx hlt
  by_cases hmem : idx ∈ (RCol (grid0.coords (pt n h)) h4).set
  · obtain ⟨x, rfl⟩ : ∃ x, (RCol (grid0.coords (pt n h)) h4).emb x = idx := (RCol (grid0.coords (pt n h)) h4).exists_idx_of_mem hmem
    rw [Rect.overlay_emb]
    obtain ⟨o, q, rfl⟩ : ∃ (o : Fin 16) (q : Fin 256), x = ix2 o q := ⟨x 0, x 1, eq_ix2 x⟩
    rw [col_emb n h h4 o q]
    have e1 : n = 4 * ((256 * (n / 4) + q.val) / 256) + 3 := by omega
    have e2 : (256 * (n / 4) + q.val) % 256 = q.val := by omega
    unfold ztAt
    refine pay5_congr (accAt_congr m c e1 _ _) ?_
    funext a
    match a with
    | ⟨0, _⟩ => exact Fin.ext rfl
    | ⟨1, _⟩ => exact Fin.ext e2.symm
  · rw [Rect.overlay_of_not_mem _ _ _ hmem]
    apply hd
    have hm := (col_mem n h h4 idx).not.mp hmem
    have e : (n + 1) / 4 = n / 4 + 1 := by omega
    rw [e] at hlt
    omega

/-- Once all 64 column blocks are stored the scratch is the transposed product. -/
theorem agree_all (c : Dev nD) (d : Vec F S16x16384 .f32) (hd : AgreeZT m c 64 d) : d = ztAt m c :=
  funext fun idx => hd idx (by have := idx2_lt1 idx; omega)

end Cert.Kernel.Body

end
-- ==== Proof.K.Sound.lean ====
/-
  The body at every point. Which stores a point makes depends on its position only: the first point; panel 0 of a later
  row block; panels 1 and 2; panel 3; the last point. In each case the run of that case applies: the inputs' buffers
  hold their blocks, the invariant hands over the scratch buffers at what the point before left, and takes them back
  at this point's contents — the accumulator overwritten or added to, the transposed product's scratch with 256 more
  columns agreeing, and at the last point the output block at the epilogue of the full transposed product.
  Then the launch: every weakly fair execution of the program terminates without a fault, the argument arrays unchanged.
-/
import proofs.«148315_g64123861729553_cont_9to1_m_268_14_alg».proof.Proof.K.Data
import proofs.«148315_g64123861729553_cont_9to1_m_268_14_alg».proof.Proof.K.Pieces
import proofs.«148315_g64123861729553_cont_9to1_m_268_14_alg».proof.Proof.K.Agree

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at any point: by cases on the point's position, the run of that case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_succ, PhiS_succ]
  rw [leaves0, leaves1, leaves2, leaves3, leaves4, leaves5]
  have hN : t.val < 256 := lt_of_lt_of_eq t.isLt N_eq
  by_cases h0 : t.val % 4 = 0
  · have k2 : cond2 (grid0.coords t) := (hcond2 t).mpr h0
    have k3 : ¬ cond3 (grid0.coords t) := fun h => (hcond3 t).mp h h0
    have k4 : ¬ cond4 (grid0.coords t) := fun h => by have := (hcond4 t).mp h; omega
    have k5 : ¬ cond5 (grid0.coords t) := fun h => by have := (hcond5 t).mp h; omega
    by_cases hz : t.val = 0
    · have k1 : cond1 (grid0.coords t) := (hcond1 t).mpr hz
      have ht : t = pt 0 (by decide) := Fin.ext hz
      rw [Dat.leavesExact_idle (dats m 0 c) 6 t (idleAt6 t k5) (noFlush6 t k5)]
      rw [Phi_castSucc m c t, PhiS_zero m c _ _ hz, PhiA_eq]
      iintro ⟨⟨⟨HTh, ⟨%d1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
      iapply ((runA c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) ).2.2 _ d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HTh]; · iexact HTh
      isplitl [HZT]; · iexact HZT
      isplitl [HAcc]; · iexact HAcc
      iintro ⟨H0, H1, H2, H3, H4, H5, H6, ⟨%fTh, HTh⟩, HZT, ⟨%fAcc, HAcc⟩⟩
      isplitl [HTh HZT HAcc Hg]
      · isplitl [HTh HZT HAcc]
        · isplitl [HTh]
          · unfold owns; iexists _; isplitr
            swap; · iexact HTh
            ipureintro; exact (pieceA0 ..).trans (by subst ht; rfl)
          isplitl [HZT]
          · iexists d1; isplitr
            · ipureintro; intro idx hlt; exfalso; rw [hz] at hlt; omega
            iexact HZT
          unfold owns; iexists _; isplitr
          swap; · iexact HAcc
          ipureintro; exact (pieceA2 ..).trans (by subst ht; rfl)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have k1 : ¬ cond1 (grid0.coords t) := fun h => hz ((hcond1 t).mp h)
      rw [Dat.leavesExact_idle (dats m 0 c) 6 t (idleAt6 t k5) (noFlush6 t k5)]
      rw [Phi_castSucc m c t, PhiS_pos m c _ _ hz]
      iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c)).2 _ d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HTh]; · iexact HTh
      isplitl [HZT]; · iexact HZT
      isplitl [HAcc]; · iexists _; iexact HAcc
      iintro ⟨H0, H1, H2, H3, H4, H5, H6, HTh, HZT, ⟨%fAcc, HAcc⟩⟩
      isplitl [HTh HZT HAcc Hg]
      · isplitl [HTh HZT HAcc]
        · isplitl [HTh]
          · iexact HTh
          isplitl [HZT]
          · iexists d1; isplitr
            · ipureintro
              have e : (t.val + 1) / 4 = t.val / 4 := by omega
              rw [e]; exact hd1
            iexact HZT
          unfold owns; iexists _; isplitr
          swap; · iexact HAcc
          ipureintro; exact (pieceB2 ..).trans (accAt_new m c t.val _ h0).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have k1 : ¬ cond1 (grid0.coords t) := fun h => hz ((hcond1 t).mp h)
    have k2 : ¬ cond2 (grid0.coords t) := fun h => h0 ((hcond2 t).mp h)
    have k3 : cond3 (grid0.coords t) := (hcond3 t).mpr h0
    by_cases h3 : t.val % 4 = 3
    · have k4 : cond4 (grid0.coords t) := (hcond4 t).mpr h3
      by_cases hl : t.val = 255
      · have k5 : cond5 (grid0.coords t) := (hcond5 t).mpr hl
        rw [leaves6 m c t k5]
        rw [Phi_castSucc m c t, PhiS_pos m c _ _ hz]
        iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
        iapply ((runE c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c) d1 (accAt m c (t.val - 1) (by omega))).2.2.2  Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HTh]; · iexact HTh
        isplitl [HZT]; · iexact HZT
        isplitl [HAcc]; · iexact HAcc
        iintro ⟨H0, H1, H2, H3, H4, H5, ⟨%f6, H6⟩, HTh, HZT, ⟨%fAcc, HAcc⟩⟩
        isplitl [HTh HZT HAcc Hg]
        · isplitl [HTh HZT HAcc]
          · isplitl [HTh]
            · iexact HTh
            isplitl [HZT]
            · iexists ((RCol (grid0.coords t) k4).overlay d1 (k0_pay5 (accAt m c t.val hN))); isplitr
              · ipureintro; exact agree_step m c t.val hN h3 k4 _ rfl d1 hd1
              unfold owns; iexists _; isplitr
              swap; · iexact HZT
              ipureintro; exact (pieceE1 ..).trans (by rw [Memref.IsWhole.read_unread, accAt_add m c t.val hN h0])
            unfold owns; iexists _; isplitr
            swap; · iexact HAcc
            ipureintro; exact (pieceE2 ..).trans (accAt_add m c t.val _ h0).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact (pieceE6 ..).trans (by rw [← accAt_add m c t.val hN h0]; exact congrArg (fun z => k0_pay6 z (iblk m c 4 t) (iblk m c 5 t)) (agree_all m c _ (by have e := agree_step m c t.val hN h3 k4 _ rfl d1 hd1; rw [show (t.val + 1) / 4 = 64 by omega] at e; exact e)))
      · have k5 : ¬ cond5 (grid0.coords t) := fun h => hl ((hcond5 t).mp h)
        rw [Dat.leavesExact_idle (dats m 0 c) 6 t (idleAt6 t k5) (noFlush6 t k5)]
        rw [Phi_castSucc m c t, PhiS_pos m c _ _ hz]
        iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
        iapply ((runD c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c) d1 (accAt m c (t.val - 1) (by omega))).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HTh]; · iexact HTh
        isplitl [HZT]; · iexact HZT
        isplitl [HAcc]; · iexact HAcc
        iintro ⟨H0, H1, H2, H3, H4, H5, H6, HTh, HZT, ⟨%fAcc, HAcc⟩⟩
        isplitl [HTh HZT HAcc Hg]
        · isplitl [HTh HZT HAcc]
          · isplitl [HTh]
            · iexact HTh
            isplitl [HZT]
            · iexists ((RCol (grid0.coords t) k4).overlay d1 (k0_pay5 (accAt m c t.val hN))); isplitr
              · ipureintro; exact agree_step m c t.val hN h3 k4 _ rfl d1 hd1
              unfold owns; iexists _; isplitr
              swap; · iexact HZT
              ipureintro; exact (pieceD1 ..).trans (by rw [Memref.IsWhole.read_unread, accAt_add m c t.val hN h0])
            unfold owns; iexists _; isplitr
            swap; · iexact HAcc
            ipureintro; exact (pieceD2 ..).trans (accAt_add m c t.val _ h0).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have k4 : ¬ cond4 (grid0.coords t) := fun h => h3 ((hcond4 t).mp h)
      have k5 : ¬ cond5 (grid0.coords t) := fun h => by have := (hcond5 t).mp h; omega
      rw [Dat.leavesExact_idle (dats m 0 c) 6 t (idleAt6 t k5) (noFlush6 t k5)]
      rw [Phi_castSucc m c t, PhiS_pos m c _ _ hz]
      iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
      iapply ((runC c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c) (accAt m c (t.val - 1) (by omega))).2 _ d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HTh]; · iexact HTh
      isplitl [HZT]; · iexact HZT
      isplitl [HAcc]; · iexact HAcc
      iintro ⟨H0, H1, H2, H3, H4, H5, H6, HTh, HZT, ⟨%fAcc, HAcc⟩⟩
      isplitl [HTh HZT HAcc Hg]
      · isplitl [HTh HZT HAcc]
        · isplitl [HTh]
          · iexact HTh
          isplitl [HZT]
          · iexists d1; isplitr
            · ipureintro
              have e : (t.val + 1) / 4 = t.val / 4 := by omega
              rw [e]; exact hd1
            iexact HZT
          unfold owns; iexists _; isplitr
          swap; · iexact HAcc
          ipureintro; exact (pieceC2 ..).trans (accAt_add m c t.val _ h0).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program on the TensorCores terminates, and every final state has every array of
    the pipeline at what the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Shared.lean ====
/-
  What the runs of the kernel body share. The grid has 64 × 4 = 256 points; point t is row block t / 4 and
  panel t % 4. The body's five branches depend on the point only: the projection is computed at t = 0; the block
  accumulator is overwritten at panel 0 and added to at panels 1–3; at panel 3 the accumulated block is stored
  transposed into its 256 columns of the 16 × 16384 scratch; at t = 255 the normalisation, the clamp and the maximum
  over features are written to the one output block. Each condition is decided over the 256 points in closed form.
-/
import proofs.«148315_g64123861729553_cont_9to1_m_268_14_alg».proof.Proof.Gen.KernelIdeal.Launch
import proofs.«148315_g64123861729553_cont_9to1_m_268_14_alg».proof.Proof.Gen.KernelIdeal.Skeleton
import proofs.«148315_g64123861729553_cont_9to1_m_268_14_alg».proof.Proof.Gen.KernelIdeal.Points
import proofs.«148315_g64123861729553_cont_9to1_m_268_14_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, from the grid coordinates -/

/-- "first row block and first panel": the projection is computed here. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "first panel": the accumulator is overwritten. -/
abbrev cond2 (i : grid0.Coords) : Prop :=
  (Scalar.cmpi .ne (Scalar.extui (Scalar.cmpi .eq (BitVec.ofNat 32 (i 1).val) 0#32)) 0#32) = 1#1
/-- "a later panel": the accumulator is added to. -/
abbrev cond3 (i : grid0.Coords) : Prop :=
  (Scalar.cmpi .ne (Scalar.extui (Scalar.cmpi .sgt (BitVec.ofNat 32 (i 1).val) 0#32)) 0#32) = 1#1
/-- "last panel": the block is stored transposed. -/
abbrev cond4 (i : grid0.Coords) : Prop := k0_cond4 i = 1#1
/-- "last row block and last panel": the epilogue. -/
abbrev cond5 (i : grid0.Coords) : Prop := k0_cond5 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ ¬ t.val % 4 = 0 :=
  (by decide +kernel : ∀ t : Fin grid0.N, cond3 (grid0.coords t) ↔ ¬ t.val % 4 = 0)
theorem hcond4 : ∀ t : Fin cfg0.N, cond4 (grid0.coords t) ↔ t.val % 4 = 3 :=
  (by decide +kernel : ∀ t : Fin grid0.N, cond4 (grid0.coords t) ↔ t.val % 4 = 3)
theorem hcond5 : ∀ t : Fin cfg0.N, cond5 (grid0.coords t) ↔ t.val = 255 :=
  (by decide +kernel : ∀ t : Fin grid0.N, cond5 (grid0.coords t) ↔ t.val = 255)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Away from the last point nothing is stored into the output block, and it is not written back. -/
theorem idleAt6 : ∀ t : Fin cfg0.N, ¬ cond5 (grid0.coords t) → cfg0.idle 6 (grid0.coords t) = true := by decide +kernel
theorem noFlush6 : ∀ t : Fin cfg0.N, ¬ cond5 (grid0.coords t) → (cfg0.win 6).flush t = false := by decide +kernel
theorem liveAt6 : ∀ t : Fin cfg0.N, cond5 (grid0.coords t) → cfg0.idle 6 (grid0.coords t) = false := by decide +kernel

/-! ## The memrefs the body is called with -/

abbrev ms0 (t : Fin cfg0.N) : Memref sig .tc .vmem S16384x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x16384 .f32 := win0_6.stage (cfg0.slots t 6)
abbrev hs6 (t : Fin cfg0.N) : (ms6 t).IsWhole := hstage0_6 ((cfg0.slots t 6).cast nbuf0_6)
/-- The three scratch operands: the projection, the transposed product, the block accumulator. -/
abbrev scTh : Memref sig .tc .vmem S16384x16 .f32 := Memref.whole cc0_scratch0
abbrev scZT : Memref sig .tc .vmem S16x16384 .f32 := Memref.whole cc0_scratch1
abbrev scAcc : Memref sig .tc .vmem S256x16 .f32 := Memref.whole cc0_scratch2

/-- The region's invariant with the three scratch operands as memrefs owned at some contents. -/
theorem PhiA_eq (c : Dev nD) :
    (Pipeline.ΦA spec0 c : sProp 𝕄)
      = iprop(iprop((∃ d, owns (c : Thread nD τ) scTh fullShare d) ∗ (∃ d, owns (c : Thread nD τ) scZT fullShare d) ∗ (∃ d, owns (c : Thread nD τ) scAcc fullShare d)) ∗ (∃ r, prngReg c r)) := by
  unfold Pipeline.ΦA; rw [scopedRest0_eq]; simp only [scTh, scZT, scAcc, owns_whole]; try rfl

end Cert.KernelIdeal.Body

end
-- ==== Proof.KI.State.lean ====
/-
  What the kernel's scratch buffers hold from point to point, as functions of the argument arrays' blocks.

  * the projection `thAt`: computed at point 0 from the blocks of Z_H, W and the bias row, and never changed;
  * the block accumulator `accAt n` after point n = 4·I + j: the product of panel j of row block I of L with rows
    4096·j … of the projection, overwriting the accumulator at j = 0 and added to it at j = 1, 2, 3;
  * the transposed product `ztAt`: column r holds, for each feature, the finished accumulator of row block r / 256
    at row r % 256. The scratch that carries it starts at arbitrary contents and gets 256 more columns at each
    fourth point: after point n it AGREES with `ztAt` on the columns below 256·((n + 1) / 4), and says nothing
    of the others;
  * the output block `outAt`: the epilogue of the full transposed product, written at the last point only.
-/
import proofs.«148315_g64123861729553_cont_9to1_m_268_14_alg».proof.Proof.KI.Shared
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The 4096 rows of the projection a point multiplies by. -/
abbrev RPan (i : grid0.Coords) : Rect S16384x16 := Rect.unit (s := S16384x16) (k0_off1 i) S4096x16.size (k0_off1_inb i)
/-- The 256 columns of the transposed product a fourth point stores. -/
abbrev RCol (i : grid0.Coords) (h : cond4 i) : Rect S16x16384 := Rect.unit (s := S16x16384) (k0_off2 i) S16x256.size (k0_off2_inb i h)

theorem N_eq : cfg0.N = 256 := N_0

/-- Point n as a point of the grid. -/
abbrev pt (n : ℕ) (h : n < 256) : Fin cfg0.N := ⟨n, lt_of_lt_of_eq h N_eq.symm⟩

/-- The projection: the linear layer of the whole Z_H block, as point 0 computes it. -/
def thAt (c : Dev nD) : Vec F S16384x16 .f32 :=
  k0_pay1 (iblk m c 0 (pt 0 (by decide))) (iblk m c 2 (pt 0 (by decide))) (iblk m c 3 (pt 0 (by decide)))

/-- The panel product a point contributes. -/
def partAt (c : Dev nD) (n : ℕ) (h : n < 256) : Vec F S256x16 .f32 :=
  k0_pay3 (iblk m c 1 (pt n h)) (View.ld (thAt m c) (RPan (grid0.coords (pt n h))))

/-- The block accumulator after point `n`. -/
def accAt (c : Dev nD) : (n : ℕ) → n < 256 → Vec F S256x16 .f32
  | 0, h => partAt m c 0 h
  | n + 1, h =>
    if (n + 1) % 4 = 0 then partAt m c (n + 1) h
    else k0_pay4 (iblk m c 1 (pt (n + 1) h)) (View.ld (thAt m c) (RPan (grid0.coords (pt (n + 1) h)))) (accAt c n (Nat.lt_of_succ_lt h))

theorem accAt_new (c : Dev nD) (n : ℕ) (h : n < 256) (h0 : n % 4 = 0) : accAt m c n h = partAt m c n h := by
  cases n with
  | zero => rfl
  | succ n => exact if_pos h0

theorem accAt_add (c : Dev nD) (n : ℕ) (h : n < 256) (h0 : ¬ n % 4 = 0) :
    accAt m c n h = k0_pay4 (iblk m c 1 (pt n h)) (View.ld (thAt m c) (RPan (grid0.coords (pt n h)))) (accAt m c (n - 1) (by omega)) := by
  cases n with
  | zero => exact absurd (Nat.zero_mod _) h0
  | succ n => exact if_neg h0

/-- The transposed product: column `r` is the finished accumulator of row block `r / 256`, transposed. -/
def ztAt (c : Dev nD) : Vec F S16x16384 .f32 := fun idx =>
  k0_pay5 (accAt m c (4 * ((idx 1).val / 256) + 3) (by have := ValueIdx.idx2_lt1 idx; omega))
    (ValueIdx.ix2 (⟨(idx 0).val, ValueIdx.idx2_lt0 idx⟩ : Fin 16) (⟨(idx 1).val % 256, Nat.mod_lt _ (by decide)⟩ : Fin 256))

/-- The output block, as the last point writes it. -/
def outAt (c : Dev nD) (t : Fin cfg0.N) : Vec F S1x16384 .f32 :=
  k0_pay6 (ztAt m c) (iblk m c 4 t) (iblk m c 5 t)

/-- The scratch carrying the transposed product agrees with it on the columns already stored. -/
def AgreeZT (c : Dev nD) (k : ℕ) (d : Vec F S16x16384 .f32) : Prop :=
  ∀ idx : S16x16384.Idx, (idx 1).val < 256 * k → d idx = ztAt m c idx

/-- The region's invariant before position `n`: before the first point every scratch holds anything; afterwards the
    projection and the accumulator are at their definite contents and the transposed product's scratch at some
    contents agreeing with it on the stored columns. -/
def PhiS (c : Dev nD) : (n : ℕ) → n ≤ 256 → sProp 𝕄
  | 0, _ => Pipeline.ΦA spec0 c
  | n + 1, hn => iprop(iprop(owns (c : Thread nD τ) scTh fullShare (thAt m c)
      ∗ (∃ d, iprop(⌜AgreeZT m c ((n + 1) / 4) d⌝ ∗ owns (c : Thread nD τ) scZT fullShare d))
      ∗ owns (c : Thread nD τ) scAcc fullShare (accAt m c n hn)) ∗ (∃ r, prngReg c r))

end Cert.KernelIdeal.Body

end
-- ==== Proof.KI.Data.lean ====
/-
  The proof data of the one pipeline: the arrays as the region finds them; after the body at each point every input
  block still in its buffer and the output block at the epilogue's value; between points the scratch buffers as
  the state says. And what the body is handed and hands back at a point, window by window.
-/
import proofs.«148315_g64123861729553_cont_9to1_m_268_14_alg».proof.Proof.KI.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiS_zero (c : Dev nD) (n : ℕ) (h : n ≤ 256) (hz : n = 0) : PhiS m c n h = Pipeline.ΦA spec0 c := by
  subst hz; rfl

theorem PhiS_succ (c : Dev nD) (n : ℕ) (hn : n < 256) :
    PhiS m c (n + 1) hn = iprop(iprop(owns (c : Thread nD τ) scTh fullShare (thAt m c)
      ∗ (∃ d, iprop(⌜AgreeZT m c ((n + 1) / 4) d⌝ ∗ owns (c : Thread nD τ) scZT fullShare d))
      ∗ owns (c : Thread nD τ) scAcc fullShare (accAt m c n hn)) ∗ (∃ r, prngReg c r)) := rfl

theorem PhiS_pos (c : Dev nD) (n : ℕ) (h : n ≤ 256) (hz : n ≠ 0) :
    PhiS m c n h = iprop(iprop(owns (c : Thread nD τ) scTh fullShare (thAt m c)
      ∗ (∃ d, iprop(⌜AgreeZT m c (n / 4) d⌝ ∗ owns (c : Thread nD τ) scZT fullShare d))
      ∗ owns (c : Thread nD τ) scAcc fullShare (accAt m c (n - 1) (by omega))) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val ((Nat.le_of_lt_succ t.isLt).trans_eq N_eq)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (le_of_lt (lt_of_lt_of_eq t.isLt N_eq)) := by
  dsimp only [dats]; simp only [Fin.coe_castSucc]

theorem Phi_succ (c : Dev nD) (t : Fin cfg0.N) :
    (dats m 0 c).Φ t.succ = PhiS m c (t.val + 1) (lt_of_lt_of_eq t.isLt N_eq) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- An input's buffer is handed back holding its block. -/
theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4 (c : Dev nD) (t : Fin cfg0.N) : (dats m 0 c).leavesExact 4 t = owns (c : Thread nD τ) (ms4 t) fullShare (iblk m c 4 t) := by
  unfold Dat.leavesExact; rw [liveAt4 t, after4]
theorem leaves5 (c : Dev nD) (t : Fin cfg0.N) : (dats m 0 c).leavesExact 5 t = owns (c : Thread nD τ) (ms5 t) fullShare (iblk m c 5 t) := by
  unfold Dat.leavesExact; rw [liveAt5 t, after5]
/-- At the last point the output's buffer is handed back holding the epilogue's value. -/
theorem leaves6 (c : Dev nD) (t : Fin cfg0.N) (h5 : cond5 (grid0.coords t)) :
    (dats m 0 c).leavesExact 6 t = owns (c : Thread nD τ) (ms6 t) fullShare (outAt m c t) := by
  unfold Dat.leavesExact; rw [liveAt6 t h5, after6]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val ((Nat.le_of_lt_succ (Fin.last cfg0.N).isLt).trans_eq N_eq) from rfl,
    PhiS_pos m c _ _ (by rw [Fin.val_last, N_eq]; decide), PhiA_eq]
  iintro ⟨⟨HTh, ⟨%d1, %hd1, HZT⟩, HAcc⟩, Hg⟩
  isplitl [HTh HZT HAcc]
  · isplitl [HTh]
    · iexists _; iexact HTh
    isplitl [HZT]
    · iexists _; iexact HZT
    iexists _; iexact HAcc
  iexact Hg

end Cert.KernelIdeal.Body

end
-- ==== Proof.KI.RunA.lean ====
/-
  The kernel body run at the first point: the projection is computed and stored whole; the accumulator is overwritten with panel 0's product.
-/
import proofs.«148315_g64123861729553_cont_9to1_m_268_14_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the first point: the projection is computed and stored whole; the accumulator is overwritten with panel 0's product. On whole memrefs — the six input blocks at their contents, the scratch
    buffers and the output block as the point finds them — the body runs to its end and hands every buffer back: what
    it only reads as it was, what it stores into with its stores written (the piece lists are the witness the run finds). -/
noncomputable def runA (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : cond1 i) (hc2 : cond2 i) (hc3 : ¬cond3 i) (hc4 : ¬cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) :
    Σ' (LS0 : List (View.Piece (Elt F) S16384x16 .f32)), { LS2 : List (View.Piece (Elt F) S256x16 .f32) //
      ∀ (xi6 : Vec F S1x16384 .f32) (xs1 : Vec F S16x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, ?_, fun xi6 xs1 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%dHS0, %fHS0, -, HS0⟩, ⟨%fHS1, %hfHS1, HS1⟩, ⟨%dHS2, %fHS2, -, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg10.eq_unread hfHS1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    isplitl [HS1]
    · iexists _; isplitr; · ipureintro; exact harg10.read_unread _
      iexact HS1
    iexists _; iexact HS2

end Cert.KernelIdeal.Body

end
-- ==== Proof.KI.RunB.lean ====
/-
  The kernel body run at panel 0 of a later row block: the accumulator is overwritten with the panel's product.
-/
import proofs.«148315_g64123861729553_cont_9to1_m_268_14_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at panel 0 of a later row block: the accumulator is overwritten with the panel's product. On whole memrefs — the six input blocks at their contents, the scratch
    buffers and the output block as the point finds them — the body runs to its end and hands every buffer back: what
    it only reads as it was, what it stores into with its stores written (the piece lists are the witness the run finds). -/
noncomputable def runB (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : cond2 i) (hc3 : ¬cond3 i) (hc4 : ¬cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) :
    { LS2 : List (View.Piece (Elt F) S256x16 .f32) //
      ∀ (xi6 : Vec F S1x16384 .f32) (xs1 : Vec F S16x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, fun xi6 xs1 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%fHS0, %hfHS0, HS0⟩, ⟨%fHS1, %hfHS1, HS1⟩, ⟨%dHS2, %fHS2, -, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg9.eq_unread hfHS0; obtain rfl := harg10.eq_unread hfHS1
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; iexact HS2

end Cert.KernelIdeal.Body

end
-- ==== Proof.KI.RunC.lean ====
/-
  The kernel body run at panels 1 and 2: the panel's product is added to the accumulator.
-/
import proofs.«148315_g64123861729553_cont_9to1_m_268_14_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at panels 1 and 2: the panel's product is added to the accumulator. On whole memrefs — the six input blocks at their contents, the scratch
    buffers and the output block as the point finds them — the body runs to its end and hands every buffer back: what
    it only reads as it was, what it stores into with its stores written (the piece lists are the witness the run finds). -/
noncomputable def runC (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : ¬cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs2 : Vec F S256x16 .f32) :
    { LS2 : List (View.Piece (Elt F) S256x16 .f32) //
      ∀ (xi6 : Vec F S1x16384 .f32) (xs1 : Vec F S16x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, fun xi6 xs1 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg9.eq_unread hfHS0; obtain rfl := harg10.eq_unread hfHS1; obtain rfl := harg11.eq_unread hfHS2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; iexact HS2

end Cert.KernelIdeal.Body

end
-- ==== Proof.KI.RunD.lean ====
/-
  The kernel body run at panel 3 of a row block but the last: the product is added and the finished block stored transposed into its 256 columns.
-/
import proofs.«148315_g64123861729553_cont_9to1_m_268_14_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at panel 3 of a row block but the last: the product is added and the finished block stored transposed into its 256 columns. On whole memrefs — the six input blocks at their contents, the scratch
    buffers and the output block as the point finds them — the body runs to its end and hands every buffer back: what
    it only reads as it was, what it stores into with its stores written (the piece lists are the witness the run finds). -/
noncomputable def runD (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : ¬cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    Σ' (LS1 : List (View.Piece (Elt F) S16x16384 .f32)), { LS2 : List (View.Piece (Elt F) S256x16 .f32) //
      ∀ (xi6 : Vec F S1x16384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, ?_, fun xi6 E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%fH6, %hfH6, H6⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg8.eq_unread hfH6; obtain rfl := harg9.eq_unread hfHS0; obtain rfl := harg10.eq_unread hfHS1; obtain rfl := harg11.eq_unread hfHS2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexact HS1
    iexists _; iexact HS2

end Cert.KernelIdeal.Body

end
-- ==== Proof.KI.RunE.lean ====
/-
  The kernel body run at the last point: as at every panel 3, and then the normalisation, the clamp and the maximum over features are stored into the output block.
-/
import proofs.«148315_g64123861729553_cont_9to1_m_268_14_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at the last point: as at every panel 3, and then the normalisation, the clamp and the maximum over features are stored into the output block. On whole memrefs — the six input blocks at their contents, the scratch
    buffers and the output block as the point finds them — the body runs to its end and hands every buffer back: what
    it only reads as it was, what it stores into with its stores written (the piece lists are the witness the run finds). -/
noncomputable def runE (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i)
    (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    Σ' (L6 : List (View.Piece (Elt F) S1x16384 .f32)) (LS1 : List (View.Piece (Elt F) S16x16384 .f32)), { LS2 : List (View.Piece (Elt F) S256x16 .f32) //
      ∀  (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__simplicial_conv_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__simplicial_conv_kernel_eq_skeleton]; unfold cc0__simplicial_conv_kernel_skel
    unfold owns
    iintro ⟨⟨%fH0, %hfH0, H0⟩, ⟨%fH1, %hfH1, H1⟩, ⟨%fH2, %hfH2, H2⟩, ⟨%fH3, %hfH3, H3⟩, ⟨%fH4, %hfH4, H4⟩, ⟨%fH5, %hfH5, H5⟩, ⟨%dH6, %fH6, -, H6⟩, ⟨%fHS0, %hfHS0, HS0⟩, ⟨%fHS1, %hfHS1, HS1⟩, ⟨%fHS2, %hfHS2, HS2⟩, Hk⟩
    obtain rfl := harg2.eq_unread hfH0; obtain rfl := harg3.eq_unread hfH1; obtain rfl := harg4.eq_unread hfH2; obtain rfl := harg5.eq_unread hfH3; obtain rfl := harg6.eq_unread hfH4; obtain rfl := harg7.eq_unread hfH5; obtain rfl := harg9.eq_unread hfHS0; obtain rfl := harg10.eq_unread hfHS1; obtain rfl := harg11.eq_unread hfHS2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    isplitl [HS1]
    · iexact HS1
    iexists _; iexact HS2

end Cert.KernelIdeal.Body

end
-- ==== Proof.KI.Pieces.lean ====
/-
  What each run's stores leave, read back as plain functions of what the point found: a whole-block store leaves its
  payload; the 256-column store leaves the old contents with those columns replaced.
-/
import proofs.«148315_g64123861729553_cont_9to1_m_268_14_alg».proof.Proof.KI.RunA
import proofs.«148315_g64123861729553_cont_9to1_m_268_14_alg».proof.Proof.KI.RunB
import proofs.«148315_g64123861729553_cont_9to1_m_268_14_alg».proof.Proof.KI.RunC
import proofs.«148315_g64123861729553_cont_9to1_m_268_14_alg».proof.Proof.KI.RunD
import proofs.«148315_g64123861729553_cont_9to1_m_268_14_alg».proof.Proof.KI.RunE
import proofs.«148315_g64123861729553_cont_9to1_m_268_14_alg».proof.Proof.KI.State
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- One store through a rectangle reads back as the old contents overlaid with the payload there. -/
theorem read_writes_one {sg : RefSig} {κ : Kind} {sp : Space} {S : Shape} {e : EltTy} {Val : EltTy → Type}
    (v : View sg κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y [⟨r, w⟩] (by intro p hp; rw [List.mem_singleton.mp hp]; exact hy), Rect.overlay_of_not_mem _ _ _ hy]

/-- One store through the whole shape reads back as its payload. -/
theorem read_writes_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0) (inb : ∀ a, off a + S.size a ≤ S.size a)
    (w : S.Idx → Val e) : v.read Val (v.writes Val f [(⟨Rect.unit off S.size inb, w⟩ : View.Piece Val S e)]) = w := by
  rw [View.read_writes_eq_canon v f _ (fun y => ⟨_, List.mem_singleton_self _, View.mem_set_unit_zero h inb y⟩), View.canon_unit_zero h inb w]

/-- Overlaying the whole shape leaves just the payload. -/
theorem overlay_whole {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rw [Rect.emb_whole_apply] at e
  exact e

theorem pieceC2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs2 : Vec F S256x16 .f32) :
    v.read (Elt F) (v.writes (Elt F) f (runC c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs2).1)
      = k0_pay4 x1 (View.ld xs0 (RPan i)) xs2 := by
  unfold runC; dsimp only

  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceB2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : cond2 i) (hc3 : ¬cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) :
    v.read (Elt F) (v.writes (Elt F) f (runB c i arg2 harg2 arg3 harg3 arg4 harg4 arg5 harg5 arg6 harg6 arg7 harg7 arg8 harg8 arg9 harg9 arg10 harg10 arg11 harg11 hc1 hc2 hc3 hc4 hc5 x0 x1 x2 x3 x4 x5 xs0).1)
      = k0_pay3 x1 (View.ld xs0 (RPan i)) := by
  unfold runB; dsimp only

  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceD2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runD c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).2.1)
      = k0_pay4 x1 (View.ld xs0 (RPan i)) xs2 := by
  unfold runD; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceD1 {sg : RefSig} {κ : Kind} {sp : Space} (v : View sg κ sp S16x16384 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runD c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).1)
      = (RCol i hc4).overlay (v.read (Elt F) f) (k0_pay5 (k0_pay4 x1 (View.ld xs0 (RPan i)) xs2)) := by
  unfold runD; dsimp only
  sl_unfold_words
  rw [read_writes_one]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceE2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runE c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).2.2.1)
      = k0_pay4 x1 (View.ld xs0 (RPan i)) xs2 := by
  unfold runE; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceE1 {sg : RefSig} {κ : Kind} {sp : Space} (v : View sg κ sp S16x16384 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runE c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).2.1)
      = (RCol i hc4).overlay (v.read (Elt F) f) (k0_pay5 (k0_pay4 x1 (View.ld xs0 (RPan i)) xs2)) := by
  unfold runE; dsimp only
  sl_unfold_words
  rw [read_writes_one]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceE6 {sg : RefSig} {κ : Kind} {sp : Space} (v : View sg κ sp S1x16384 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : ¬cond1 i) (hc2 : ¬cond2 i) (hc3 : cond3 i) (hc4 : cond4 i) (hc5 : cond5 i) (x0 : Vec F S16384x128 .f32) (x1 : Vec F S256x4096 .f32) (x2 : Vec F S16x128 .f32) (x3 : Vec F S1x16 .f32) (x4 : Vec F S16x1 .f32) (x5 : Vec F S16x1 .f32) (xs0 : Vec F S16384x16 .f32) (xs1 : Vec F S16x16384 .f32) (xs2 : Vec F S256x16 .f32) :
    v.read (Elt F) (v.writes (Elt F) f (runE c i arg2 harg2 arg3 harg3 arg4 harg4 arg5 harg5 arg6 harg6 arg7 harg7 arg8 harg8 arg9 harg9 arg10 harg10 arg11 harg11 hc1 hc2 hc3 hc4 hc5 x0 x1 x2 x3 x4 x5 xs0 xs1 xs2).1)
      = k0_pay6 ((RCol i hc4).overlay xs1 (k0_pay5 (k0_pay4 x1 (View.ld xs0 (RPan i)) xs2))) x4 x5 := by
  unfold runE; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceA0 {sg : RefSig} {κ : Kind} {sp : Space} (v : View sg κ sp S16384x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : cond1 i) (hc2 : cond2 i) (hc3 : ¬cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) :
    v.read (Elt F) (v.writes (Elt F) f (runA c i arg2 harg2 arg3 harg3 arg4 harg4 arg5 harg5 arg6 harg6 arg7 harg7 arg8 harg8 arg9 harg9 arg10 harg10 arg11 harg11 hc1 hc2 hc3 hc4 hc5 x0 x1 x2 x3 x4 x5).1)
      = k0_pay1 x0 x2 x3 := by
  unfold runA; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

theorem pieceA2 {sg : RefSig} {κ : Kind} {sp : Space} (v : View sg κ sp S256x16 .f32) (f : v.ty.Contents (Elt F))
    (c : Dev nD) (i : grid0.Coords) (arg2 : Memref sig .tc .vmem S16384x128 .f32) (harg2 : arg2.IsWhole) (arg3 : Memref sig .tc .vmem S256x4096 .f32) (harg3 : arg3.IsWhole) (arg4 : Memref sig .tc .vmem S16x128 .f32) (harg4 : arg4.IsWhole) (arg5 : Memref sig .tc .vmem S1x16 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S1x16384 .f32) (harg8 : arg8.IsWhole) (arg9 : Memref sig .tc .vmem S16384x16 .f32) (harg9 : arg9.IsWhole) (arg10 : Memref sig .tc .vmem S16x16384 .f32) (harg10 : arg10.IsWhole) (arg11 : Memref sig .tc .vmem S256x16 .f32) (harg11 : arg11.IsWhole)
    (hc1 : cond1 i) (hc2 : cond2 i) (hc3 : ¬cond3 i) (hc4 : ¬cond4 i) (hc5 : ¬cond5 i) (x0 : Vec F S16384x128 .f32) (x1 : Vec F S256x4096 .f32) (x2 : Vec F S16x128 .f32) (x3 : Vec F S1x16 .f32) (x4 : Vec F S16x1 .f32) (x5 : Vec F S16x1 .f32) :
    v.read (Elt F) (v.writes (Elt F) f (runA c i arg2 harg2 arg3 harg3 arg4 harg4 arg5 harg5 arg6 harg6 arg7 harg7 arg8 harg8 arg9 harg9 arg10 harg10 arg11 harg11 hc1 hc2 hc3 hc4 hc5 x0 x1 x2 x3 x4 x5).2.1)
      = k0_pay3 x1 (View.ld (k0_pay1 x0 x2 x3) (RPan i)) := by
  unfold runA; dsimp only
  sl_unfold_words
  rw [read_writes_whole _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S16384x128) hz2, View.ld_unit_zero (S := S256x4096) hz2, View.ld_unit_zero (S := S16x128) hz2, View.ld_unit_zero (S := S1x16) hz2, View.ld_unit_zero (S := S16x1) hz2, View.ld_unit_zero (S := S1x16384) hz2, View.ld_unit_zero (S := S16384x16) hz2, View.ld_unit_zero (S := S16x16384) hz2, View.ld_unit_zero (S := S256x16) hz2, View.readCov_unit_zero (S := S256x16) _ hz2, read_writes_one, overlay_whole (S := S16384x16) hz2]
  try rfl

end Cert.KernelIdeal.Body

end
-- ==== Proof.KI.BlockRead.lean ====
/-
  The blocks the kernel body reads, as entries of the argument arrays, and the two rectangles it cuts out of its
  scratch buffers, by coordinates.

  The grid has 64 × 4 points; point n is row block n / 4 and panel n % 4.  The operator's window moves with the
  point: its block at point n is rows 256·(n / 4) … and columns 4096·(n % 4) … of the operator.  Every other window
  is its whole array at every point; the bias, the scale and the shift arrive as a row [1, 16] or a column [16, 1]
  cast from a vector [16].  The panel of the projection a point multiplies by is rows 4096·(n % 4) …; the columns
  of the transposed product a fourth point stores are 256·(n / 4) ….
-/
import proofs.«148315_g64123861729553_cont_9to1_m_268_14_alg».proof.Proof.KI.State
import Idealize.ShloMosaic.Lib.ValueIdx
import Idealize.ShloMosaic.Lib.ValueLayout
import Idealize.ShloMosaic.Lib.Pipeline.Value

set_option maxRecDepth 16384

noncomputable section

namespace Cert.KernelIdeal.Body

open Cert.KernelIdeal Cert.KernelIdeal.Gen Idealize.ShloMosaic ValueIdx
open Idealize.ShloMosaic.TcCoe

variable {F : FTy → Type} [FloatOps F]

/-! ## The two offset chains in closed form -/

/-- The panel's first row: 4096 times the panel number. -/
theorem off1_eq : ∀ t : Fin cfg0.N, k0_off1 (grid0.coords t) = ![4096 * (t.val % 4), 0] :=
  (by decide +kernel : ∀ t : Fin grid0.N, k0_off1 (grid0.coords t) = ![4096 * (t.val % 4), 0])

/-- The stored columns' first column: 256 times the row block number. -/
theorem off2_eq : ∀ t : Fin cfg0.N, k0_off2 (grid0.coords t) = ![0, 256 * (t.val / 4)] :=
  (by decide +kernel : ∀ t : Fin grid0.N, k0_off2 (grid0.coords t) = ![0, 256 * (t.val / 4)])

/-! ## The stored columns of the transposed product -/

/-- Column q of the 256 stored at point n is column 256·(n / 4) + q of the scratch. -/
theorem col_emb (n : ℕ) (h : n < 256) (h4 : cond4 (grid0.coords (pt n h))) (o : Fin 16) (q : Fin 256) :
    (RCol (grid0.coords (pt n h)) h4).emb (ix2 o q)
      = ix2 o (⟨256 * (n / 4) + q.val, by have := q.isLt; omega⟩ : Fin 16384) := by
  have e := off2_eq (pt n h)
  funext a
  refine Fin.ext ?_
  match a with
  | ⟨0, _⟩ =>
    show k0_off2 (grid0.coords (pt n h)) 0 + 1 * o.val = o.val
    rw [e]
    show 0 + 1 * o.val = o.val
    omega
  | ⟨1, _⟩ =>
    show k0_off2 (grid0.coords (pt n h)) 1 + 1 * q.val = 256 * (n / 4) + q.val
    rw [e]
    show 256 * (n / 4) + 1 * q.val = 256 * (n / 4) + q.val
    omega

/-- An index of the scratch is among the columns stored at point n iff its column is. -/
theorem col_mem (n : ℕ) (h : n < 256) (h4 : cond4 (grid0.coords (pt n h))) (idx : S16x16384.Idx) :
    idx ∈ (RCol (grid0.coords (pt n h)) h4).set
      ↔ 256 * (n / 4) ≤ (idx 1).val ∧ (idx 1).val < 256 * (n / 4) + 256 := by
  show idx ∈ (Rect.unit (s := S16x16384) (k0_off2 (grid0.coords (pt n h))) S16x256.size _).set ↔ _
  rw [Rect.mem_set_unit, off2_eq (pt n h)]
  constructor
  · intro hm
    exact hm 1
  · intro hm a
    match a with
    | ⟨0, _⟩ =>
      refine ⟨Nat.zero_le _, ?_⟩
      show (idx 0).val < 0 + 16
      have := idx2_lt0 idx
      omega
    | ⟨1, _⟩ => exact hm

/-! ## The panel of the projection a point multiplies by -/

/-- Row k of the panel read at point n is row 4096·(n % 4) + k of the projection. -/
theorem pan_apply (n : ℕ) (h : n < 256) (X : Vec F S16384x16 .f32) (k : Fin 4096) (o : Fin 16) :
    View.ld X (RPan (grid0.coords (pt n h))) (ix2 k o)
      = X (ix2 (⟨4096 * (n % 4) + k.val, by have := k.isLt; omega⟩ : Fin 16384) o) := by
  have e := off1_eq (pt n h)
  show X ((RPan (grid0.coords (pt n h))).idx (ix2 k o)) = _
  refine congrArg X ?_
  funext a
  refine Fin.ext ?_
  match a with
  | ⟨0, _⟩ =>
    show k0_off1 (grid0.coords (pt n h)) 0 + 1 * k.val = 4096 * (n % 4) + k.val
    rw [e]
    show 4096 * (n % 4) + 1 * k.val = 4096 * (n % 4) + k.val
    omega
  | ⟨1, _⟩ =>
    show k0_off1 (grid0.coords (pt n h)) 1 + 1 * o.val = o.val
    rw [e]
    show 0 + 1 * o.val = o.val
    omega

/-! ## The windows' index maps over the grid -/

/-- The operator's window is at block (n / 4, n % 4) at point n. -/
theorem idx1_eq : ∀ t : Fin cfg0.N, win0_1.index t (0 : Fin 2) = t.val / 4 ∧ win0_1.index t (1 : Fin 2) = t.val % 4 :=
  (by decide +kernel : ∀ t : Fin grid0.N, _)
/-- Every other input window is at block (0, 0) at every point. -/
theorem idx0_eq : ∀ t : Fin cfg0.N, win0_0.index t (0 : Fin 2) = 0 ∧ win0_0.index t (1 : Fin 2) = 0 :=
  (by decide +kernel : ∀ t : Fin grid0.N, _)
theorem idx2_eq : ∀ t : Fin cfg0.N, win0_2.index t (0 : Fin 2) = 0 ∧ win0_2.index t (1 : Fin 2) = 0 :=
  (by decide +kernel : ∀ t : Fin grid0.N, _)
theorem idx3_eq : ∀ t : Fin cfg0.N, win0_3.index t (0 : Fin 2) = 0 ∧ win0_3.index t (1 : Fin 2) = 0 :=
  (by decide +kernel : ∀ t : Fin grid0.N, _)
theorem idx4_eq : ∀ t : Fin cfg0.N, win0_4.index t (0 : Fin 2) = 0 ∧ win0_4.index t (1 : Fin 2) = 0 :=
  (by decide +kernel : ∀ t : Fin grid0.N, _)
theorem idx5_eq : ∀ t : Fin cfg0.N, win0_5.index t (0 : Fin 2) = 0 ∧ win0_5.index t (1 : Fin 2) = 0 :=
  (by decide +kernel : ∀ t : Fin grid0.N, _)

/-! ## The blocks as entries of the argument arrays -/

variable (m : (ℓ : Loc nD τ sig) → Buf (Elt F) ℓ)

/-- The operator's block at point n: rows 256·(n / 4) …, columns 4096·(n % 4) …. -/
theorem blk1 (c : Dev nD) (n : ℕ) (h : n < 256) (p : Fin 256) (k : Fin 4096) :
    iblk m c 1 (pt n h) (ix2 p k)
      = m ((c : Thread nD τ).loc main_arg1)
          (ix2 (⟨256 * (n / 4) + p.val, by have := p.isLt; omega⟩ : Fin 16384)
            (⟨4096 * (n % 4) + k.val, by have := k.isLt; omega⟩ : Fin 16384)) := by
  obtain ⟨e0, e1⟩ := idx1_eq (pt n h)
  show V m c main_arg1 (((cfg0.win 1).blk (pt n h)).view.emb (ix2 p k)) = _
  rw [V_main_arg1]
  refine congrArg (m ((c : Thread nD τ).loc main_arg1)) ?_
  funext a
  refine Fin.ext ?_
  match a with
  | ⟨0, _⟩ =>
    show win0_1.index (pt n h) (0 : Fin 2) * 256 + 1 * p.val = 256 * (n / 4) + p.val
    rw [e0]
    show n / 4 * 256 + 1 * p.val = 256 * (n / 4) + p.val
    omega
  | ⟨1, _⟩ =>
    show win0_1.index (pt n h) (1 : Fin 2) * 4096 + 1 * k.val = 4096 * (n % 4) + k.val
    rw [e1]
    show n % 4 * 4096 + 1 * k.val = 4096 * (n % 4) + k.val
    omega

/-- The features' block is the whole array at every point. -/
theorem blk0 (c : Dev nD) (t : Fin cfg0.N) (n : Fin 16384) (k : Fin 128) :
    iblk m c 0 t (ix2 n k) = m ((c : Thread nD τ).loc main_arg0) (ix2 n k) := by
  obtain ⟨e0, e1⟩ := idx0_eq t
  show V m c main_arg0 (((cfg0.win 0).blk t).view.emb (ix2 n k)) = _
  rw [V_main_arg0]
  refine congrArg (m ((c : Thread nD τ).loc main_arg0)) ?_
  funext a
  refine Fin.ext ?_
  match a with
  | ⟨0, _⟩ =>
    show win0_0.index t (0 : Fin 2) * 16384 + 1 * n.val = n.val
    omega
  | ⟨1, _⟩ =>
    show win0_0.index t (1 : Fin 2) * 128 + 1 * k.val = k.val
    omega

/-- The weight's block is the whole array at every point. -/
theorem blk2 (c : Dev nD) (t : Fin cfg0.N) (o : Fin 16) (k : Fin 128) :
    iblk m c 2 t (ix2 o k) = m ((c : Thread nD τ).loc main_arg2) (ix2 o k) := by
  obtain ⟨e0, e1⟩ := idx2_eq t
  show V m c main_arg2 (((cfg0.win 2).blk t).view.emb (ix2 o k)) = _
  rw [V_main_arg2]
  refine congrArg (m ((c : Thread nD τ).loc main_arg2)) ?_
  funext a
  refine Fin.ext ?_
  match a with
  | ⟨0, _⟩ =>
    show win0_2.index t (0 : Fin 2) * 16 + 1 * o.val = o.val
    omega
  | ⟨1, _⟩ =>
    show win0_2.index t (1 : Fin 2) * 128 + 1 * k.val = k.val
    omega

/-! ## The bias row and the scale and shift columns: casts of vectors, made before the region -/

/-- The bias row the region finds is the bias vector cast to [1, 16]. -/
theorem V_bias (c : Dev nD) :
    (V m c main_v0 : S1x16.Idx → Elt F .f32)
      = shapeCast S1x16 (m ((c : Thread nD τ).loc main_arg3)) shapeCasts_S16_S1x16 := by
  show StableHlo.after hostOps0 (fun b => m (c, b)) (Proc.devRef .tc main_v0) = _
  after_results
  rfl

/-- The scale column the region finds is the scale vector cast to [16, 1]. -/
theorem V_scale (c : Dev nD) :
    (V m c main_v1 : S16x1.Idx → Elt F .f32)
      = shapeCast S16x1 (m ((c : Thread nD τ).loc main_arg4)) shapeCasts_S16_S16x1 := by
  show StableHlo.after hostOps0 (fun b => m (c, b)) (Proc.devRef .tc main_v1) = _
  after_results
  rfl

/-- The shift column the region finds is the shift vector cast to [16, 1]. -/
theorem V_shift (c : Dev nD) :
    (V m c main_v2 : S16x1.Idx → Elt F .f32)
      = shapeCast S16x1 (m ((c : Thread nD τ).loc main_arg5)) shapeCasts_S16_S16x1 := by
  show StableHlo.after hostOps0 (fun b => m (c, b)) (Proc.devRef .tc main_v2) = _
  after_results
  rfl

/-- A vector [16] cast to a column [16, 1] reads, at (o, 0), the vector at o. -/
theorem castCol16_apply {α : Type} (v : S16.Idx → α) (o : Fin 16) :
    shapeCast S16x1 v shapeCasts_S16_S16x1 (ix2 o (0 : Fin 1)) = v (ix1 o) :=
  shapeCast_apply v shapeCasts_S16_S16x1 _ _ (by
    rw [Shape.rowMajor_val_two, Shape.rowMajor_val_one]
    show o.val = o.val * 1 + 0
    omega)

/-- The bias row's block, at every point, reads the bias vector. -/
theorem blk3 (c : Dev nD) (t : Fin cfg0.N) (o : Fin 16) :
    iblk m c 3 t (ix2 (0 : Fin 1) o) = m ((c : Thread nD τ).loc main_arg3) (ix1 o) := by
  obtain ⟨e0, e1⟩ := idx3_eq t
  have hemb : ((cfg0.win 3).blk t).view.emb (ix2 (0 : Fin 1) o) = ix2 (0 : Fin 1) o := by
    funext a
    refine Fin.ext ?_
    match a with
    | ⟨0, _⟩ =>
      show win0_3.index t (0 : Fin 2) * 1 + 1 * 0 = 0
      omega
    | ⟨1, _⟩ =>
      show win0_3.index t (1 : Fin 2) * 16 + 1 * o.val = o.val
      omega
  show V m c main_v0 (((cfg0.win 3).blk t).view.emb (ix2 (0 : Fin 1) o)) = _
  refine (congrArg (V m c main_v0) hemb).trans ?_
  refine (congrFun (V_bias m c) (ix2 (0 : Fin 1) o)).trans ?_
  exact shapeCast_a_1a_apply _ shapeCasts_S16_S1x16 (0 : Fin 1) o

/-- The scale column's block, at every point, reads the scale vector. -/
theorem blk4 (c : Dev nD) (t : Fin cfg0.N) (o : Fin 16) :
    iblk m c 4 t (ix2 o (0 : Fin 1)) = m ((c : Thread nD τ).loc main_arg4) (ix1 o) := by
  obtain ⟨e0, e1⟩ := idx4_eq t
  have hemb : ((cfg0.win 4).blk t).view.emb (ix2 o (0 : Fin 1)) = ix2 o (0 : Fin 1) := by
    funext a
    refine Fin.ext ?_
    match a with
    | ⟨0, _⟩ =>
      show win0_4.index t (0 : Fin 2) * 16 + 1 * o.val = o.val
      omega
    | ⟨1, _⟩ =>
      show win0_4.index t (1 : Fin 2) * 1 + 1 * 0 = 0
      omega
  show V m c main_v1 (((cfg0.win 4).blk t).view.emb (ix2 o (0 : Fin 1))) = _
  refine (congrArg (V m c main_v1) hemb).trans ?_
  refine (congrFun (V_scale m c) (ix2 o (0 : Fin 1))).trans ?_
  exact castCol16_apply _ o

/-- The shift column's block, at every point, reads the shift vector. -/
theorem blk5 (c : Dev nD) (t : Fin cfg0.N) (o : Fin 16) :
    iblk m c 5 t (ix2 o (0 : Fin 1)) = m ((c : Thread nD τ).loc main_arg5) (ix1 o) := by
  obtain ⟨e0, e1⟩ := idx5_eq t
  have hemb : ((cfg0.win 5).blk t).view.emb (ix2 o (0 : Fin 1)) = ix2 o (0 : Fin 1) := by
    funext a
    refine Fin.ext ?_
    match a with
    | ⟨0, _⟩ =>
      show win0_5.index t (0 : Fin 2) * 16 + 1 * o.val = o.val
      omega
    | ⟨1, _⟩ =>
      show win0_5.index t (1 : Fin 2) * 1 + 1 * 0 = 0
      omega
  show V m c main_v2 (((cfg0.win 5).blk t).view.emb (ix2 o (0 : Fin 1))) = _
  refine (congrArg (V m c main_v2) hemb).trans ?_
  refine (congrFun (V_shift m c) (ix2 o (0 : Fin 1))).trans ?_
  exact castCol16_apply _ o

end Cert.KernelIdeal.Body

end
-- ==== Proof.KI.Agree.lean ====
/-
  How the stored columns of the transposed product grow. A fourth point n = 4·I + 3 stores the transpose of the finished
  accumulator of row block I into columns 256·I … 256·I + 255; the columns below 256·I were stored by earlier points
  and are left alone. So agreement on the columns below 256·I becomes agreement below 256·(I + 1); after the last
  point every column is stored and the scratch IS the transposed product.
-/
import proofs.«148315_g64123861729553_cont_9to1_m_268_14_alg».proof.Proof.KI.State
import proofs.«148315_g64123861729553_cont_9to1_m_268_14_alg».proof.Proof.KI.BlockRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (m : (ℓ : Loc nD τ sig) → Buf (Elt F) ℓ)

theorem accAt_congr (c : Dev nD) {n n' : ℕ} (e : n = n') (h : n < 256) (h' : n' < 256) : accAt m c n h = accAt m c n' h' := by
  subst e; rfl

theorem pay5_congr {a a' : Vec F S256x16 .f32} (ha : a = a') {y y' : S16x256.Idx} (hy : y = y') : k0_pay5 a y = k0_pay5 a' y' := by
  subst ha; subst hy; rfl

/-- Storing the finished block's transpose into its 256 columns extends the agreement by those columns. -/
theorem agree_step (c : Dev nD) (n : ℕ) (h : n < 256) (h3 : n % 4 = 3) (h4 : cond4 (grid0.coords (pt n h)))
    (w : Vec F S256x16 .f32) (hw : w = accAt m c n h) (d : Vec F S16x16384 .f32) (hd : AgreeZT m c (n / 4) d) :
    AgreeZT m c ((n + 1) / 4) ((RCol (grid0.coords (pt n h)) h4).overlay d (k0_pay5 w)) := by
  subst hw
  intro idx hlt
  by_cases hmem : idx ∈ (RCol (grid0.coords (pt n h)) h4).set
  · obtain ⟨x, rfl⟩ : ∃ x, (RCol (grid0.coords (pt n h)) h4).emb x = idx := (RCol (grid0.coords (pt n h)) h4).exists_idx_of_mem hmem
    rw [Rect.overlay_emb]
    obtain ⟨o, q, rfl⟩ : ∃ (o : Fin 16) (q : Fin 256), x = ix2 o q := ⟨x 0, x 1, eq_ix2 x⟩
    rw [col_emb n h h4 o q]
    have e1 : n = 4 * ((256 * (n / 4) + q.val) / 256) + 3 := by omega
    have e2 : (256 * (n / 4) + q.val) % 256 = q.val := by omega
    unfold ztAt
    refine pay5_congr (accAt_congr m c e1 _ _) ?_
    funext a
    match a with
    | ⟨0, _⟩ => exact Fin.ext rfl
    | ⟨1, _⟩ => exact Fin.ext e2.symm
  · rw [Rect.overlay_of_not_mem _ _ _ hmem]
    apply hd
    have hm := (col_mem n h h4 idx).not.mp hmem
    have e : (n + 1) / 4 = n / 4 + 1 := by omega
    rw [e] at hlt
    omega

/-- Once all 64 column blocks are stored the scratch is the transposed product. -/
theorem agree_all (c : Dev nD) (d : Vec F S16x16384 .f32) (hd : AgreeZT m c 64 d) : d = ztAt m c :=
  funext fun idx => hd idx (by have := idx2_lt1 idx; omega)

end Cert.KernelIdeal.Body

end
-- ==== Proof.KI.Sound.lean ====
/-
  The body at every point. Which stores a point makes depends on its position only: the first point; panel 0 of a later
  row block; panels 1 and 2; panel 3; the last point. In each case the run of that case applies: the inputs' buffers
  hold their blocks, the invariant hands over the scratch buffers at what the point before left, and takes them back
  at this point's contents — the accumulator overwritten or added to, the transposed product's scratch with 256 more
  columns agreeing, and at the last point the output block at the epilogue of the full transposed product.
  Then the launch: every weakly fair execution of the program terminates without a fault, the argument arrays unchanged.
-/
import proofs.«148315_g64123861729553_cont_9to1_m_268_14_alg».proof.Proof.KI.Data
import proofs.«148315_g64123861729553_cont_9to1_m_268_14_alg».proof.Proof.KI.Pieces
import proofs.«148315_g64123861729553_cont_9to1_m_268_14_alg».proof.Proof.KI.Agree

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at any point: by cases on the point's position, the run of that case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_succ, PhiS_succ]
  rw [leaves0, leaves1, leaves2, leaves3, leaves4, leaves5]
  have hN : t.val < 256 := lt_of_lt_of_eq t.isLt N_eq
  by_cases h0 : t.val % 4 = 0
  · have k2 : cond2 (grid0.coords t) := (hcond2 t).mpr h0
    have k3 : ¬ cond3 (grid0.coords t) := fun h => (hcond3 t).mp h h0
    have k4 : ¬ cond4 (grid0.coords t) := fun h => by have := (hcond4 t).mp h; omega
    have k5 : ¬ cond5 (grid0.coords t) := fun h => by have := (hcond5 t).mp h; omega
    by_cases hz : t.val = 0
    · have k1 : cond1 (grid0.coords t) := (hcond1 t).mpr hz
      have ht : t = pt 0 (by decide) := Fin.ext hz
      rw [Dat.leavesExact_idle (dats m 0 c) 6 t (idleAt6 t k5) (noFlush6 t k5)]
      rw [Phi_castSucc m c t, PhiS_zero m c _ _ hz, PhiA_eq]
      iintro ⟨⟨⟨HTh, ⟨%d1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
      iapply ((runA c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) ).2.2 _ d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HTh]; · iexact HTh
      isplitl [HZT]; · iexact HZT
      isplitl [HAcc]; · iexact HAcc
      iintro ⟨H0, H1, H2, H3, H4, H5, H6, ⟨%fTh, HTh⟩, HZT, ⟨%fAcc, HAcc⟩⟩
      isplitl [HTh HZT HAcc Hg]
      · isplitl [HTh HZT HAcc]
        · isplitl [HTh]
          · unfold owns; iexists _; isplitr
            swap; · iexact HTh
            ipureintro; exact (pieceA0 ..).trans (by subst ht; rfl)
          isplitl [HZT]
          · iexists d1; isplitr
            · ipureintro; intro idx hlt; exfalso; rw [hz] at hlt; omega
            iexact HZT
          unfold owns; iexists _; isplitr
          swap; · iexact HAcc
          ipureintro; exact (pieceA2 ..).trans (by subst ht; rfl)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have k1 : ¬ cond1 (grid0.coords t) := fun h => hz ((hcond1 t).mp h)
      rw [Dat.leavesExact_idle (dats m 0 c) 6 t (idleAt6 t k5) (noFlush6 t k5)]
      rw [Phi_castSucc m c t, PhiS_pos m c _ _ hz]
      iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c)).2 _ d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HTh]; · iexact HTh
      isplitl [HZT]; · iexact HZT
      isplitl [HAcc]; · iexists _; iexact HAcc
      iintro ⟨H0, H1, H2, H3, H4, H5, H6, HTh, HZT, ⟨%fAcc, HAcc⟩⟩
      isplitl [HTh HZT HAcc Hg]
      · isplitl [HTh HZT HAcc]
        · isplitl [HTh]
          · iexact HTh
          isplitl [HZT]
          · iexists d1; isplitr
            · ipureintro
              have e : (t.val + 1) / 4 = t.val / 4 := by omega
              rw [e]; exact hd1
            iexact HZT
          unfold owns; iexists _; isplitr
          swap; · iexact HAcc
          ipureintro; exact (pieceB2 ..).trans (accAt_new m c t.val _ h0).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have k1 : ¬ cond1 (grid0.coords t) := fun h => hz ((hcond1 t).mp h)
    have k2 : ¬ cond2 (grid0.coords t) := fun h => h0 ((hcond2 t).mp h)
    have k3 : cond3 (grid0.coords t) := (hcond3 t).mpr h0
    by_cases h3 : t.val % 4 = 3
    · have k4 : cond4 (grid0.coords t) := (hcond4 t).mpr h3
      by_cases hl : t.val = 255
      · have k5 : cond5 (grid0.coords t) := (hcond5 t).mpr hl
        rw [leaves6 m c t k5]
        rw [Phi_castSucc m c t, PhiS_pos m c _ _ hz]
        iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
        iapply ((runE c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c) d1 (accAt m c (t.val - 1) (by omega))).2.2.2  Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HTh]; · iexact HTh
        isplitl [HZT]; · iexact HZT
        isplitl [HAcc]; · iexact HAcc
        iintro ⟨H0, H1, H2, H3, H4, H5, ⟨%f6, H6⟩, HTh, HZT, ⟨%fAcc, HAcc⟩⟩
        isplitl [HTh HZT HAcc Hg]
        · isplitl [HTh HZT HAcc]
          · isplitl [HTh]
            · iexact HTh
            isplitl [HZT]
            · iexists ((RCol (grid0.coords t) k4).overlay d1 (k0_pay5 (accAt m c t.val hN))); isplitr
              · ipureintro; exact agree_step m c t.val hN h3 k4 _ rfl d1 hd1
              unfold owns; iexists _; isplitr
              swap; · iexact HZT
              ipureintro; exact (pieceE1 ..).trans (by rw [Memref.IsWhole.read_unread, accAt_add m c t.val hN h0])
            unfold owns; iexists _; isplitr
            swap; · iexact HAcc
            ipureintro; exact (pieceE2 ..).trans (accAt_add m c t.val _ h0).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact (pieceE6 ..).trans (by rw [← accAt_add m c t.val hN h0]; exact congrArg (fun z => k0_pay6 z (iblk m c 4 t) (iblk m c 5 t)) (agree_all m c _ (by have e := agree_step m c t.val hN h3 k4 _ rfl d1 hd1; rw [show (t.val + 1) / 4 = 64 by omega] at e; exact e)))
      · have k5 : ¬ cond5 (grid0.coords t) := fun h => hl ((hcond5 t).mp h)
        rw [Dat.leavesExact_idle (dats m 0 c) 6 t (idleAt6 t k5) (noFlush6 t k5)]
        rw [Phi_castSucc m c t, PhiS_pos m c _ _ hz]
        iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
        iapply ((runD c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c) d1 (accAt m c (t.val - 1) (by omega))).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HTh]; · iexact HTh
        isplitl [HZT]; · iexact HZT
        isplitl [HAcc]; · iexact HAcc
        iintro ⟨H0, H1, H2, H3, H4, H5, H6, HTh, HZT, ⟨%fAcc, HAcc⟩⟩
        isplitl [HTh HZT HAcc Hg]
        · isplitl [HTh HZT HAcc]
          · isplitl [HTh]
            · iexact HTh
            isplitl [HZT]
            · iexists ((RCol (grid0.coords t) k4).overlay d1 (k0_pay5 (accAt m c t.val hN))); isplitr
              · ipureintro; exact agree_step m c t.val hN h3 k4 _ rfl d1 hd1
              unfold owns; iexists _; isplitr
              swap; · iexact HZT
              ipureintro; exact (pieceD1 ..).trans (by rw [Memref.IsWhole.read_unread, accAt_add m c t.val hN h0])
            unfold owns; iexists _; isplitr
            swap; · iexact HAcc
            ipureintro; exact (pieceD2 ..).trans (accAt_add m c t.val _ h0).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have k4 : ¬ cond4 (grid0.coords t) := fun h => h3 ((hcond4 t).mp h)
      have k5 : ¬ cond5 (grid0.coords t) := fun h => by have := (hcond5 t).mp h; omega
      rw [Dat.leavesExact_idle (dats m 0 c) 6 t (idleAt6 t k5) (noFlush6 t k5)]
      rw [Phi_castSucc m c t, PhiS_pos m c _ _ hz]
      iintro ⟨⟨⟨HTh, ⟨%d1, %hd1, HZT⟩, HAcc⟩, Hg⟩, Ho, ⟨%d0, H0⟩, ⟨%e1, H1⟩, ⟨%e2, H2⟩, ⟨%e3, H3⟩, ⟨%e4, H4⟩, ⟨%e5, H5⟩, ⟨%e6, H6⟩⟩
      iapply ((runC c (grid0.coords t) (ms0 t) (hs0 t) (ms1 t) (hs1 t) (ms2 t) (hs2 t) (ms3 t) (hs3 t) (ms4 t) (hs4 t) (ms5 t) (hs5 t) (ms6 t) (hs6 t) scTh (Memref.isWhole_whole _) scZT (Memref.isWhole_whole _) scAcc (Memref.isWhole_whole _) k1 k2 k3 k4 k5 (iblk m c 0 t) (iblk m c 1 t) (iblk m c 2 t) (iblk m c 3 t) (iblk m c 4 t) (iblk m c 5 t) (thAt m c) (accAt m c (t.val - 1) (by omega))).2 _ d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HTh]; · iexact HTh
      isplitl [HZT]; · iexact HZT
      isplitl [HAcc]; · iexact HAcc
      iintro ⟨H0, H1, H2, H3, H4, H5, H6, HTh, HZT, ⟨%fAcc, HAcc⟩⟩
      isplitl [HTh HZT HAcc Hg]
      · isplitl [HTh HZT HAcc]
        · isplitl [HTh]
          · iexact HTh
          isplitl [HZT]
          · iexists d1; isplitr
            · ipureintro
              have e : (t.val + 1) / 4 = t.val / 4 := by omega
              rw [e]; exact hd1
            iexact HZT
          unfold owns; iexists _; isplitr
          swap; · iexact HAcc
          ipureintro; exact (pieceC2 ..).trans (accAt_add m c t.val _ h0).symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program on the TensorCores terminates, and every final state has every array of
    the pipeline at what the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.RefRun.lean ====
/-
  The reference program's run, written out: @main with its three outlined functions substituted at their call
  sites is one straight line of 56 host operations, and the contents of every buffer after the line is the fold
  of the operations' results over the launch contents. The result buffer then holds one composed term of the six
  arguments, `refTerm`; the arguments are written by no operation.

  The composed term is stated through named stages, each a plain function of tensors:
    zTheta  = Z_H · Wᵀ + b            (a 16384 × 128 by 128 × 16 product, the bias broadcast along the rows)
    zConv   = L · zTheta              (the dense 16384 × 16384 product)
    meanOf  = column sums / 16384.0   (as @main computes it)
    varOf   = the variance function: the mean once more, the squared deviations summed, the quotient by
              16384.0 − float(0), selected against NaN where that divisor is not positive
    normed  = (z − mean) / sqrt(var + ε), scaled by γ, shifted by β, clamped at zero
    refTerm = the maximum over the 16 columns from −∞, as a 16384 × 1 tensor
-/
import proofs.«148315_g64123861729553_cont_9to1_m_268_14_alg».proof.ReferenceIdeal
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations in order, the three calls replaced by the callee's operations over that call's buffers:
    twelve of @main, the variance function's nineteen and the three of the selection it calls, sixteen of @main,
    the clamp's three, and @main's last three. -/
abbrev ops : List (HloOp τ sig (Elt F)) :=
  [ StableHlo.unary main_arg2 main_v0 ((transpose S128x16 [1, 0] · transposes_S16x128_S128x16_1_0) : (⟨S16x128, .f32⟩ : BufTy).Contents (Elt F) → (⟨S128x16, .f32⟩ : BufTy).Contents (Elt F)),
    StableHlo.binary main_arg0 main_v0 main_v1 ((fun l r => Host.dotGeneral dot_S16384x128_S128x16_S16384x16_1_0_0_1_n_n none l r) : (⟨S16384x128, .f32⟩ : BufTy).Contents (Elt F) → (⟨S128x16, .f32⟩ : BufTy).Contents (Elt F) → (⟨S16384x16, .f32⟩ : BufTy).Contents (Elt F)),
    StableHlo.unary main_arg3 main_v2 (broadcastInDim S1x16 ![1] bcast_S16_S1x16_1 : (⟨S16, .f32⟩ : BufTy).Contents (Elt F) → (⟨S1x16, .f32⟩ : BufTy).Contents (Elt F)),
    StableHlo.unary main_v2 main_v3 (broadcastInDim S16384x16 ![0, 1] bcast_S1x16_S16384x16_0_1 : (⟨S1x16, .f32⟩ : BufTy).Contents (Elt F) → (⟨S16384x16, .f32⟩ : BufTy).Contents (Elt F)),
    StableHlo.binary main_v1 main_v3 main_v4 (addf : (⟨S16384x16, .f32⟩ : BufTy).Contents (Elt F) → (⟨S16384x16, .f32⟩ : BufTy).Contents (Elt F) → (⟨S16384x16, .f32⟩ : BufTy).Contents (Elt F)),
    StableHlo.binary main_arg1 main_v4 main_v5 ((fun l r => Host.dotGeneral dot_S16384x16384_S16384x16_S16384x16_1_0_0_1_n_n none l r) : (⟨S16384x16384, .f32⟩ : BufTy).Contents (Elt F) → (⟨S16384x16, .f32⟩ : BufTy).Contents (Elt F) → (⟨S16384x16, .f32⟩ : BufTy).Contents (Elt F)),
    StableHlo.nullary main_cst (constant S_ .f32 0x00000000#32),
    StableHlo.binary main_v5 main_cst main_v6 ((fun x v => Host.reduceAdd x v reducesTo_S16384x16_S16_d0 h_S_) : (⟨S16384x16, .f32⟩ : BufTy).Contents (Elt F) → (⟨S_, .f32⟩ : BufTy).Contents (Elt F) → (⟨S16, .f32⟩ : BufTy).Contents (Elt F)),
    StableHlo.nullary main_cst_0 (constant S_ .f32 0x46800000#32),
    StableHlo.unary main_cst_0 main_v7 (broadcastInDim S16 ![] bcast_S_S16 : (⟨S_, .f32⟩ : BufTy).Contents (Elt F) → (⟨S16, .f32⟩ : BufTy).Contents (Elt F)),
    StableHlo.binary main_v6 main_v7 main_v8 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32),
    StableHlo.TRef.nullary main_call0.cst (constant S_ .f32 0x00000000#32),
    StableHlo.TRef.binary (.of main_v5 : TRef sig ⟨S16384x16, .f32⟩) main_call0.cst main_call0.v0 (fun x v => Host.reduceAdd x v reducesTo_S16384x16_S16_d0 h_S_),
    StableHlo.TRef.unary main_call0.v0 main_call0.v1 (broadcastInDim S1x16 ![1] bcast_S16_S1x16_1),
    StableHlo.TRef.nullary main_call0.cst_0 (constant S_ .f32 0x46800000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S16384x16 ![0, 1] bcast_S1x16_S16384x16_0_1),
    StableHlo.TRef.binary (.of main_v5 : TRef sig ⟨S16384x16, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b),
    StableHlo.unary main_v8 main_v10 (broadcastInDim S1x16 ![1] bcast_S16_S1x16_1 : (⟨S16, .f32⟩ : BufTy).Contents (Elt F) → (⟨S1x16, .f32⟩ : BufTy).Contents (Elt F)),
    StableHlo.unary main_v10 main_v11 (broadcastInDim S16384x16 ![0, 1] bcast_S1x16_S16384x16_0_1 : (⟨S1x16, .f32⟩ : BufTy).Contents (Elt F) → (⟨S16384x16, .f32⟩ : BufTy).Contents (Elt F)),
    StableHlo.binary main_v5 main_v11 main_v12 (subf : (⟨S16384x16, .f32⟩ : BufTy).Contents (Elt F) → (⟨S16384x16, .f32⟩ : BufTy).Contents (Elt F) → (⟨S16384x16, .f32⟩ : BufTy).Contents (Elt F)),
    StableHlo.nullary main_cst_1 (constant S_ .f32 0x3727C5AC#32),
    StableHlo.unary main_cst_1 main_v13 (broadcastInDim S16 ![] bcast_S_S16 : (⟨S_, .f32⟩ : BufTy).Contents (Elt F) → (⟨S16, .f32⟩ : BufTy).Contents (Elt F)),
    StableHlo.binary main_v9 main_v13 main_v14 (addf : (⟨S16, .f32⟩ : BufTy).Contents (Elt F) → (⟨S16, .f32⟩ : BufTy).Contents (Elt F) → (⟨S16, .f32⟩ : BufTy).Contents (Elt F)),
    StableHlo.unary main_v14 main_v15 (Host.sqrt : (⟨S16, .f32⟩ : BufTy).Contents (Elt F) → (⟨S16, .f32⟩ : BufTy).Contents (Elt F)),
    StableHlo.unary main_v15 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S16384x16 ![0, 1] bcast_S1x16_S16384x16_0_1 : (⟨S1x16, .f32⟩ : BufTy).Contents (Elt F) → (⟨S16384x16, .f32⟩ : BufTy).Contents (Elt F)),
    StableHlo.binary main_v12 main_v17 main_v18 (Host.divf : (⟨S16384x16, .f32⟩ : BufTy).Contents (Elt F) → (⟨S16384x16, .f32⟩ : BufTy).Contents (Elt F) → (⟨S16384x16, .f32⟩ : BufTy).Contents (Elt F)),
    StableHlo.unary main_arg4 main_v19 (broadcastInDim S1x16 ![1] bcast_S16_S1x16_1 : (⟨S16, .f32⟩ : BufTy).Contents (Elt F) → (⟨S1x16, .f32⟩ : BufTy).Contents (Elt F)),
    StableHlo.unary main_v19 main_v20 (broadcastInDim S16384x16 ![0, 1] bcast_S1x16_S16384x16_0_1 : (⟨S1x16, .f32⟩ : BufTy).Contents (Elt F) → (⟨S16384x16, .f32⟩ : BufTy).Contents (Elt F)),
    StableHlo.binary main_v20 main_v18 main_v21 (mulf : (⟨S16384x16, .f32⟩ : BufTy).Contents (Elt F) → (⟨S16384x16, .f32⟩ : BufTy).Contents (Elt F) → (⟨S16384x16, .f32⟩ : BufTy).Contents (Elt F)),
    StableHlo.unary main_arg5 main_v22 (broadcastInDim S1x16 ![1] bcast_S16_S1x16_1 : (⟨S16, .f32⟩ : BufTy).Contents (Elt F) → (⟨S1x16, .f32⟩ : BufTy).Contents (Elt F)),
    StableHlo.unary main_v22 main_v23 (broadcastInDim S16384x16 ![0, 1] bcast_S1x16_S16384x16_0_1 : (⟨S1x16, .f32⟩ : BufTy).Contents (Elt F) → (⟨S16384x16, .f32⟩ : BufTy).Contents (Elt F)),
    StableHlo.binary main_v21 main_v23 main_v24 (addf : (⟨S16384x16, .f32⟩ : BufTy).Contents (Elt F) → (⟨S16384x16, .f32⟩ : BufTy).Contents (Elt F) → (⟨S16384x16, .f32⟩ : BufTy).Contents (Elt F)),
    StableHlo.TRef.nullary main_call1.cst (constant S_ .f32 0x00000000#32),
    StableHlo.TRef.unary main_call1.cst main_call1.v0 (broadcastInDim S16384x16 ![] bcast_S_S16384x16),
    StableHlo.TRef.binary (.of main_v24 : TRef sig ⟨S16384x16, .f32⟩) main_call1.v0 main_call1.v1 maximumf,
    StableHlo.nullary main_cst_2 (constant S_ .f32 0xFF800000#32),
    StableHlo.binary main_v25 main_cst_2 main_v26 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.unary main_v26 main_v27 (broadcastInDim S16384x1 ![0] bcast_S16384_S16384x1_0 : (⟨S16384, .f32⟩ : BufTy).Contents (Elt F) → (⟨S16384x1, .f32⟩ : BufTy).Contents (Elt F)) ]

set_option maxRecDepth 2048 in
/-- @main is that straight line: the functions' bodies unfolded at their calls, the sequencing reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub ..⟩

/-! ## The composed term, stage by stage -/

/-- The linear layer: the rows of `Z_H` against the transposed weight, plus the bias broadcast along the rows. -/
def zTheta (a0 : FVec F S16384x128 .f32) (a2 : FVec F S16x128 .f32) (a3 : FVec F S16 .f32) : FVec F S16384x16 .f32 :=
  addf
    (Host.dotGeneral dot_S16384x128_S128x16_S16384x16_1_0_0_1_n_n none a0
      (transpose S128x16 [1, 0] a2 transposes_S16x128_S128x16_1_0))
    (broadcastInDim S16384x16 ![0, 1] bcast_S1x16_S16384x16_0_1 (broadcastInDim S1x16 ![1] bcast_S16_S1x16_1 a3))

/-- The dense product of the operator with the projected features. -/
def zConv (a0 : FVec F S16384x128 .f32) (a1 : FVec F S16384x16384 .f32) (a2 : FVec F S16x128 .f32) (a3 : FVec F S16 .f32) :
    FVec F S16384x16 .f32 :=
  Host.dotGeneral dot_S16384x16384_S16384x16_S16384x16_1_0_0_1_n_n none a1 (zTheta a0 a2 a3)

/-- The column means as @main computes them: the column sums from zero, over 16384.0. -/
def meanOf (z : FVec F S16384x16 .f32) : FVec F S16 .f32 :=
  Host.divf (Host.reduceAdd z (constant S_ .f32 0x00000000#32) reducesTo_S16384x16_S16_d0 h_S_)
    (broadcastInDim S16 ![] bcast_S_S16 (constant S_ .f32 0x46800000#32))

/-- The variance function's deviations: the column means once more (as a 1 × 16 row), broadcast and subtracted. -/
def devOf (z : FVec F S16384x16 .f32) : FVec F S16384x16 .f32 :=
  subf z
    (broadcastInDim S16384x16 ![0, 1] bcast_S1x16_S16384x16_0_1
      (Host.divf
        (broadcastInDim S1x16 ![1] bcast_S16_S1x16_1
          (Host.reduceAdd z (constant S_ .f32 0x00000000#32) reducesTo_S16384x16_S16_d0 h_S_))
        (broadcastInDim S1x16 ![] bcast_S_S1x16 (constant S_ .f32 0x46800000#32))))

/-- The variance function's divisor: 16384.0 minus the correction (an integer scalar) as a float. -/
def divisorOf (c : IVec S_ 32) : FVec F S_ .f32 :=
  subf (constant S_ .f32 0x46800000#32) (sitofp .f32 c)

/-- The variance function: the squared deviations summed from zero, over the divisor — where the divisor is
    positive; NaN elsewhere. -/
def varOf (z : FVec F S16384x16 .f32) (c : IVec S_ 32) : FVec F S16 .f32 :=
  select
    (broadcastInDim S16 ![] bcast_S_S16 (cmpf .ogt (divisorOf (F := F) c) (constant S_ .f32 0x00000000#32)))
    (Host.divf
      (Host.reduceAdd (mulf (devOf z) (devOf z)) (constant S_ .f32 0x00000000#32) reducesTo_S16384x16_S16_d0 h_S_)
      (broadcastInDim S16 ![] bcast_S_S16 (divisorOf c)))
    (broadcastInDim S16 ![] bcast_S_S16 (id (constant S_ .f32 0x7FC00000#32)))

/-- A length-16 vector as a 16384 × 16 tensor constant along the rows. -/
def rows (v : FVec F S16 .f32) : FVec F S16384x16 .f32 :=
  broadcastInDim S16384x16 ![0, 1] bcast_S1x16_S16384x16_0_1 (broadcastInDim S1x16 ![1] bcast_S16_S1x16_1 v)

/-- Normalise by the mean and the square root of variance + ε, scale, shift, clamp at zero. -/
def normed (z : FVec F S16384x16 .f32) (a4 a5 : FVec F S16 .f32) : FVec F S16384x16 .f32 :=
  maximumf
    (addf
      (mulf (rows a4)
        (Host.divf (subf z (rows (meanOf z)))
          (rows (Host.sqrt (addf (varOf z (constantI S_ 32 0#32))
            (broadcastInDim S16 ![] bcast_S_S16 (constant S_ .f32 0x3727C5AC#32)))))))
      (rows a5))
    (broadcastInDim S16384x16 ![] bcast_S_S16384x16 (constant S_ .f32 0x00000000#32))

/-- @main's result as the composition of its host operations (the callees inlined). -/
def refTerm (a0 : FVec F S16384x128 .f32) (a1 : FVec F S16384x16384 .f32) (a2 : FVec F S16x128 .f32)
    (a3 a4 a5 : FVec F S16 .f32) : FVec F S16384x1 .f32 :=
  broadcastInDim S16384x1 ![0] bcast_S16384_S16384x1_0
    (Host.reduce FloatOps.maximumf (normed (zConv a0 a1 a2 a3) a4 a5) (constant S_ .f32 0xFF800000#32)
      reducesTo_S16384x16_S16384_d1 h_S_)

/-! ## The run -/

attribute [local irreducible] Host.reduce Host.reduceAdd in
set_option maxRecDepth 8192 in
/-- The fold of the 56 operations at the result buffer is the composed term of the six arguments' contents. -/
theorem out_eq (V : Valuation τ sig (Elt F)) :
    after ops V (main_v27 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of
    @main terminates with the result buffer at the composed term of the arguments' launch contents and the
    arguments unchanged. -/
theorem run (m : (l : Loc nD τ sig) → Buf (Elt F) l) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread nD τ).loc main_v27)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c => ⟨(h c main_v27).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.HandRun

end
-- ==== Proof.KI.Tail.lean ====
/-
  After the region: the output array and the host reshape that follows it.

  The output window's block is its whole array (block index (0, 0) at every point) and the pipeline writes it back
  once, at the last point. So after the run the array holds what the last point left in the block, whatever the
  earlier points did; and the one host operation after the region, a reshape of that 1 × 16384 array to 16384 × 1,
  reads at (r, 0) the array's entry (0, r): both have row-major position r.
-/
import proofs.«148315_g64123861729553_cont_9to1_m_268_14_alg».proof.Proof.KI.State
import proofs.«148315_g64123861729553_cont_9to1_m_268_14_alg».proof.Proof.Gen.KernelIdeal.Frame
import proofs.«148315_g64123861729553_cont_9to1_m_268_14_alg».proof.Proof.Gen.KernelIdeal.Points
import proofs.«148315_g64123861729553_cont_9to1_m_268_14_alg».proof.Proof.Gen.KernelIdeal.Launch
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen

variable {F : FTy → Type} [FloatOps F]

/-- The output window's block index is (0, 0) at every point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The last point of the grid. -/
abbrev tLast : Fin cfg0.N := pt 255 (by decide)

/-- At the last point the output window's block is not cut: it is 1 × 16384. -/
theorem xsize6_last : win0_6.xsize (grid0.coords tLast) 0 = 1 ∧ win0_6.xsize (grid0.coords tLast) 1 = 16384 := by
  decide +kernel

/-- The output array after the run is what the last point left in the block: one write-back, of the whole array. -/
theorem arr6_final (dats : (p : Fin 1) → (c : Dev nD) → Dat τ (Elt F) Unit ℕ (UR sig nD τ) ℕ (cfgs p) c) (c : Dev nD)
    (out : Vec F S1x16384 .f32) (hafter : (dats 0 c).after 6 (pt 255 (by decide)) = out) :
    (dats 0 c).arrAt 6 cfg0.N = out := by
  refine (dats 0 c).arrAt_eq_of_cover 6 out (fun t hf => ?_) (fun i => ⟨tLast, (flush0_6 _).mpr rfl, ?_⟩)
  · have hN : cfg0.N = 256 := N_eq
    have h1 : t.val = 255 := by have := (flush0_6 t).mp hf; have := t.isLt; omega
    obtain rfl : t = tLast := Fin.ext h1
    show (cfg0.win 6).cut (grid0.coords tLast) ((dats 0 c).after 6 tLast) = _
    rw [hafter]
    have hz' : (fun a => win0_6.index tLast a * main_v3.ty.shape.size a) = fun _ => 0 :=
      funext fun a => match a with
        | ⟨0, _⟩ => by show win0_6.index tLast (0 : Fin 2) * _ = 0; rw [(idx6 _).1, Nat.zero_mul]
        | ⟨1, _⟩ => by show win0_6.index tLast (1 : Fin 2) * _ = 0; rw [(idx6 _).2, Nat.zero_mul]
    exact (Memref.read_access_unit_zero (Elt F) main_v3 hz' (fun a => by rw [congrFun hz' a]; simp) out).symm
  · show i ∈ ((View.whole main_v3).slice (win0_6.rect tLast)).set
    rw [View.set_slice_whole, Rect.mem_set_unit]
    intro a
    have h0 : (i 0 : Nat) < 1 := (i 0).isLt
    have h1 : (i 1 : Nat) < 16384 := (i 1).isLt
    match a with
    | ⟨0, _⟩ =>
      show win0_6.index tLast (0 : Fin 2) * win0_6.size 0 ≤ (i 0 : Nat)
        ∧ (i 0 : Nat) < win0_6.index tLast (0 : Fin 2) * win0_6.size 0 + win0_6.xsize (grid0.coords tLast) 0
      rw [(idx6 _).1, xsize6_last.1]
      omega
    | ⟨1, _⟩ =>
      show win0_6.index tLast (1 : Fin 2) * win0_6.size 1 ≤ (i 1 : Nat)
        ∧ (i 1 : Nat) < win0_6.index tLast (1 : Fin 2) * win0_6.size 1 + win0_6.xsize (grid0.coords tLast) 1
      rw [(idx6 _).2, xsize6_last.2]
      omega

/-- The host reshape after the region, read at (r, 0): the output array's entry (0, r). -/
theorem tail_v4 (m : (ℓ : Loc nD τ sig) → Buf (Elt F) ℓ)
    (dats : (p : Fin 1) → (c : Dev nD) → Dat τ (Elt F) Unit ℕ (UR sig nD τ) ℕ (cfgs p) c) (c : Dev nD)
    (out : Vec F S1x16384 .f32) (hfinal : (dats 0 c).arrAt 6 cfg0.N = out) (r : Fin 16384) :
    Pipeline.afterTail₀ cfgs dats 0 (Gen.V0 m) [hostOps1] c main_v4 (ValueIdx.ix2 r (0 : Fin 1))
      = out (ValueIdx.ix2 (0 : Fin 1) r) := by
  unfold Pipeline.afterTail₀
  have e : StableHlo.after (hostOps1 (F := F))
        (Pipeline.withArrays (cfgs 0).spec c (V0 m c) fun w => (dats 0 c).arrAt w (cfgs 0).N) (Proc.devRef .tc main_v4)
      = (fun i => shapeCast S16384x1 out shapeCasts_S1x16384_S16384x1 i) := by
    after_results
    rw [Pipeline.withArrays_arr spec0 launch0.win.arr_inj c _ _ 6, hfinal]
    rfl
  show StableHlo.after (hostOps1 (F := F)) _ (Proc.devRef .tc main_v4) (ValueIdx.ix2 r (0 : Fin 1)) = _
  rw [e]
  refine shapeCast_apply out _ _ _ ?_
  rw [Shape.rowMajor_val_two, Shape.rowMajor_val_two]
  show (0 : ℕ) * 16384 + r.val = r.val * 1 + 0
  omega

end Cert.KernelIdeal.Body

end
-- ==== Proof.Spec.lean ====
/-
  The mathematics both programs compute, as functions of plain indices over the extended reals.

  Z_theta[n,o] = Σ_k Z_H[n,k]·W[o,k] + b[o]                      (the linear layer, 128 → 16 features)
  Z_conv[r,o]  = Σ_n L[r,n]·Z_theta[n,o]                          (the dense 16384 × 16384 product)
  mean[o]      = (Σ_r Z_conv[r,o]) / 16384,   var[o] = (Σ_r (Z_conv[r,o] − mean[o])²) / 16384
  act[r,o]     = max(γ[o]·((Z_conv[r,o] − mean[o])·(var[o] + ε)^(−1/2)) + β[o], 0)
  out[r]       = max_o act[r,o]                                   (a fold of max from −∞ over the 16 features)

  The normalisation is written twice: with the reciprocal square root as a factor (`act`) and as a quotient by
  the square root (`actQ`); they agree wherever var[o] + ε is a positive real, whatever the numerator.
  The float literals are kept as their words: 16384.0, ε = f32(1e-5), −∞; the same words stand on both sides.
-/
import Idealize.ShloMosaic.PureOps.Ideal
import Idealize.ShloMosaic.PureOps.Ideal.Laws

noncomputable section

namespace Cert.SimplicialSpec

open Idealize.ShloMosaic

/-- The linear layer: row `n` of `Z_H` against row `o` of `W` (the weight is stored [out, in]), plus the bias. -/
def theta (ZH : Fin 16384 → Fin 128 → EReal) (W : Fin 16 → Fin 128 → EReal) (b : Fin 16 → EReal)
    (n : Fin 16384) (o : Fin 16) : EReal :=
  (∑ k : Fin 128, ZH n k * W o k) + b o

/-- The dense product of the operator `L` with the projected features. -/
def conv (L : Fin 16384 → Fin 16384 → EReal) (θ : Fin 16384 → Fin 16 → EReal) (r : Fin 16384) (o : Fin 16) : EReal :=
  ∑ n : Fin 16384, L r n * θ n o

/-- The number of rows, 16384.0, as the float word both programs divide by. -/
def count : EReal := Ideal.ofBits .f32 0x46800000#32
/-- The variance offset, the float nearest 1e-5. -/
def eps : EReal := Ideal.ofBits .f32 0x3727C5AC#32
/-- The word of −∞, the start of the maximum over features. -/
def negInf : EReal := Ideal.ofBits .f32 0xFF800000#32

/-- The mean of feature `o` over the 16384 rows. -/
def mean (z : Fin 16384 → Fin 16 → EReal) (o : Fin 16) : EReal :=
  Ideal.div (∑ r : Fin 16384, z r o) count

/-- The (biased) variance of feature `o`: the mean of the squared deviations. -/
def var (z : Fin 16384 → Fin 16 → EReal) (o : Fin 16) : EReal :=
  Ideal.div (∑ r : Fin 16384, (z r o - mean z o) * (z r o - mean z o)) count

/-- Normalise, scale, shift and clamp at zero — the normalisation as a product with the reciprocal square root. -/
def act (g β : Fin 16 → EReal) (z : Fin 16384 → Fin 16 → EReal) (r : Fin 16384) (o : Fin 16) : EReal :=
  max (g o * ((z r o - mean z o) * Ideal.rsqrt (var z o + eps)) + β o) 0

/-- The same with the normalisation as a quotient by the square root. -/
def actQ (g β : Fin 16 → EReal) (z : Fin 16384 → Fin 16 → EReal) (r : Fin 16384) (o : Fin 16) : EReal :=
  max (g o * Ideal.div (z r o - mean z o) (Ideal.sqrt (var z o + eps)) + β o) 0

/-- The maximum over the 16 features, folded from −∞. -/
def out (a : Fin 16384 → Fin 16 → EReal) (r : Fin 16384) : EReal :=
  (Finset.univ : Finset (Fin 16)).fold max negInf (fun o => a r o)

/-- The whole computation, reciprocal-square-root form. -/
def result (ZH : Fin 16384 → Fin 128 → EReal) (L : Fin 16384 → Fin 16384 → EReal) (W : Fin 16 → Fin 128 → EReal)
    (b g β : Fin 16 → EReal) (r : Fin 16384) : EReal :=
  out (act g β (conv L (theta ZH W b))) r

/-- The whole computation, quotient form. -/
def resultQ (ZH : Fin 16384 → Fin 128 → EReal) (L : Fin 16384 → Fin 16384 → EReal) (W : Fin 16 → Fin 128 → EReal)
    (b g β : Fin 16 → EReal) (r : Fin 16384) : EReal :=
  out (actQ g β (conv L (theta ZH W b))) r

end Cert.SimplicialSpec

end
-- ==== Proof.PayloadRead.lean ====
/-
  The kernel's six stored values read at an index, at the ideal (extended-real) instance.

  Each value is a chain of vector operations; read at one element, the pointwise operations read through,
  a transpose swaps the two coordinates, a cast to the same shape is the identity, a row or column broadcast
  reads the operand's one row or column, a matrix product into the zero accumulator is the sum over the one
  contracted coordinate, a lane sum is the sum over the dropped coordinate and the feature maximum the fold
  of max over the dropped coordinate.
-/
import proofs.«148315_g64123861729553_cont_9to1_m_268_14_alg».proof.Proof.Gen.KernelIdeal.Skeleton
import proofs.«148315_g64123861729553_cont_9to1_m_268_14_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayRead

open Cert.KernelIdeal Cert.KernelIdeal.Gen Idealize.ShloMosaic ValueIdx
/-! ## The transposed block -/

/-- The transposed accumulator block, read at (feature, row): the block at (row, feature). -/
theorem pay5_apply (v24 : Vec Ideal S256x16 .f32) (o : Fin 16) (p : Fin 256) :
    k0_pay5 (F := Ideal) v24 (ix2 o p) = v24 (ix2 p o) := by
  unfold k0_pay5
  rw [shapeCast_self]
  exact transpose_ix2_apply v24 transposes_S256x16_p1_0_S16x256 o p

/-! ## The block product -/

/-- The [256, 4096] block of the operator against the [4096, 16] slab of projected features, into the zero
    accumulator, read at (p, o): the sum over the contracted coordinate. -/
theorem pay2_apply (v5 : Vec Ideal S256x4096 .f32) (v8 : Vec Ideal S4096x16 .f32) (p : Fin 256) (o : Fin 16) :
    k0_pay2 (F := Ideal) v5 v8 (ix2 p o) = ∑ k : Fin 4096, v5 (ix2 p k) * v8 (ix2 k o) := by
  unfold k0_pay2
  refine (Ideal.matmul_constant_zero_apply dot_S256x4096_S4096x16_S256x16_1_0_0_1_n_n none v5 v8 (ix2 p o)).trans ?_
  rw [← Equiv.sum_comp (contrEquiv1 dot_S256x4096_S4096x16_S256x16_1_0_0_1_n_n 4096 rfl rfl).symm]
  refine Finset.sum_congr rfl fun k _ => ?_
  have hl : dot_S256x4096_S4096x16_S256x16_1_0_0_1_n_n.lhsIdx (ix2 p o)
      ((contrEquiv1 dot_S256x4096_S4096x16_S256x16_1_0_0_1_n_n 4096 rfl rfl).symm k) = ix2 p k := by
    funext a
    refine Fin.ext ?_
    match a with
    | ⟨0, _⟩ => rfl
    | ⟨1, _⟩ =>
      exact (DotDims.lhsIdx_val_of_single _ rfl _ _).trans (contrEquiv1_symm_val _ 4096 rfl rfl k)
  have hr : dot_S256x4096_S4096x16_S256x16_1_0_0_1_n_n.rhsIdx (ix2 p o)
      ((contrEquiv1 dot_S256x4096_S4096x16_S256x16_1_0_0_1_n_n 4096 rfl rfl).symm k) = ix2 k o := by
    funext a
    refine Fin.ext ?_
    match a with
    | ⟨0, _⟩ =>
      exact (DotDims.rhsIdx_val_of_single _ rfl _ _).trans (contrEquiv1_symm_val _ 4096 rfl rfl k)
    | ⟨1, _⟩ => rfl
  rw [hl, hr]

/-- The same product through a cast to its own shape. -/
theorem pay3_apply (v5 : Vec Ideal S256x4096 .f32) (v8 : Vec Ideal S4096x16 .f32) (p : Fin 256) (o : Fin 16) :
    k0_pay3 (F := Ideal) v5 v8 (ix2 p o) = ∑ k : Fin 4096, v5 (ix2 p k) * v8 (ix2 k o) := by
  unfold k0_pay3
  rw [shapeCast_self]
  exact pay2_apply v5 v8 p o

/-- The accumulator block plus the product. -/
theorem pay4_apply (v5 : Vec Ideal S256x4096 .f32) (v8 : Vec Ideal S4096x16 .f32) (v24 : Vec Ideal S256x16 .f32)
    (p : Fin 256) (o : Fin 16) :
    k0_pay4 (F := Ideal) v5 v8 v24 (ix2 p o) = v24 (ix2 p o) + ∑ k : Fin 4096, v5 (ix2 p k) * v8 (ix2 k o) := by
  unfold k0_pay4
  rw [shapeCast_self]
  exact (addf_apply _ _ _).trans (congrArg (v24 (ix2 p o) + ·) (pay2_apply v5 v8 p o))

/-! ## The linear layer -/

/-- The features against the transposed weight, plus the bias row broadcast over the rows, read at (n, o). -/
theorem pay1_apply (v24 : Vec Ideal S16384x128 .f32) (v25 : Vec Ideal S16x128 .f32) (v28 : Vec Ideal S1x16 .f32)
    (n : Fin 16384) (o : Fin 16) :
    k0_pay1 (F := Ideal) v24 v25 v28 (ix2 n o)
      = (∑ k : Fin 128, v24 (ix2 n k) * v25 (ix2 o k)) + v28 (ix2 (0 : Fin 1) o) := by
  unfold k0_pay1
  rw [shapeCast_self, shapeCast_self]
  refine (addf_apply _ _ _).trans ?_
  refine congrArg₂ (· + ·) ?_ (broadcastTo_1b_ab_apply v28 broadcasts_S1x16_S16384x16 n o)
  refine (Ideal.matmul_constant_zero_apply dot_S16384x128_S128x16_S16384x16_1_0_0_1_n_n none v24 _ (ix2 n o)).trans ?_
  rw [← Equiv.sum_comp (contrEquiv1 dot_S16384x128_S128x16_S16384x16_1_0_0_1_n_n 128 rfl rfl).symm]
  refine Finset.sum_congr rfl fun k _ => ?_
  have hl : dot_S16384x128_S128x16_S16384x16_1_0_0_1_n_n.lhsIdx (ix2 n o)
      ((contrEquiv1 dot_S16384x128_S128x16_S16384x16_1_0_0_1_n_n 128 rfl rfl).symm k) = ix2 n k := by
    funext a
    refine Fin.ext ?_
    match a with
    | ⟨0, _⟩ => rfl
    | ⟨1, _⟩ =>
      exact (DotDims.lhsIdx_val_of_single _ rfl _ _).trans (contrEquiv1_symm_val _ 128 rfl rfl k)
  have hr : dot_S16384x128_S128x16_S16384x16_1_0_0_1_n_n.rhsIdx (ix2 n o)
      ((contrEquiv1 dot_S16384x128_S128x16_S16384x16_1_0_0_1_n_n 128 rfl rfl).symm k) = ix2 k o := by
    funext a
    refine Fin.ext ?_
    match a with
    | ⟨0, _⟩ =>
      exact (DotDims.rhsIdx_val_of_single _ rfl _ _).trans (contrEquiv1_symm_val _ 128 rfl rfl k)
    | ⟨1, _⟩ => rfl
  rw [hl, hr]
  exact congrArg (v24 (ix2 n k) * ·) (transpose_ix2_apply v25 transposes_S16x128_p1_0_S128x16 k o)

/-! ## The epilogue: normalisation over the rows, clamp at zero, maximum over the features -/

/-- A column [16, 1] broadcast along the rows reads, at (o, r), the column at o. -/
theorem broadcastCol_apply (v : FVec Ideal S16x1 .f32) (o : Fin 16) (r : Fin 16384) :
    broadcastTo S16x16384 v broadcasts_S16x1_S16x16384 (ix2 o r) = v (ix2 o (0 : Fin 1)) := by
  refine broadcastTo_apply v broadcasts_S16x1_S16x16384 (ix2 o r) (ix2 o (0 : Fin 1)) fun ax => ?_
  match ax with
  | ⟨0, _⟩ => rfl
  | ⟨1, _⟩ => rfl

/-- A vector [16] cast to a column [16, 1] reads, at (o, 0), the vector at o. -/
theorem castCol_apply (v : FVec Ideal S16 .f32) (o : Fin 16) :
    shapeCast S16x1 v shapeCasts_S16_S16x1 (ix2 o (0 : Fin 1)) = v (ix1 o) :=
  shapeCast_apply v shapeCasts_S16_S16x1 _ _ (by
    rw [Shape.rowMajor_val_two, Shape.rowMajor_val_one]
    show o.val = o.val * 1 + 0
    omega)

/-- The sum along the rows of a [16, 16384] array, read at feature o: the sum over the 16384 rows. -/
theorem rowSum_apply (src : FVec Ideal S16x16384 .f32) (hφ : FKind.Formats .f32)
    (hacc : (0x00000000#32 : BitVec 32) = FKind.add.neutral .f32 hφ) (o : Fin 16) :
    multiReduction .add [1] S16 src 0x00000000#32 reduces_S16x16384_S16 hφ hacc (ix1 o)
      = ∑ r : Fin 16384, src (ix2 o r) := by
  refine (Ideal.multiReduction_add_single src _ reduces_S16x16384_S16 hφ hacc (ix1 o)).trans ?_
  refine Finset.sum_congr rfl fun r _ => congrArg src ?_
  funext a
  refine Fin.ext ?_
  match a with
  | ⟨0, _⟩ => rfl
  | ⟨1, _⟩ => rfl

/-- The maximum along the features of a [16, 16384] array, read at row r: the fold of max over the 16 features,
    from the accumulator's value. -/
theorem featMax_apply (src : FVec Ideal S16x16384 .f32) (hφ : FKind.Formats .f32)
    (hacc : (0xFF800000#32 : BitVec 32) = FKind.maximumf.neutral .f32 hφ) (r : Fin 16384) :
    multiReduction .maximumf [0] S16384 src 0xFF800000#32 reduces_S16x16384_S16384 hφ hacc (ix1 r)
      = (Finset.univ : Finset (Fin 16)).fold max (Ideal.ofBits .f32 0xFF800000#32) (fun o => src (ix2 o r)) := by
  refine (Ideal.multiReduction_maximumf_single src _ reduces_S16x16384_S16384 hφ hacc (ix1 r)).trans ?_
  refine congrArg (fun f => (Finset.univ : Finset (Fin 16)).fold max (Ideal.ofBits .f32 0xFF800000#32) f)
    (funext fun o => congrArg src ?_)
  funext a
  refine Fin.ext ?_
  match a with
  | ⟨0, _⟩ => rfl
  | ⟨1, _⟩ => rfl

/-- The column of row means as the kernel computes it: the row sums, as a column, over the word of 16384.0. -/
abbrev meanCol (src : FVec Ideal S16x16384 .f32) (hφ : FKind.Formats .f32)
    (hacc : (0x00000000#32 : BitVec 32) = FKind.add.neutral .f32 hφ) : FVec Ideal S16x1 .f32 :=
  divf (shapeCast S16x1 (multiReduction .add [1] S16 src 0x00000000#32 reduces_S16x16384_S16 hφ hacc) shapeCasts_S16_S16x1)
    (broadcast S16x1 (Scalar.ofBits .f32 0x46800000#32))

/-- It reads, at feature o, the row sum divided by the count. -/
theorem meanCol_apply (src : FVec Ideal S16x16384 .f32) (hφ : FKind.Formats .f32)
    (hacc : (0x00000000#32 : BitVec 32) = FKind.add.neutral .f32 hφ) (o : Fin 16) :
    meanCol src hφ hacc (ix2 o (0 : Fin 1))
      = Ideal.div (∑ r : Fin 16384, src (ix2 o r)) Cert.SimplicialSpec.count :=
  (divf_apply _ _ _).trans
    (congrArg (Ideal.div · Cert.SimplicialSpec.count) ((castCol_apply _ o).trans (rowSum_apply src hφ hacc o)))

/-- The deviations from the row means as the kernel computes them. -/
abbrev dev (src : FVec Ideal S16x16384 .f32) (hφ : FKind.Formats .f32)
    (hacc : (0x00000000#32 : BitVec 32) = FKind.add.neutral .f32 hφ) : FVec Ideal S16x16384 .f32 :=
  subf src (broadcastTo S16x16384 (meanCol src hφ hacc) broadcasts_S16x1_S16x16384)

/-- They read, at (o, r), the element minus its feature's mean. -/
theorem dev_apply (src : FVec Ideal S16x16384 .f32) (hφ : FKind.Formats .f32)
    (hacc : (0x00000000#32 : BitVec 32) = FKind.add.neutral .f32 hφ) (o : Fin 16) (r : Fin 16384) :
    dev src hφ hacc (ix2 o r)
      = src (ix2 o r) - Ideal.div (∑ r' : Fin 16384, src (ix2 o r')) Cert.SimplicialSpec.count :=
  (subf_apply _ _ _).trans
    (congrArg (src (ix2 o r) - ·) ((broadcastCol_apply _ o r).trans (meanCol_apply src hφ hacc o)))

/-- The last stored row, read at row r: each feature's batch-normalised, scaled, shifted and clamped value,
    maximised over the 16 features from −∞.  The operand is the transposed product [feature, row]. -/
theorem pay6_apply (v24 : Vec Ideal S16x16384 .f32) (v41 v45 : Vec Ideal S16x1 .f32) (r : Fin 16384) :
    k0_pay6 (F := Ideal) v24 v41 v45 (ix2 (0 : Fin 1) r)
      = Cert.SimplicialSpec.out (Cert.SimplicialSpec.act (fun o => v41 (ix2 o (0 : Fin 1)))
          (fun o => v45 (ix2 o (0 : Fin 1))) (fun r o => v24 (ix2 o r))) r := by
  unfold k0_pay6
  -- the row [1, 16384] is the vector of feature maxima
  refine (shapeCast_a_1a_apply _ shapeCasts_S16384_S1x16384 (0 : Fin 1) r).trans ?_
  refine (featMax_apply _ _ _ r).trans ?_
  unfold Cert.SimplicialSpec.out
  refine congrArg (fun f => (Finset.univ : Finset (Fin 16)).fold max Cert.SimplicialSpec.negInf f)
    (funext fun o => ?_)
  -- one feature's value at row r: max (γ · ((z − mean) · rsqrt (var + ε)) + β) 0
  unfold Cert.SimplicialSpec.act
  refine (maximumf_apply _ _ _).trans ?_
  refine congrArg₂ max ?_ Ideal.ofBits_zero_f32
  refine (addf_apply _ _ _).trans ?_
  refine congrArg₂ (· + ·) ?_ ((broadcastCol_apply _ o r).trans (congrFun (shapeCast_self v45 _) _))
  refine (mulf_apply _ _ _).trans ?_
  refine congrArg₂ (· * ·) ((broadcastCol_apply _ o r).trans (congrFun (shapeCast_self v41 _) _)) ?_
  refine (mulf_apply _ _ _).trans ?_
  refine congrArg₂ (· * ·) (dev_apply v24 _ _ o r) ?_
  -- the reciprocal square root of the variance plus ε, a column broadcast along the rows
  refine (broadcastCol_apply _ o r).trans ?_
  refine congrArg Ideal.rsqrt ?_
  refine (addf_apply _ _ _).trans ?_
  refine congrArg (· + Cert.SimplicialSpec.eps) ?_
  refine (meanCol_apply _ _ _ o).trans ?_
  refine congrArg (Ideal.div · Cert.SimplicialSpec.count) (Finset.sum_congr rfl fun r' _ => ?_)
  exact (mulf_apply _ _ _).trans (congrArg₂ (· * ·) (dev_apply v24 _ _ o r') (dev_apply v24 _ _ o r'))

end Cert.KernelIdeal.PayRead

end
-- ==== Proof.SpecLaws.lean ====
import proofs.«148315_g64123861729553_cont_9to1_m_268_14_alg».proof.Proof.Spec

/-!
  Pure laws of the specification.

  * The float words as real numbers: the row count is 16384, ε is a positive real.
  * Closure of the real numbers under every stage: the linear layer, the dense product, the mean and the
    variance of real data are real, and the variance is nonnegative, so no stage makes an infinity from
    finite data.
  * The quotient form and the reciprocal-square-root form of the normalisation agree wherever
    var + ε is a positive real, whatever the numerator.
  * The sum over the 16384 rows cut into four consecutive panels of 4096 (in any commutative monoid).
-/

noncomputable section

namespace Cert.SimplicialSpec

open Idealize.ShloMosaic

/-! ### The float words as real numbers -/

/-- The word 0x46800000 is 2^23 · 2^(-9) = 16384. -/
theorem count_eq : count = ((16384 : ℝ) : EReal) := by
  simp [count, Ideal.ofBits, Ideal.ieee]
  rw [← EReal.coe_mul, EReal.coe_eq_coe_iff]
  norm_num

/-- The word 0x3727C5AC is a positive real (a normal number with sign bit 0). -/
theorem eps_pos : ∃ e : ℝ, 0 < e ∧ eps = (e : EReal) := by
  refine ⟨_, ?_, by simp [eps, Ideal.ofBits, Ideal.ieee]; rfl⟩
  positivity

/-! ### The real numbers are closed under every stage -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by the row count is multiplication by 1/16384. -/
theorem div_count_coe (s : ℝ) : Ideal.div (s : EReal) count = ((s * (1 / 16384) : ℝ) : EReal) := by
  rw [count_eq, Ideal.div_coe (by norm_num), ← EReal.coe_mul]

/-- The linear layer of real data is real. -/
theorem theta_real {ZH : Fin 16384 → Fin 128 → EReal} {W : Fin 16 → Fin 128 → EReal} {b : Fin 16 → EReal}
    (hZ : ∀ n k, ∃ x : ℝ, ZH n k = (x : EReal)) (hW : ∀ o k, ∃ x : ℝ, W o k = (x : EReal))
    (hb : ∀ o, ∃ x : ℝ, b o = (x : EReal)) : ∀ n o, ∃ x : ℝ, theta ZH W b n o = (x : EReal) := by
  choose zh hzh using hZ
  choose w hw using hW
  choose bb hbb using hb
  intro n o
  refine ⟨(∑ k : Fin 128, zh n k * w o k) + bb o, ?_⟩
  rw [theta, EReal.coe_add, coe_sum, hbb]
  exact congrArg (fun s => s + (bb o : EReal)) (Finset.sum_congr rfl fun k _ => by rw [hzh, hw, EReal.coe_mul])

/-- The dense product of real data is real. -/
theorem conv_real {L : Fin 16384 → Fin 16384 → EReal} {θ : Fin 16384 → Fin 16 → EReal}
    (hL : ∀ r n, ∃ x : ℝ, L r n = (x : EReal)) (hθ : ∀ n o, ∃ x : ℝ, θ n o = (x : EReal)) :
    ∀ r o, ∃ x : ℝ, conv L θ r o = (x : EReal) := by
  choose l hl using hL
  choose t ht using hθ
  intro r o
  refine ⟨∑ n : Fin 16384, l r n * t n o, ?_⟩
  rw [conv, coe_sum]
  exact Finset.sum_congr rfl fun n _ => by rw [hl, ht, EReal.coe_mul]

/-- The mean of real entries is real. -/
theorem mean_real {z : Fin 16384 → Fin 16 → EReal} (hz : ∀ r o, ∃ x : ℝ, z r o = (x : EReal)) (o : Fin 16) :
    ∃ m : ℝ, mean z o = (m : EReal) := by
  choose x hx using hz
  refine ⟨(∑ r : Fin 16384, x r o) * (1 / 16384), ?_⟩
  rw [mean, ← div_count_coe, coe_sum]
  exact congrArg (fun s => Ideal.div s count) (Finset.sum_congr rfl fun r _ => hx r o)

/-- The variance of real entries is a nonnegative real: the mean is real, each squared deviation a
    nonnegative real, and so is their sum times 1/16384. -/
theorem var_real_nonneg {z : Fin 16384 → Fin 16 → EReal} (hz : ∀ r o, ∃ x : ℝ, z r o = (x : EReal)) (o : Fin 16) :
    ∃ v : ℝ, 0 ≤ v ∧ var z o = (v : EReal) := by
  obtain ⟨m, hm⟩ := mean_real hz o
  choose x hx using hz
  refine ⟨(∑ r : Fin 16384, (x r o - m) * (x r o - m)) * (1 / 16384), ?_, ?_⟩
  · exact mul_nonneg (Finset.sum_nonneg fun r _ => mul_self_nonneg _) (by norm_num)
  · rw [var, ← div_count_coe, coe_sum]
    exact congrArg (fun s => Ideal.div s count)
      (Finset.sum_congr rfl fun r _ => by rw [hm, hx, ← EReal.coe_sub, ← EReal.coe_mul])

/-! ### The two spellings of the normalisation -/

/-- On a positive real y, dividing by its square root is multiplying by its reciprocal square root,
    whatever the (extended real) numerator: √y is a nonzero real, so the quotient is the product with 1/√y. -/
theorem div_sqrt_eq_mul_rsqrt {y : ℝ} (hy : 0 < y) (x : EReal) :
    Ideal.div x (Ideal.sqrt (y : EReal)) = x * Ideal.rsqrt (y : EReal) := by
  have hs : Real.sqrt y ≠ 0 := (Real.sqrt_pos.mpr hy).ne'
  rw [Ideal.sqrt_coe, if_neg (not_lt.mpr hy.le), Ideal.rsqrt_coe, if_neg (not_lt.mpr hy.le), if_neg hy.ne',
    Ideal.div_coe hs, one_div]

/-- The quotient form and the reciprocal-square-root form of the activation agree on real data:
    the variance is a nonnegative real and ε a positive one, so their sum is a positive real. -/
theorem actQ_eq_act (g β : Fin 16 → EReal) {z : Fin 16384 → Fin 16 → EReal}
    (hz : ∀ r o, ∃ x : ℝ, z r o = (x : EReal)) (r : Fin 16384) (o : Fin 16) :
    actQ g β z r o = act g β z r o := by
  obtain ⟨v, hv0, hv⟩ := var_real_nonneg hz o
  obtain ⟨e, he0, he⟩ := eps_pos
  have hy : var z o + eps = ((v + e : ℝ) : EReal) := by rw [hv, he, EReal.coe_add]
  rw [actQ, act, hy, div_sqrt_eq_mul_rsqrt (by positivity)]

/-- The two forms of the whole computation agree on real inputs. -/
theorem resultQ_eq_result {ZH : Fin 16384 → Fin 128 → EReal} {L : Fin 16384 → Fin 16384 → EReal}
    {W : Fin 16 → Fin 128 → EReal} {b : Fin 16 → EReal} (g β : Fin 16 → EReal)
    (hZ : ∀ n k, ∃ x : ℝ, ZH n k = (x : EReal)) (hL : ∀ r n, ∃ x : ℝ, L r n = (x : EReal))
    (hW : ∀ o k, ∃ x : ℝ, W o k = (x : EReal)) (hb : ∀ o, ∃ x : ℝ, b o = (x : EReal)) (r : Fin 16384) :
    resultQ ZH L W b g β r = result ZH L W b g β r := by
  have h : actQ g β (conv L (theta ZH W b)) = act g β (conv L (theta ZH W b)) :=
    funext fun r => funext fun o => actQ_eq_act g β (conv_real hL (theta_real hZ hW hb)) r o
  rw [resultQ, result, h]

/-! ### The sum over the rows, in panels -/

/-- The sum over 16384 indices as a double sum over 4 panels of 4096 consecutive indices. -/
theorem sum_panel_blocks {M : Type*} [AddCommMonoid M] (f : Fin 16384 → M) :
    ∑ n : Fin 16384, f n = ∑ j : Fin 4, ∑ k : Fin 4096, f ⟨j.val * 4096 + k.val, by omega⟩ := by
  calc ∑ n : Fin 16384, f n
      = ∑ p : Fin 4 × Fin 4096, f (finProdFinEquiv p) :=
        (Fintype.sum_equiv (finProdFinEquiv : Fin 4 × Fin 4096 ≃ Fin (4 * 4096)) _ _ (fun _ => rfl)).symm
    _ = ∑ j : Fin 4, ∑ k : Fin 4096, f (finProdFinEquiv (j, k)) := Fintype.sum_prod_type _
    _ = _ := by
        refine Finset.sum_congr rfl fun j _ => Finset.sum_congr rfl fun k _ => congrArg f (Fin.ext ?_)
        show k.val + 4096 * j.val = j.val * 4096 + k.val
        omega

/-- The same sum with the four panels added left to right, the order a four-step accumulator produces. -/
theorem sum_panels {M : Type*} [AddCommMonoid M] (f : Fin 16384 → M) :
    ∑ n : Fin 16384, f n =
      ((∑ k : Fin 4096, f ⟨k.val, by omega⟩ + ∑ k : Fin 4096, f ⟨4096 + k.val, by omega⟩)
        + ∑ k : Fin 4096, f ⟨2 * 4096 + k.val, by omega⟩) + ∑ k : Fin 4096, f ⟨3 * 4096 + k.val, by omega⟩ := by
  rw [sum_panel_blocks, Fin.sum_univ_four]
  refine congrArg₂ (· + ·) (congrArg₂ (· + ·) (congrArg₂ (· + ·) ?_ ?_) ?_) ?_ <;>
    refine Finset.sum_congr rfl fun k _ => congrArg f (Fin.ext ?_)
  · show 0 * 4096 + k.val = k.val
    omega
  · show 1 * 4096 + k.val = 4096 + k.val
    omega
  · rfl
  · rfl

end Cert.SimplicialSpec

end
-- ==== Proof.SpecAccum.lean ====
import proofs.«148315_g64123861729553_cont_9to1_m_268_14_alg».proof.Proof.Spec
import proofs.«148315_g64123861729553_cont_9to1_m_268_14_alg».proof.Proof.SpecLaws

/-!
  The dense product as a four-step accumulation.

  The 16384 × 16384 operator is walked in 256 steps n = 4·I + j: row block I < 64 (256 rows each) and column
  panel j < 4 (4096 columns each). At panel 0 the 256 × 16 accumulator is set to the panel's product, at panels
  1, 2, 3 the panel's product is added to it (old + new). After panel 3 the accumulator holds, for each of the
  block's rows, the whole sum over the 16384 columns: the four panels added left to right.
-/

noncomputable section

namespace Cert.SimplicialSpec

/-- The product of one 256 × 4096 panel of L with the matching 4096 rows of θ. -/
def part (L : Fin 16384 → Fin 16384 → EReal) (θ : Fin 16384 → Fin 16 → EReal) (n : ℕ) (hn : n < 256)
    (p : Fin 256) (o : Fin 16) : EReal :=
  ∑ k : Fin 4096, L ⟨256 * (n / 4) + p.val, by omega⟩ ⟨4096 * (n % 4) + k.val, by omega⟩
    * θ ⟨4096 * (n % 4) + k.val, by omega⟩ o

/-- The accumulator after point n. -/
def accum (L : Fin 16384 → Fin 16384 → EReal) (θ : Fin 16384 → Fin 16 → EReal) :
    (n : ℕ) → n < 256 → Fin 256 → Fin 16 → EReal
  | 0, h => part L θ 0 h
  | n + 1, h =>
    if (n + 1) % 4 = 0 then part L θ (n + 1) h
    else fun p o => accum L θ n (by omega) p o + part L θ (n + 1) h p o

/-- At the first panel of a row block the accumulator is that panel's product. -/
theorem accum_zero_mod (L : Fin 16384 → Fin 16384 → EReal) (θ : Fin 16384 → Fin 16 → EReal) (n : ℕ) (hn : n < 256)
    (h : n % 4 = 0) : accum L θ n hn = part L θ n hn := by
  cases n with
  | zero => rfl
  | succ m => rw [accum, if_pos h]

/-- At a later panel the accumulator is the previous one plus that panel's product. -/
theorem accum_succ (L : Fin 16384 → Fin 16384 → EReal) (θ : Fin 16384 → Fin 16 → EReal) (n : ℕ) (hn : n + 1 < 256)
    (h : ¬ (n + 1) % 4 = 0) (p : Fin 256) (o : Fin 16) :
    accum L θ (n + 1) hn p o = accum L θ n (by omega) p o + part L θ (n + 1) hn p o := by
  rw [accum, if_neg h]

/-- A product of an entry of L and an entry of θ depends on the indices through their values only. -/
theorem mul_idx_congr (L : Fin 16384 → Fin 16384 → EReal) (θ : Fin 16384 → Fin 16 → EReal) (o : Fin 16)
    {a a' b b' : Fin 16384} (ha : a.val = a'.val) (hb : b.val = b'.val) : L a b * θ b o = L a' b' * θ b' o := by
  rw [Fin.ext ha, Fin.ext hb]

/-- After the fourth panel of row block I the accumulator is the dense product on the block's rows. -/
theorem accum_last (L : Fin 16384 → Fin 16384 → EReal) (θ : Fin 16384 → Fin 16 → EReal) (I : Fin 64) (p : Fin 256)
    (o : Fin 16) : accum L θ (4 * I.val + 3) (by omega) p o = conv L θ ⟨256 * I.val + p.val, by omega⟩ o := by
  have e3 : accum L θ (4 * I.val + 3) (by omega) p o
      = accum L θ (4 * I.val + 2) (by omega) p o + part L θ (4 * I.val + 3) (by omega) p o :=
    accum_succ L θ (4 * I.val + 2) (by omega) (by omega) p o
  have e2 : accum L θ (4 * I.val + 2) (by omega) p o
      = accum L θ (4 * I.val + 1) (by omega) p o + part L θ (4 * I.val + 2) (by omega) p o :=
    accum_succ L θ (4 * I.val + 1) (by omega) (by omega) p o
  have e1 : accum L θ (4 * I.val + 1) (by omega) p o
      = accum L θ (4 * I.val) (by omega) p o + part L θ (4 * I.val + 1) (by omega) p o :=
    accum_succ L θ (4 * I.val) (by omega) (by omega) p o
  have e0 : accum L θ (4 * I.val) (by omega) p o = part L θ (4 * I.val) (by omega) p o :=
    congrFun (congrFun (accum_zero_mod L θ (4 * I.val) (by omega) (by omega)) p) o
  rw [e3, e2, e1, e0, conv, sum_panels]
  unfold part
  refine congrArg₂ (· + ·) (congrArg₂ (· + ·) (congrArg₂ (· + ·) ?_ ?_) ?_) ?_ <;>
    refine Finset.sum_congr rfl fun k _ => mul_idx_congr L θ o ?_ ?_ <;> dsimp only <;> omega

end Cert.SimplicialSpec

end
-- ==== Proof.KI.ValueChain.lean ====
import proofs.«148315_g64123861729553_cont_9to1_m_268_14_alg».proof.Proof.KI.State
import proofs.«148315_g64123861729553_cont_9to1_m_268_14_alg».proof.Proof.PayloadRead
import proofs.«148315_g64123861729553_cont_9to1_m_268_14_alg».proof.Proof.SpecAccum

/-!
  The kernel's scratch contents as the mathematics of the specification, element by element.

  Given what each window's block holds in terms of the arrays Z_H, L, W, b, γ, β (and that a load of the panel of
  4096 rows reads those rows), the projection is the linear layer θ, each point's panel product is the panel
  sum of L · θ, the block accumulator follows the four-step accumulation, the transposed product holds the dense
  product L · θ, and the output row is the normalised, clamped maximum over the features.
-/

set_option maxRecDepth 16384

noncomputable section

namespace Cert.KernelIdeal.Body

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen
open Idealize.ShloMosaic.ValueIdx (ix1 ix2)

/-- What the six windows' blocks hold, as entries of the arrays of the specification, and what a load of a
    point's panel of the projection reads. -/
structure BlockReads (m : (ℓ : Loc nD τ sig) → Buf (Elt Ideal) ℓ) (c : Dev nD)
    (ZH : Fin 16384 → Fin 128 → EReal) (L : Fin 16384 → Fin 16384 → EReal) (W : Fin 16 → Fin 128 → EReal)
    (b g β : Fin 16 → EReal) : Prop where
  h0 : ∀ (t : Fin cfg0.N) (n : Fin 16384) (k : Fin 128),
    (iblk m c 0 t : Vec Ideal S16384x128 .f32) (ix2 n k) = ZH n k
  h2 : ∀ (t : Fin cfg0.N) (o : Fin 16) (k : Fin 128), (iblk m c 2 t : Vec Ideal S16x128 .f32) (ix2 o k) = W o k
  h3 : ∀ (t : Fin cfg0.N) (o : Fin 16), (iblk m c 3 t : Vec Ideal S1x16 .f32) (ix2 (0 : Fin 1) o) = b o
  h4 : ∀ (t : Fin cfg0.N) (o : Fin 16), (iblk m c 4 t : Vec Ideal S16x1 .f32) (ix2 o (0 : Fin 1)) = g o
  h5 : ∀ (t : Fin cfg0.N) (o : Fin 16), (iblk m c 5 t : Vec Ideal S16x1 .f32) (ix2 o (0 : Fin 1)) = β o
  h1 : ∀ (n : ℕ) (h : n < 256) (p : Fin 256) (k : Fin 4096),
    (iblk m c 1 (pt n h) : Vec Ideal S256x4096 .f32) (ix2 p k)
      = L ⟨256 * (n / 4) + p.val, by omega⟩ ⟨4096 * (n % 4) + k.val, by omega⟩
  hpan : ∀ (n : ℕ) (h : n < 256) (X : Vec Ideal S16384x16 .f32) (k : Fin 4096) (o : Fin 16),
    (View.ld X (RPan (grid0.coords (pt n h))) : Vec Ideal S4096x16 .f32) (ix2 k o)
      = X (ix2 (⟨4096 * (n % 4) + k.val, by omega⟩ : Fin 16384) o)

variable {m : (ℓ : Loc nD τ sig) → Buf (Elt Ideal) ℓ} {c : Dev nD}
  {ZH : Fin 16384 → Fin 128 → EReal} {L : Fin 16384 → Fin 16384 → EReal} {W : Fin 16 → Fin 128 → EReal}
  {b g β : Fin 16 → EReal}

/-- The projection is the linear layer. -/
theorem thAt_apply (H : BlockReads m c ZH L W b g β) (n : Fin 16384) (o : Fin 16) :
    thAt (F := Ideal) m c (ix2 n o) = SimplicialSpec.theta ZH W b n o := by
  unfold thAt SimplicialSpec.theta
  refine (PayRead.pay1_apply _ _ _ n o).trans ?_
  exact congrArg₂ (· + ·)
    (Finset.sum_congr rfl fun k _ => congrArg₂ (· * ·) (H.h0 _ n k) (H.h2 _ o k)) (H.h3 _ o)

/-- A sum of products of a block of L with a panel of θ, entry by entry, is the panel sum of L · θ. -/
theorem panel_sum (L : Fin 16384 → Fin 16384 → EReal) (θ : Fin 16384 → Fin 16 → EReal) (n : ℕ) (h : n < 256)
    (p : Fin 256) (o : Fin 16) (v5 : Vec Ideal S256x4096 .f32) (v8 : Vec Ideal S4096x16 .f32)
    (e5 : ∀ k : Fin 4096, v5 (ix2 p k) = L ⟨256 * (n / 4) + p.val, by omega⟩ ⟨4096 * (n % 4) + k.val, by omega⟩)
    (e8 : ∀ k : Fin 4096, v8 (ix2 k o) = θ ⟨4096 * (n % 4) + k.val, by omega⟩ o) :
    ∑ k : Fin 4096, v5 (ix2 p k) * v8 (ix2 k o) = SimplicialSpec.part L θ n h p o := by
  unfold SimplicialSpec.part
  exact Finset.sum_congr rfl fun k _ => congrArg₂ (· * ·) (e5 k) (e8 k)

/-- The panel product a point contributes. -/
theorem partAt_apply (H : BlockReads m c ZH L W b g β) (n : ℕ) (h : n < 256) (p : Fin 256) (o : Fin 16) :
    partAt (F := Ideal) m c n h (ix2 p o) = SimplicialSpec.part L (SimplicialSpec.theta ZH W b) n h p o := by
  unfold partAt
  exact (PayRead.pay3_apply _ _ p o).trans (panel_sum L _ n h p o _ _ (fun k => H.h1 n h p k)
    (fun k => (H.hpan n h _ k o).trans (thAt_apply H _ o)))

/-- The block accumulator follows the four-step accumulation. -/
theorem accAt_apply (H : BlockReads m c ZH L W b g β) : ∀ (n : ℕ) (h : n < 256) (p : Fin 256) (o : Fin 16),
    accAt (F := Ideal) m c n h (ix2 p o) = SimplicialSpec.accum L (SimplicialSpec.theta ZH W b) n h p o
  | 0, h, p, o => partAt_apply H 0 h p o
  | n + 1, h, p, o => by
    by_cases h4 : (n + 1) % 4 = 0
    · rw [accAt_new m c (n + 1) h h4, SimplicialSpec.accum_zero_mod L _ (n + 1) h h4]
      exact partAt_apply H (n + 1) h p o
    · rw [accAt_add m c (n + 1) h h4, SimplicialSpec.accum_succ L _ n h h4 p o]
      refine (PayRead.pay4_apply _ _ _ p o).trans ?_
      exact congrArg₂ (· + ·) (accAt_apply H n _ p o) (panel_sum L _ (n + 1) h p o _ _ (fun k => H.h1 (n + 1) h p k)
        (fun k => (H.hpan (n + 1) h _ k o).trans (thAt_apply H _ o)))

/-- The transposed product holds the dense product: column r is row r % 256 of the finished accumulator of
    row block r / 256, and 256 · (r / 256) + r % 256 = r. -/
theorem ztAt_apply (H : BlockReads m c ZH L W b g β) (o : Fin 16) (r : Fin 16384) :
    ztAt (F := Ideal) m c (ix2 o r) = SimplicialSpec.conv L (SimplicialSpec.theta ZH W b) r o := by
  unfold ztAt
  refine (PayRead.pay5_apply _ _ _).trans ?_
  refine (accAt_apply H _ _ _ _).trans ?_
  refine (SimplicialSpec.accum_last L _ ⟨r.val / 256, by omega⟩ ⟨r.val % 256, by omega⟩ o).trans ?_
  exact congrArg (fun x => SimplicialSpec.conv L (SimplicialSpec.theta ZH W b) x o) (Fin.ext (by dsimp only; omega))

/-- The output row is the specification's result. -/
theorem outAt_apply (H : BlockReads m c ZH L W b g β) (t : Fin cfg0.N) (r : Fin 16384) :
    outAt (F := Ideal) m c t (ix2 (0 : Fin 1) r) = SimplicialSpec.result ZH L W b g β r := by
  unfold outAt SimplicialSpec.result
  refine (PayRead.pay6_apply _ _ _ r).trans ?_
  have hg : (fun o : Fin 16 => (iblk m c 4 t : Vec Ideal S16x1 .f32) (ix2 o (0 : Fin 1))) = g :=
    funext fun o => H.h4 t o
  have hβ : (fun o : Fin 16 => (iblk m c 5 t : Vec Ideal S16x1 .f32) (ix2 o (0 : Fin 1))) = β :=
    funext fun o => H.h5 t o
  have hz : (fun (r : Fin 16384) (o : Fin 16) => ztAt (F := Ideal) m c (ix2 o r))
      = SimplicialSpec.conv L (SimplicialSpec.theta ZH W b) :=
    funext fun r => funext fun o => ztAt_apply H o r
  exact congrArg (fun a => SimplicialSpec.out a r) (congr (congr (congrArg SimplicialSpec.act hg) hβ) hz)

end Cert.KernelIdeal.Body

end
-- ==== Proof.RefRead.lean ====
/-
  The reference's composed term read at one index: each stage of the composed term, read at coordinates, is the
  corresponding function of the shared specification over plain indices —

    zTheta at (n, o)   = Σ_k Z_H[n,k]·W[o,k] + b[o]            (the transposed weight read back at (k, o))
    zConv at (r, o)    = Σ_n L[r,n]·zTheta[n,o]
    meanOf at o        = (Σ_r z[r,o]) / 16384.0
    varOf at o         = (Σ_r (z[r,o] − mean[o])²) / 16384.0   (the divisor 16384.0 − float(0) is 16384.0, which is
                          positive, so the selection takes the quotient)
    normed at (r, o)   = max(γ[o]·((z[r,o] − mean[o]) / sqrt(var[o] + ε)) + β[o], 0)
    the result at (r, 0) = the fold of max from −∞ over the 16 columns of row r.

  Every layout operation is read through its index lemma, every reduction over one axis as the sum (or the fold of
  max) over that axis's coordinate, each product as the sum over its one contracted coordinate.
-/
import proofs.«148315_g64123861729553_cont_9to1_m_268_14_alg».proof.Proof.RefRun
import proofs.«148315_g64123861729553_cont_9to1_m_268_14_alg».proof.Proof.Spec
import Idealize.ShloMosaic.Lib.IdealHost
import Idealize.ShloMosaic.Lib.KernelVsHost
import Idealize.ShloMosaic.Lib.StackMember
import Idealize.ShloMosaic.Lib.ValueLayout
import Idealize.ShloMosaic.Lib.Pipeline.Value

noncomputable section

namespace Cert.ReferenceIdeal.HandRead

open Cert.ReferenceIdeal Cert.ReferenceIdeal.HandRun Idealize.ShloMosaic Idealize.ShloMosaic.ValueIdx
open Idealize.ShloMosaic.StackMember
open Cert.ReferenceIdeal.Facts₀ Cert.ReferenceIdeal.Facts
open scoped BigOperators

variable [Cert.ReferenceIdeal.Facts]

/-! ## The literals -/

/-- The word 0x46800000 is 2¹⁴. -/
theorem count_eq : SimplicialSpec.count = ((16384 : ℝ) : EReal) := by
  unfold SimplicialSpec.count
  simp [Ideal.ofBits, Ideal.ieee, -EReal.coe_mul]
  norm_num

theorem count_pos : (0 : EReal) < SimplicialSpec.count := by
  rw [count_eq]
  exact_mod_cast (by norm_num : (0 : ℝ) < 16384)

/-! ## Layout operations read at an index -/

/-- A length-16 vector as a one-row matrix, read at (0, o). -/
theorem row1_apply {α : Type} (v : S16.Idx → α) (o : Fin 16) :
    broadcastInDim S1x16 ![1] bcast_S16_S1x16_1 v (ix2 (0 : Fin 1) o) = v (ix1 o) :=
  broadcastInDim_apply _ _ v _ (ix1 o) (fun a => match a with | ⟨0, _⟩ => rfl)

/-- A length-16 vector constant along the rows, read at (r, o). -/
theorem rows_apply (v : FVec Ideal S16 .f32) (r : Fin 16384) (o : Fin 16) : rows v (ix2 r o) = v (ix1 o) := by
  unfold rows
  rw [broadcastInDim_oneRow_apply, row1_apply]

/-- The last broadcast: a length-16384 vector as a one-column matrix, read at (r, 0). -/
theorem col_apply {α : Type} (v : S16384.Idx → α) (r : Fin 16384) :
    broadcastInDim S16384x1 ![0] bcast_S16384_S16384x1_0 v (ix2 r (0 : Fin 1)) = v (ix1 r) :=
  broadcastInDim_apply _ _ v _ (ix1 r) (fun a => match a with | ⟨0, _⟩ => rfl)

/-! ## The reductions read at an index -/

theorem reducesRows : S16384x16.Reduces [0] S16 := by decide
theorem reducesCols : S16384x16.Reduces [1] S16384 := by decide

/-- A column sum from the zero word: the sum over the 16384 rows. -/
theorem colSum_apply (z : FVec Ideal S16384x16 .f32) (o : Fin 16) :
    Host.reduceAdd z (constant S_ .f32 0x00000000#32) reducesTo_S16384x16_S16_d0 h_S_ (ix1 o)
      = ∑ r : Fin 16384, z (ix2 r o) := by
  show Ideal.hostReduceAdd reducesTo_S16384x16_S16_d0 z (Ideal.ofBits .f32 0x00000000#32) (ix1 o) = _
  rw [Ideal.hostReduceAdd_single reducesTo_S16384x16_S16_d0 reducesRows, Ideal.ofBits_zero_f32, zero_add]
  refine Finset.sum_congr rfl fun r _ => congrArg z ?_
  funext a
  match a with
  | ⟨0, _⟩ => exact Fin.ext rfl
  | ⟨1, _⟩ => exact Fin.ext rfl

/-- A row maximum from the word of −∞: the fold of max over the 16 columns. -/
theorem rowMax_apply (x : FVec Ideal S16384x16 .f32) (r : Fin 16384) :
    Host.reduce FloatOps.maximumf x (constant S_ .f32 0xFF800000#32) reducesTo_S16384x16_S16384_d1 h_S_ (ix1 r)
      = (Finset.univ : Finset (Fin 16)).fold max SimplicialSpec.negInf (fun o => x (ix2 r o)) := by
  rw [Host.reduce_eq_fold_single FloatOps.maximumf x _ reducesTo_S16384x16_S16384_d1 reducesCols h_S_]
  have hl : (x ∘ reducesCols.lift (ix1 r)) = fun o : Fin 16 => x (ix2 r o) :=
    funext fun o => congrArg x (funext fun a => match a with
      | ⟨0, _⟩ => Fin.ext rfl
      | ⟨1, _⟩ => Fin.ext rfl)
  rw [hl]
  rfl

/-! ## The two products read at an index -/

theorem dot1_apply (A : FVec Ideal S16384x128 .f32) (B : FVec Ideal S128x16 .f32) (n : Fin 16384) (o : Fin 16) :
    Host.dotGeneral dot_S16384x128_S128x16_S16384x16_1_0_0_1_n_n none A B (ix2 n o)
      = ∑ k : Fin 128, A (ix2 n k) * B (ix2 k o) :=
  dotGeneral_plain_apply (m := 16384) (n := 16) (k := 128) none A B n o

theorem dot2_apply (A : FVec Ideal S16384x16384 .f32) (B : FVec Ideal S16384x16 .f32) (r : Fin 16384) (o : Fin 16) :
    Host.dotGeneral dot_S16384x16384_S16384x16_S16384x16_1_0_0_1_n_n none A B (ix2 r o)
      = ∑ n : Fin 16384, A (ix2 r n) * B (ix2 n o) :=
  dotGeneral_plain_apply (m := 16384) (n := 16) (k := 16384) none A B r o

/-! ## The stages -/

/-- The linear layer at (n, o). -/
theorem zTheta_apply (a0 : FVec Ideal S16384x128 .f32) (a2 : FVec Ideal S16x128 .f32) (a3 : FVec Ideal S16 .f32)
    (n : Fin 16384) (o : Fin 16) :
    zTheta a0 a2 a3 (ix2 n o)
      = SimplicialSpec.theta (fun n k => a0 (ix2 n k)) (fun o k => a2 (ix2 o k)) (fun o => a3 (ix1 o)) n o := by
  unfold zTheta SimplicialSpec.theta
  refine congrArg₂ (· + ·) ?_ (rows_apply a3 n o)
  rw [dot1_apply]
  refine Finset.sum_congr rfl fun k _ => ?_
  rw [transpose_ix2_apply]

/-- The dense product at (r, o). -/
theorem zConv_apply (a0 : FVec Ideal S16384x128 .f32) (a1 : FVec Ideal S16384x16384 .f32) (a2 : FVec Ideal S16x128 .f32)
    (a3 : FVec Ideal S16 .f32) (r : Fin 16384) (o : Fin 16) :
    zConv a0 a1 a2 a3 (ix2 r o)
      = SimplicialSpec.conv (fun r n => a1 (ix2 r n))
          (SimplicialSpec.theta (fun n k => a0 (ix2 n k)) (fun o k => a2 (ix2 o k)) (fun o => a3 (ix1 o))) r o := by
  unfold zConv SimplicialSpec.conv
  rw [dot2_apply]
  refine Finset.sum_congr rfl fun n _ => ?_
  rw [zTheta_apply]

/-- The column mean at o. -/
theorem meanOf_apply (z : FVec Ideal S16384x16 .f32) (o : Fin 16) :
    meanOf z (ix1 o) = SimplicialSpec.mean (fun r o => z (ix2 r o)) o := by
  unfold meanOf SimplicialSpec.mean
  rw [hostDivf_apply, colSum_apply, broadcastInDim_scalar_apply]
  rfl

/-- The variance function's deviation at (r, o): the entry minus its column's mean. -/
theorem devOf_apply (z : FVec Ideal S16384x16 .f32) (r : Fin 16384) (o : Fin 16) :
    devOf z (ix2 r o) = z (ix2 r o) - SimplicialSpec.mean (fun r o => z (ix2 r o)) o := by
  unfold devOf SimplicialSpec.mean
  rw [subf_apply, broadcastInDim_oneRow_apply, hostDivf_apply, row1_apply, colSum_apply, broadcastInDim_scalar_apply]
  rfl

/-- The variance function's divisor at the integer zero: 16384.0 − 0. -/
theorem divisorOf_apply : divisorOf (F := Ideal) (constantI S_ 32 0#32) ix0 = SimplicialSpec.count := by
  show Ideal.ofBits .f32 0x46800000#32 - (((0#32 : BitVec 32).toInt : ℝ) : EReal) = SimplicialSpec.count
  simp [SimplicialSpec.count]

/-- The divisor is positive: the selection's condition holds. -/
theorem cond_apply :
    cmpf .ogt (divisorOf (F := Ideal) (constantI S_ 32 0#32)) (constant S_ .f32 0x00000000#32) ix0 = 1#1 := by
  rw [cmpf_apply, divisorOf_apply]
  show Ideal.cmp .ogt SimplicialSpec.count (Ideal.ofBits .f32 0x00000000#32) = 1#1
  rw [Ideal.ofBits_zero_f32]
  simp [Ideal.cmp, count_pos]

/-- The variance function at o. -/
theorem varOf_apply (z : FVec Ideal S16384x16 .f32) (o : Fin 16) :
    varOf z (constantI S_ 32 0#32) (ix1 o) = SimplicialSpec.var (fun r o => z (ix2 r o)) o := by
  unfold varOf SimplicialSpec.var
  rw [select_apply, broadcastInDim_scalar_apply, cond_apply, select_one, hostDivf_apply, colSum_apply,
    broadcastInDim_scalar_apply, divisorOf_apply]
  refine congrArg (fun s => Ideal.div s SimplicialSpec.count) (Finset.sum_congr rfl fun r _ => ?_)
  rw [mulf_apply, devOf_apply]

/-- The square root at an index. -/
theorem sqrt_apply {s : Shape} (x : FVec Ideal s .f32) (i : s.Idx) : Host.sqrt x i = Ideal.sqrt (x i) := rfl

/-- Normalised, scaled, shifted and clamped, at (r, o). -/
theorem normed_apply (z : FVec Ideal S16384x16 .f32) (a4 a5 : FVec Ideal S16 .f32) (r : Fin 16384) (o : Fin 16) :
    normed z a4 a5 (ix2 r o)
      = SimplicialSpec.actQ (fun o => a4 (ix1 o)) (fun o => a5 (ix1 o)) (fun r o => z (ix2 r o)) r o := by
  unfold normed SimplicialSpec.actQ
  rw [maximumf_apply, addf_apply, mulf_apply, hostDivf_apply, subf_apply, rows_apply, rows_apply, rows_apply, rows_apply,
    meanOf_apply, sqrt_apply, addf_apply, varOf_apply, broadcastInDim_scalar_apply, broadcastInDim_scalar_apply,
    constant_apply, constant_apply, Ideal.ofBits_zero_f32]
  rfl

/-! ## The result -/

/-- The composed term at (r, 0) is the shared specification's quotient form at row r. -/
theorem refTerm_apply (a0 : FVec Ideal S16384x128 .f32) (a1 : FVec Ideal S16384x16384 .f32) (a2 : FVec Ideal S16x128 .f32)
    (a3 a4 a5 : FVec Ideal S16 .f32) (r : Fin 16384) :
    HandRun.refTerm (F := Ideal) a0 a1 a2 a3 a4 a5 (ValueIdx.ix2 r (0 : Fin 1))
      = Cert.SimplicialSpec.resultQ (fun n k => a0 (ValueIdx.ix2 n k)) (fun r n => a1 (ValueIdx.ix2 r n)) (fun o k => a2 (ValueIdx.ix2 o k))
          (fun o => a3 (ValueIdx.ix1 o)) (fun o => a4 (ValueIdx.ix1 o)) (fun o => a5 (ValueIdx.ix1 o)) r := by
  unfold HandRun.refTerm SimplicialSpec.resultQ SimplicialSpec.out
  rw [col_apply, rowMax_apply]
  have hz : (fun r o => zConv a0 a1 a2 a3 (ix2 r o))
      = SimplicialSpec.conv (fun r n => a1 (ix2 r n))
          (SimplicialSpec.theta (fun n k => a0 (ix2 n k)) (fun o k => a2 (ix2 o k)) (fun o => a3 (ix1 o))) :=
    funext fun r => funext fun o => zConv_apply a0 a1 a2 a3 r o
  refine congrArg (fun f => (Finset.univ : Finset (Fin 16)).fold max SimplicialSpec.negInf f) (funext fun o => ?_)
  rw [normed_apply, hz]

end Cert.ReferenceIdeal.HandRead

end
-- ==== Proof.Finite.lean ====
import proofs.«148315_g64123861729553_cont_9to1_m_268_14_alg».proof.Pre_finite_inputs
import Idealize.ShloMosaic.Lib.ReduceAll
import Idealize.ShloMosaic.Lib.ValueIdx
import Idealize.ShloMosaic.PureOps.Ideal.Laws

/-!
  The precondition read back: the printed predicate is the conjunction, over the six argument arrays, of
  "every entry x satisfies |x| < +∞" (an elementwise comparison folded by "and" from 1). When it evaluates
  to 1, every fold is 1, so every comparison is 1, so every entry lies strictly between −∞ and +∞: it is a
  real number.
-/

noncomputable section

namespace Cert.Finite

open Idealize.ShloMosaic Idealize.ShloMosaic.ValueIdx Cert.Pre_finite_inputs

/-- The rank-0 shape has one index. -/
instance : Subsingleton S_.Idx := ⟨fun a b => funext fun d => d.elim0⟩

/-- The word 0x7F800000 (all-ones exponent, zero fraction, sign 0) is +∞. -/
theorem inf_word : Ideal.ofBits .f32 0x7F800000#32 = ⊤ := by simp [Ideal.ofBits, Ideal.ieee]

/-- An extended real whose absolute value max x (−x) is strictly below +∞ is a real number:
    x = +∞ fails on the first branch of the maximum, x = −∞ on the second. -/
theorem real_of_abs_lt_inf (x : EReal)
    (h : Ideal.cmp .olt (max x (-x)) (Ideal.ofBits .f32 0x7F800000#32) = 1#1) : ∃ r : ℝ, x = (r : EReal) := by
  rw [inf_word] at h
  have h' : BitVec.ofBool (decide (max x (-x) < ⊤)) = 1#1 := h
  have hlt : max x (-x) < ⊤ := by
    by_contra hn
    rw [decide_eq_false hn] at h'
    exact absurd h' (by decide)
  rw [max_lt_iff] at hlt
  induction x using EReal.rec with
  | bot => exact absurd hlt.2 (by simp)
  | coe r => exact ⟨r, rfl⟩
  | top => exact absurd hlt.1 (by simp)

/-- One conjunct of the predicate: if the fold by "and" of the comparisons |a i| < +∞ over every axis is 1,
    every entry of a is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_abs_lt_inf (a i) (Host.reduce_andi_all _ _ hr hu ix0 e i)

/-- The whole predicate: when it is 1, all six argument arrays hold real numbers only. -/
theorem real_of_fn [Facts] (a0 : FVec Ideal S16384x128 .f32) (a1 : FVec Ideal S16384x16384 .f32)
    (a2 : FVec Ideal S16x128 .f32) (a3 a4 a5 : FVec Ideal S16 .f32)
    (h : fn (F := Ideal) a0 a1 a2 a3 a4 a5 = (fun _ => 1#1)) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal)) := by
  have e := congrFun h ix0
  dsimp only [fn, fn_part1, andi] at e
  simp only [IntOp.andi_eq_one] at e
  obtain ⟨⟨⟨⟨⟨e0, e1⟩, e2⟩, e3⟩, e4⟩, e5⟩ := e
  exact ⟨real_of_all a0 _ _ _ e0, real_of_all a1 _ _ _ e1, real_of_all a2 _ _ _ e2, real_of_all a3 _ _ _ e3,
    real_of_all a4 _ _ _ e4, real_of_all a5 _ _ _ e5⟩

end Cert.Finite

end
-- ==== Proof.Algebraic.lean ====
import proofs.«148315_g64123861729553_cont_9to1_m_268_14_alg».proof.Defs
import proofs.«148315_g64123861729553_cont_9to1_m_268_14_alg».proof.Proof.Gen.KernelIdeal
import proofs.«148315_g64123861729553_cont_9to1_m_268_14_alg».proof.Proof.Gen.ReferenceIdeal
import proofs.«148315_g64123861729553_cont_9to1_m_268_14_alg».proof.Proof.Gen.Pre_finite_inputs
import proofs.«148315_g64123861729553_cont_9to1_m_268_14_alg».proof.Proof.KI.Sound
import proofs.«148315_g64123861729553_cont_9to1_m_268_14_alg».proof.Proof.KI.Tail
import proofs.«148315_g64123861729553_cont_9to1_m_268_14_alg».proof.Proof.KI.BlockRead
import proofs.«148315_g64123861729553_cont_9to1_m_268_14_alg».proof.Proof.KI.ValueChain
import proofs.«148315_g64123861729553_cont_9to1_m_268_14_alg».proof.Proof.RefRun
import proofs.«148315_g64123861729553_cont_9to1_m_268_14_alg».proof.Proof.RefRead
import proofs.«148315_g64123861729553_cont_9to1_m_268_14_alg».proof.Proof.Finite
import proofs.«148315_g64123861729553_cont_9to1_m_268_14_alg».proof.Proof.SpecLaws

/-!
  The two programs compute one function.

  Both results are stated with the same term: at row r, the specification's result (reciprocal-square-root form)
  of the six argument arrays read as functions of plain indices. The kernel's result array ends there because the
  output block of the last point is the specification's result and the host reshape after the region moves entry
  (0, r) to (r, 0). The reference's composed term is the quotient form of the same arrays; on real entries, which
  the precondition guarantees, the quotient form and the reciprocal-square-root form agree.
-/

set_option maxRecDepth 16384

noncomputable section

namespace Cert.Proof.Alg

open Idealize.ShloMosaic Idealize.ShloMosaic.TcCoe Idealize.SL.Sem
open Idealize.ShloMosaic.Pipeline (Dat)
open Idealize.ShloMosaic.ValueIdx (ix1 ix2)
open Cert.KernelIdeal Cert.KernelIdeal.Gen Cert.KernelIdeal.Body

variable (m : (ℓ : Loc nD τ sig) → Buf (Elt Ideal) ℓ)

/-! ### Core c's argument arrays as functions of plain indices -/

abbrev aZH (c : Dev nD) : Fin 16384 → Fin 128 → EReal := fun n k => m ((c.tc : Thread nD τ).loc main_arg0) (ix2 n k)
abbrev aL (c : Dev nD) : Fin 16384 → Fin 16384 → EReal := fun r n => m ((c.tc : Thread nD τ).loc main_arg1) (ix2 r n)
abbrev aW (c : Dev nD) : Fin 16 → Fin 128 → EReal := fun o k => m ((c.tc : Thread nD τ).loc main_arg2) (ix2 o k)
abbrev aB (c : Dev nD) : Fin 16 → EReal := fun o => m ((c.tc : Thread nD τ).loc main_arg3) (ix1 o)
abbrev aG (c : Dev nD) : Fin 16 → EReal := fun o => m ((c.tc : Thread nD τ).loc main_arg4) (ix1 o)
abbrev aBeta (c : Dev nD) : Fin 16 → EReal := fun o => m ((c.tc : Thread nD τ).loc main_arg5) (ix1 o)

/-- The common result: the [16384, 1] array whose entry (r, 0) is the specification's result at row r. -/
def resOf (c : Dev nD) : Vec Ideal S16384x1 .f32 := fun idx =>
  SimplicialSpec.result (aZH m c) (aL m c) (aW m c) (aB m c) (aG m c) (aBeta m c)
    ⟨(idx 0).val, ValueIdx.idx2_lt0 idx⟩

theorem resOf_apply (c : Dev nD) (r : Fin 16384) :
    resOf m c (ix2 r (0 : Fin 1))
      = SimplicialSpec.result (aZH m c) (aL m c) (aW m c) (aB m c) (aG m c) (aBeta m c) r := rfl

/-- Every index of a [16384, 1] array is (r, 0). -/
theorem idx_col (idx : S16384x1.Idx) : ∃ r : Fin 16384, idx = ix2 r (0 : Fin 1) := by
  refine ⟨idx 0, funext fun a => ?_⟩
  match a with
  | ⟨0, _⟩ => rfl
  | ⟨1, _⟩ =>
    have h1 := ValueIdx.idx2_lt1 idx
    exact Fin.ext (by show (idx 1).val = 0; omega)

/-! ### The kernel -/

/-- What the windows' blocks hold, as entries of the argument arrays. -/
theorem blockReads (c : Dev nD) : BlockReads m c (aZH m c) (aL m c) (aW m c) (aB m c) (aG m c) (aBeta m c) where
  h0 t n k := blk0 m c t n k
  h2 t o k := blk2 m c t o k
  h3 t o := blk3 m c t o
  h4 t o := blk4 m c t o
  h5 t o := blk5 m c t o
  h1 n h p k := blk1 m c n h p k
  hpan n h X k o := pan_apply n h X k o

/-- After the region and the host reshape the result array is the common result. -/
theorem res_eq (c : Dev nD) :
    (Pipeline.afterTail₀ cfgs (dats m) 0 (V0 m) [hostOps1] c main_v4 : Vec Ideal S16384x1 .f32) = resOf m c := by
  funext idx
  obtain ⟨r, rfl⟩ := idx_col idx
  refine (tail_v4 m (dats m) c (outAt m c tLast) (arr6_final (dats m) c _ (after6 m c _)) r).trans ?_
  exact (outAt_apply (blockReads m c) tLast r).trans (resOf_apply m c r).symm

/-- The kernel runs; its result array ends at the common result and its arguments are unchanged: an array a
    window stages ends at its contents on entry, an array no window stages as the lines after the region leave it. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (res_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-! ### The reference -/

/-- The reference's composed term of the same arrays is the common result, when every entry is real. -/
theorem ref_eq (c : Dev nD)
    (hp : Cert.Pre_finite_inputs.fn (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) = (fun _ => 1#1)) :
    (Cert.ReferenceIdeal.HandRun.refTerm (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) : Vec Ideal S16384x1 .f32) = resOf m c := by
  obtain ⟨r0, r1, r2, r3, -, -⟩ := Cert.Finite.real_of_fn _ _ _ _ _ _ hp
  funext idx
  obtain ⟨r, rfl⟩ := idx_col idx
  refine (Cert.ReferenceIdeal.HandRead.refTerm_apply _ _ _ _ _ _ r).trans ?_
  refine (SimplicialSpec.resultQ_eq_result _ _ (fun n k => r0 (ix2 n k)) (fun r n => r1 (ix2 r n))
    (fun o k => r2 (ix2 o k)) (fun o => r3 (ix1 o)) r).trans ?_
  exact (resOf_apply m c r).symm

/-! ### The claim -/

theorem algebraic : Cert.algebraic_KernelIdeal_ReferenceIdeal := by
  intro m ρ m' ρ' hpre hagree
  refine ⟨fun c => resOf m c, kernel_run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5⟩ := hagree c
  rw [e0, e1, e2, e3, e4, e5]
  exact ref_eq m c (hpre c)

end Cert.Proof.Alg

end
-- ==== Proof.lean ====
/-
  The certificate of the simplicial convolution kernel: the linear layer Z_theta = Z_H·Wᵀ + b (128 → 16 features),
  the dense product Z_conv = L·Z_theta with the 16384 × 16384 operator, normalisation of each feature by its mean and
  variance over the 16384 rows, scale and shift, a clamp at zero, and the maximum over the 16 features.

  The claim is the conjunction of five statements, each under the side conditions the three programs state (shape
  relations, accesses inside their buffers, blocks inside their arrays: all decided on the literal shapes and grid),
  and each from any memory whose six argument arrays hold finite values.

  1. The kernel on bit patterns: every weakly fair execution terminates without a fault and leaves the six argument
     arrays unchanged. The 64 × 4 grid is walked point by point under an invariant on the three scratch buffers — the
     projection, computed at the first point and kept; the 256 × 16 block accumulator, overwritten at panel 0 of a row
     block and added to at panels 1 to 3; the transposed product, 256 more columns of it stored at each fourth point —
     and the body is run in the case the point's position selects; the last point alone writes the output block.
  2. The same statement for the kernel read over the extended reals: the same program text, the same walk.
  3. The same statement for the reference: with its three helper functions substituted at their calls it is a
     straight line of 56 tensor operations, which runs to its end and writes none of its arguments.
  4. Between the two readings of the kernel no operation was rewritten: there is nothing to preserve.
  5. Over the extended reals, from memories that agree on the arguments, the two programs end with the same
     16384 × 1 result. Both results are read index by index as one function of plain indices. On the kernel's side
     the projection is the linear layer as a sum over the 128 inputs; the accumulator after panel 3 is the dense
     product's sum over the 16384 columns, cut into four consecutive panels of 4096; the stored columns make up the
     whole transposed product; the last point's block is the normalised, scaled, shifted, clamped maximum over the
     features, and the reshape that follows puts entry r of that 1 × 16384 row at (r, 0). On the reference's side the
     same sums are read off its composed term: the mean and the variance as column sums over 16384.0 (the variance
     function's divisor 16384.0 − 0 is positive, so its selection takes the quotient), and the maximum as the fold of
     max from −∞. The kernel multiplies by the reciprocal square root where the reference divides by the square
     root: the two agree because finite inputs keep every stage real and the variance nonnegative, so that
     variance + ε is a positive real.
-/
import proofs.«148315_g64123861729553_cont_9to1_m_268_14_alg».proof.Defs
import proofs.«148315_g64123861729553_cont_9to1_m_268_14_alg».proof.Proof.Gen.Kernel
import proofs.«148315_g64123861729553_cont_9to1_m_268_14_alg».proof.Proof.Gen.KernelIdeal
import proofs.«148315_g64123861729553_cont_9to1_m_268_14_alg».proof.Proof.Gen.ReferenceIdeal
import proofs.«148315_g64123861729553_cont_9to1_m_268_14_alg».proof.Proof.Gen.Pre_finite_inputs
import proofs.«148315_g64123861729553_cont_9to1_m_268_14_alg».proof.Proof.K.Sound
import proofs.«148315_g64123861729553_cont_9to1_m_268_14_alg».proof.Proof.KI.Sound
import proofs.«148315_g64123861729553_cont_9to1_m_268_14_alg».proof.Proof.RefRun
import proofs.«148315_g64123861729553_cont_9to1_m_268_14_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame (F := Bits) m ρ,
    fun m ρ _ => Cert.KernelIdeal.Body.frame (F := Ideal) m ρ,
    fun m ρ _ => (θ_run Cert.ReferenceIdeal.defs _ _).mono (fun _ h c => (h c).2)
      (Cert.ReferenceIdeal.HandRun.run (F := Ideal) m ρ),
    trivial,
    Cert.Proof.Alg.algebraic⟩

end Cert.Proof

end
